-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v22_0)) (v1 : (c : Dev Cert.KernelIdeal.nD) → Buf (Elt Ideal) ((c.tc : Thread Cert.KernelIdeal.nD Cert.KernelIdeal.τ).loc Cert.KernelIdeal.main_v22_1)) (v2 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22_0) = v0 c
          ∧ r.2.mem ((c.tc : Thread Cert.KernelIdeal.nD Cert.KernelIdeal.τ).loc Cert.KernelIdeal.main_v22_1) = v1 c
          ∧ r.2.mem ((c.tc : Thread Cert.KernelIdeal.nD Cert.KernelIdeal.τ).loc Cert.KernelIdeal.main_v30) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v99) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S524288x1 : Shape := ⟨2, ![524288, 1]⟩
abbrev S524288x16 : Shape := ⟨2, ![524288, 16]⟩
abbrev S8x524288x16 : Shape := ⟨3, ![8, 524288, 16]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S128x16 : Shape := ⟨2, ![128, 16]⟩
abbrev S128 : Shape := ⟨1, ![128]⟩
abbrev S_ : Shape := ⟨0, ![]⟩

class Facts : Prop where
  bcast_S_S524288x1 : S_.BroadcastsInDim S524288x1 (![] : Fin 0 → Fin S524288x1.rank)
  reducesTo_S524288x1_S_d0_1 : S524288x1.ReducesTo [0, 1] S_
  h_S_ : 0 < S_.numel
  bcast_S_S524288x16 : S_.BroadcastsInDim S524288x16 (![] : Fin 0 → Fin S524288x16.rank)
  reducesTo_S524288x16_S_d0_1 : S524288x16.ReducesTo [0, 1] S_
  bcast_S_S8x524288x16 : S_.BroadcastsInDim S8x524288x16 (![] : Fin 0 → Fin S8x524288x16.rank)
  reducesTo_S8x524288x16_S_d0_1_2 : S8x524288x16.ReducesTo [0, 1, 2] S_
  bcast_S_S16x1 : S_.BroadcastsInDim S16x1 (![] : Fin 0 → Fin S16x1.rank)
  reducesTo_S16x1_S_d0_1 : S16x1.ReducesTo [0, 1] S_
  bcast_S_S16 : S_.BroadcastsInDim S16 (![] : Fin 0 → Fin S16.rank)
  reducesTo_S16_S_d0 : S16.ReducesTo [0] S_
  bcast_S_S48x16 : S_.BroadcastsInDim S48x16 (![] : Fin 0 → Fin S48x16.rank)
  reducesTo_S48x16_S_d0_1 : S48x16.ReducesTo [0, 1] S_
  bcast_S_S48 : S_.BroadcastsInDim S48 (![] : Fin 0 → Fin S48.rank)
  reducesTo_S48_S_d0 : S48.ReducesTo [0] S_
  bcast_S_S16x16 : S_.BroadcastsInDim S16x16 (![] : Fin 0 → Fin S16x16.rank)
  reducesTo_S16x16_S_d0_1 : S16x16.ReducesTo [0, 1] S_
  bcast_S_S128x16 : S_.BroadcastsInDim S128x16 (![] : Fin 0 → Fin S128x16.rank)
  reducesTo_S128x16_S_d0_1 : S128x16.ReducesTo [0, 1] S_
  bcast_S_S128 : S_.BroadcastsInDim S128 (![] : Fin 0 → Fin S128.rank)
  reducesTo_S128_S_d0 : S128.ReducesTo [0] S_

variable [Facts]

def fn_part7 {F : FTy → Type} [FloatOps F] (main_arg25 : FVec F S16 .f32) (main_v118 : IVec S_ 1) (main_v119 : FVec F S16x16 .f32) : IVec S_ 1 :=
  let main_cst_46 : FVec F S_ .f32 := constant S_ .f32 0x7F800000#32
  let main_v120 : FVec F S16x16 .f32 := broadcastInDim S16x16 ![] bcast_S_S16x16 main_cst_46
  let main_v121 : IVec S16x16 1 := cmpf .olt main_v119 main_v120
  let main_c_47 : IVec S_ 1 := constantI S_ 1 1#1
  let main_v122 : IVec S_ 1 := (fun x v => Host.reduce IntOp.andi x v reducesTo_S16x16_S_d0_1 h_S_) main_v121 main_c_47
  let main_v123 : IVec S_ 1 := andi main_v118 main_v122
  let main_v124 : FVec F S16 .f32 := Host.absf main_arg25
  let main_cst_48 : FVec F S_ .f32 := constant S_ .f32 0x7F800000#32
  let main_v125 : FVec F S16 .f32 := broadcastInDim S16 ![] bcast_S_S16 main_cst_48
  let main_v126 : IVec S16 1 := cmpf .olt main_v124 main_v125
  let main_c_49 : IVec S_ 1 := constantI S_ 1 1#1
  let main_v127 : IVec S_ 1 := (fun x v => Host.reduce IntOp.andi x v reducesTo_S16_S_d0 h_S_) main_v126 main_c_49
  let main_v128 : IVec S_ 1 := andi main_v123 main_v127
  main_v128

def fn_part6 {F : FTy → Type} [FloatOps F] (main_arg21 : FVec F S16 .f32) (main_arg22 : FVec F S16x16 .f32) (main_arg23 : FVec F S16 .f32) (main_arg24 : FVec F S16x16 .f32) (main_arg25 : FVec F S16 .f32) (main_v98 : IVec S_ 1) (main_v101 : IVec S16x16 1) (main_c_39 : IVec S_ 1) : IVec S_ 1 :=
  let main_v102 : IVec S_ 1 := (fun x v => Host.reduce IntOp.andi x v reducesTo_S16x16_S_d0_1 h_S_) main_v101 main_c_39
  let main_v103 : IVec S_ 1 := andi main_v98 main_v102
  let main_v104 : FVec F S16 .f32 := Host.absf main_arg21
  let main_cst_40 : FVec F S_ .f32 := constant S_ .f32 0x7F800000#32
  let main_v105 : FVec F S16 .f32 := broadcastInDim S16 ![] bcast_S_S16 main_cst_40
  let main_v106 : IVec S16 1 := cmpf .olt main_v104 main_v105
  let main_c_41 : IVec S_ 1 := constantI S_ 1 1#1
  let main_v107 : IVec S_ 1 := (fun x v => Host.reduce IntOp.andi x v reducesTo_S16_S_d0 h_S_) main_v106 main_c_41
  let main_v108 : IVec S_ 1 := andi main_v103 main_v107
  let main_v109 : FVec F S16x16 .f32 := Host.absf main_arg22
  let main_cst_42 : FVec F S_ .f32 := constant S_ .f32 0x7F800000#32
  let main_v110 : FVec F S16x16 .f32 := broadcastInDim S16x16 ![] bcast_S_S16x16 main_cst_42
  let main_v111 : IVec S16x16 1 := cmpf .olt main_v109 main_v110
  let main_c_43 : IVec S_ 1 := constantI S_ 1 1#1
  let main_v112 : IVec S_ 1 := (fun x v => Host.reduce IntOp.andi x v reducesTo_S16x16_S_d0_1 h_S_) main_v111 main_c_43
  let main_v113 : IVec S_ 1 := andi main_v108 main_v112
  let main_v114 : FVec F S16 .f32 := Host.absf main_arg23
  let main_cst_44 : FVec F S_ .f32 := constant S_ .f32 0x7F800000#32
  let main_v115 : FVec F S16 .f32 := broadcastInDim S16 ![] bcast_S_S16 main_cst_44
  let main_v116 : IVec S16 1 := cmpf .olt main_v114 main_v115
  let main_c_45 : IVec S_ 1 := constantI S_ 1 1#1
  let main_v117 : IVec S_ 1 := (fun x v => Host.reduce IntOp.andi x v reducesTo_S16_S_d0 h_S_) main_v116 main_c_45
  let main_v118 : IVec S_ 1 := andi main_v113 main_v117
  let main_v119 : FVec F S16x16 .f32 := Host.absf main_arg24
  fn_part7 (F := F) main_arg25 main_v118 main_v119

def fn_part5 {F : FTy → Type} [FloatOps F] (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S16x16 .f32 := Host.absf main_arg18
  let main_cst_34 : FVec F S_ .f32 := constant S_ .f32 0x7F800000#32
  let main_v90 : FVec F S16x16 .f32 := broadcastInDim S16x16 ![] bcast_S_S16x16 main_cst_34
  let main_v91 : IVec S16x16 1 := cmpf .olt main_v89 main_v90
  let main_c_35 : IVec S_ 1 := constantI S_ 1 1#1
  let main_v92 : IVec S_ 1 := (fun x v => Host.reduce IntOp.andi x v reducesTo_S16x16_S_d0_1 h_S_) main_v91 main_c_35
  let main_v93 : IVec S_ 1 := andi main_v88 main_v92
  let main_v94 : FVec F S16 .f32 := Host.absf main_arg19
  let main_cst_36 : FVec F S_ .f32 := constant S_ .f32 0x7F800000#32
  let main_v95 : FVec F S16 .f32 := broadcastInDim S16 ![] bcast_S_S16 main_cst_36
  let main_v96 : IVec S16 1 := cmpf .olt main_v94 main_v95
  let main_c_37 : IVec S_ 1 := constantI S_ 1 1#1
  let main_v97 : IVec S_ 1 := (fun x v => Host.reduce IntOp.andi x v reducesTo_S16_S_d0 h_S_) main_v96 main_c_37
  let main_v98 : IVec S_ 1 := andi main_v93 main_v97
  let main_v99 : FVec F S16x16 .f32 := Host.absf main_arg20
  let main_cst_38 : FVec F S_ .f32 := constant S_ .f32 0x7F800000#32
  let main_v100 : FVec F S16x16 .f32 := broadcastInDim S16x16 ![] bcast_S_S16x16 main_cst_38
  let main_v101 : IVec S16x16 1 := cmpf .olt main_v99 main_v100
  let main_c_39 : IVec S_ 1 := constantI S_ 1 1#1
  fn_part6 (F := F) main_arg21 main_arg22 main_arg23 main_arg24 main_arg25 main_v98 main_v101 main_c_39

def fn_part4 {F : FTy → Type} [FloatOps F] (main_arg14 : FVec F S128x16 .f32) (main_arg15 : FVec F S128 .f32) (main_arg16 : FVec F S128x16 .f32) (main_arg17 : FVec F S128 .f32) (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) (main_v63 : IVec S_ 1) (main_v67 : IVec S_ 1) : IVec S_ 1 :=
  let main_v68 : IVec S_ 1 := andi main_v63 main_v67
  let main_v69 : FVec F S128x16 .f32 := Host.absf main_arg14
  let main_cst_26 : FVec F S_ .f32 := constant S_ .f32 0x7F800000#32
  let main_v70 : FVec F S128x16 .f32 := broadcastInDim S128x16 ![] bcast_S_S128x16 main_cst_26
  let main_v71 : IVec S128x16 1 := cmpf .olt main_v69 main_v70
  let main_c_27 : IVec S_ 1 := constantI S_ 1 1#1
  let main_v72 : IVec S_ 1 := (fun x v => Host.reduce IntOp.andi x v reducesTo_S128x16_S_d0_1 h_S_) main_v71 main_c_27
  let main_v73 : IVec S_ 1 := andi main_v68 main_v72
  let main_v74 : FVec F S128 .f32 := Host.absf main_arg15
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x16 .f32 := Host.absf main_arg16
  let main_cst_30 : FVec F S_ .f32 := constant S_ .f32 0x7F800000#32
  let main_v80 : FVec F S128x16 .f32 := broadcastInDim S128x16 ![] bcast_S_S128x16 main_cst_30
  let main_v81 : IVec S128x16 1 := cmpf .olt main_v79 main_v80
  let main_c_31 : IVec S_ 1 := constantI S_ 1 1#1
  let main_v82 : IVec S_ 1 := (fun x v => Host.reduce IntOp.andi x v reducesTo_S128x16_S_d0_1 h_S_) main_v81 main_c_31
  let main_v83 : IVec S_ 1 := andi main_v78 main_v82
  let main_v84 : FVec F S128 .f32 := Host.absf main_arg17
  let main_cst_32 : FVec F S_ .f32 := constant S_ .f32 0x7F800000#32
  fn_part5 (F := F) main_arg18 main_arg19 main_arg20 main_arg21 main_arg22 main_arg23 main_arg24 main_arg25 main_v83 main_v84 main_cst_32

def fn_part3 {F : FTy → Type} [FloatOps F] (main_arg11 : FVec F S16 .f32) (main_arg12 : FVec F S16x16 .f32) (main_arg13 : FVec F S16 .f32) (main_arg14 : FVec F S128x16 .f32) (main_arg15 : FVec F S128 .f32) (main_arg16 : FVec F S128x16 .f32) (main_arg17 : FVec F S128 .f32) (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg11
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x16 .f32 := Host.absf main_arg12
  let main_cst_22 : FVec F S_ .f32 := constant S_ .f32 0x7F800000#32
  let main_v60 : FVec F S16x16 .f32 := broadcastInDim S16x16 ![] bcast_S_S16x16 main_cst_22
  let main_v61 : IVec S16x16 1 := cmpf .olt main_v59 main_v60
  let main_c_23 : IVec S_ 1 := constantI S_ 1 1#1
  let main_v62 : IVec S_ 1 := (fun x v => Host.reduce IntOp.andi x v reducesTo_S16x16_S_d0_1 h_S_) main_v61 main_c_23
  let main_v63 : IVec S_ 1 := andi main_v58 main_v62
  let main_v64 : FVec F S16 .f32 := Host.absf main_arg13
  let main_cst_24 : FVec F S_ .f32 := constant S_ .f32 0x7F800000#32
  let main_v65 : FVec F S16 .f32 := broadcastInDim S16 ![] bcast_S_S16 main_cst_24
  let main_v66 : IVec S16 1 := cmpf .olt main_v64 main_v65
  let main_c_25 : IVec S_ 1 := constantI S_ 1 1#1
  let main_v67 : IVec S_ 1 := (fun x v => Host.reduce IntOp.andi x v reducesTo_S16_S_d0 h_S_) main_v66 main_c_25
  fn_part4 (F := F) main_arg14 main_arg15 main_arg16 main_arg17 main_arg18 main_arg19 main_arg20 main_arg21 main_arg22 main_arg23 main_arg24 main_arg25 main_v63 main_v67

def fn_part2 {F : FTy → Type} [FloatOps F] (main_arg7 : FVec F S48 .f32) (main_arg8 : FVec F S48x16 .f32) (main_arg9 : FVec F S48 .f32) (main_arg10 : FVec F S16x16 .f32) (main_arg11 : FVec F S16 .f32) (main_arg12 : FVec F S16x16 .f32) (main_arg13 : FVec F S16 .f32) (main_arg14 : FVec F S128x16 .f32) (main_arg15 : FVec F S128 .f32) (main_arg16 : FVec F S128x16 .f32) (main_arg17 : FVec F S128 .f32) (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) (main_v33 : IVec S_ 1) : IVec S_ 1 :=
  let main_v34 : FVec F S48 .f32 := Host.absf main_arg7
  let main_cst_12 : FVec F S_ .f32 := constant S_ .f32 0x7F800000#32
  let main_v35 : FVec F S48 .f32 := broadcastInDim S48 ![] bcast_S_S48 main_cst_12
  let main_v36 : IVec S48 1 := cmpf .olt main_v34 main_v35
  let main_c_13 : IVec S_ 1 := constantI S_ 1 1#1
  let main_v37 : IVec S_ 1 := (fun x v => Host.reduce IntOp.andi x v reducesTo_S48_S_d0 h_S_) main_v36 main_c_13
  let main_v38 : IVec S_ 1 := andi main_v33 main_v37
  let main_v39 : FVec F S48x16 .f32 := Host.absf main_arg8
  let main_cst_14 : FVec F S_ .f32 := constant S_ .f32 0x7F800000#32
  let main_v40 : FVec F S48x16 .f32 := broadcastInDim S48x16 ![] bcast_S_S48x16 main_cst_14
  let main_v41 : IVec S48x16 1 := cmpf .olt main_v39 main_v40
  let main_c_15 : IVec S_ 1 := constantI S_ 1 1#1
  let main_v42 : IVec S_ 1 := (fun x v => Host.reduce IntOp.andi x v reducesTo_S48x16_S_d0_1 h_S_) main_v41 main_c_15
  let main_v43 : IVec S_ 1 := andi main_v38 main_v42
  let main_v44 : FVec F S48 .f32 := Host.absf main_arg9
  let main_cst_16 : FVec F S_ .f32 := constant S_ .f32 0x7F800000#32
  let main_v45 : FVec F S48 .f32 := broadcastInDim S48 ![] bcast_S_S48 main_cst_16
  let main_v46 : IVec S48 1 := cmpf .olt main_v44 main_v45
  let main_c_17 : IVec S_ 1 := constantI S_ 1 1#1
  let main_v47 : IVec S_ 1 := (fun x v => Host.reduce IntOp.andi x v reducesTo_S48_S_d0 h_S_) main_v46 main_c_17
  let main_v48 : IVec S_ 1 := andi main_v43 main_v47
  let main_v49 : FVec F S16x16 .f32 := Host.absf main_arg10
  let main_cst_18 : FVec F S_ .f32 := constant S_ .f32 0x7F800000#32
  let main_v50 : FVec F S16x16 .f32 := broadcastInDim S16x16 ![] bcast_S_S16x16 main_cst_18
  fn_part3 (F := F) main_arg11 main_arg12 main_arg13 main_arg14 main_arg15 main_arg16 main_arg17 main_arg18 main_arg19 main_arg20 main_arg21 main_arg22 main_arg23 main_arg24 main_arg25 main_v48 main_v49 main_v50

def fn_part1 {F : FTy → Type} [FloatOps F] (main_arg4 : FVec F S16x1 .f32) (main_arg5 : FVec F S16 .f32) (main_arg6 : FVec F S48x16 .f32) (main_arg7 : FVec F S48 .f32) (main_arg8 : FVec F S48x16 .f32) (main_arg9 : FVec F S48 .f32) (main_arg10 : FVec F S16x16 .f32) (main_arg11 : FVec F S16 .f32) (main_arg12 : FVec F S16x16 .f32) (main_arg13 : FVec F S16 .f32) (main_arg14 : FVec F S128x16 .f32) (main_arg15 : FVec F S128 .f32) (main_arg16 : FVec F S128x16 .f32) (main_arg17 : FVec F S128 .f32) (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) (main_v13 : IVec S_ 1) (main_v16 : IVec S8x524288x16 1) : IVec S_ 1 :=
  let main_c_5 : IVec S_ 1 := constantI S_ 1 1#1
  let main_v17 : IVec S_ 1 := (fun x v => Host.reduce IntOp.andi x v reducesTo_S8x524288x16_S_d0_1_2 h_S_) main_v16 main_c_5
  let main_v18 : IVec S_ 1 := andi main_v13 main_v17
  let main_v19 : FVec F S16x1 .f32 := Host.absf main_arg4
  let main_cst_6 : FVec F S_ .f32 := constant S_ .f32 0x7F800000#32
  let main_v20 : FVec F S16x1 .f32 := broadcastInDim S16x1 ![] bcast_S_S16x1 main_cst_6
  let main_v21 : IVec S16x1 1 := cmpf .olt main_v19 main_v20
  let main_c_7 : IVec S_ 1 := constantI S_ 1 1#1
  let main_v22 : IVec S_ 1 := (fun x v => Host.reduce IntOp.andi x v reducesTo_S16x1_S_d0_1 h_S_) main_v21 main_c_7
  let main_v23 : IVec S_ 1 := andi main_v18 main_v22
  let main_v24 : FVec F S16 .f32 := Host.absf main_arg5
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S48x16 .f32 := Host.absf main_arg6
  let main_cst_10 : FVec F S_ .f32 := constant S_ .f32 0x7F800000#32
  let main_v30 : FVec F S48x16 .f32 := broadcastInDim S48x16 ![] bcast_S_S48x16 main_cst_10
  let main_v31 : IVec S48x16 1 := cmpf .olt main_v29 main_v30
  let main_c_11 : IVec S_ 1 := constantI S_ 1 1#1
  let main_v32 : IVec S_ 1 := (fun x v => Host.reduce IntOp.andi x v reducesTo_S48x16_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_v33

def fn {F : FTy → Type} [FloatOps F] (main_arg0 : FVec F S524288x1 .f32) (main_arg1 : FVec F S524288x16 .f32) (main_arg2 : FVec F S524288x16 .f32) (main_arg3 : FVec F S8x524288x16 .f32) (main_arg4 : FVec F S16x1 .f32) (main_arg5 : FVec F S16 .f32) (main_arg6 : FVec F S48x16 .f32) (main_arg7 : FVec F S48 .f32) (main_arg8 : FVec F S48x16 .f32) (main_arg9 : FVec F S48 .f32) (main_arg10 : FVec F S16x16 .f32) (main_arg11 : FVec F S16 .f32) (main_arg12 : FVec F S16x16 .f32) (main_arg13 : FVec F S16 .f32) (main_arg14 : FVec F S128x16 .f32) (main_arg15 : FVec F S128 .f32) (main_arg16 : FVec F S128x16 .f32) (main_arg17 : FVec F S128 .f32) (main_arg18 : FVec F S16x16 .f32) (main_arg19 : FVec F S16 .f32) (main_arg20 : FVec F S16x16 .f32) (main_arg21 : FVec F S16 .f32) (main_arg22 : FVec F S16x16 .f32) (main_arg23 : FVec F S16 .f32) (main_arg24 : FVec F S16x16 .f32) (main_arg25 : FVec F S16 .f32) : IVec S_ 1 :=
  let main_v0 : FVec F S524288x1 .f32 := Host.absf main_arg0
  let main_cst : FVec F S_ .f32 := constant S_ .f32 0x7F800000#32
  let main_v1 : FVec F S524288x1 .f32 := broadcastInDim S524288x1 ![] bcast_S_S524288x1 main_cst
  let main_v2 : IVec S524288x1 1 := cmpf .olt main_v0 main_v1
  let main_c : IVec S_ 1 := constantI S_ 1 1#1
  let main_v3 : IVec S_ 1 := (fun x v => Host.reduce IntOp.andi x v reducesTo_S524288x1_S_d0_1 h_S_) main_v2 main_c
  let main_v4 : FVec F S524288x16 .f32 := Host.absf main_arg1
  let main_cst_0 : FVec F S_ .f32 := constant S_ .f32 0x7F800000#32
  let main_v5 : FVec F S524288x16 .f32 := broadcastInDim S524288x16 ![] bcast_S_S524288x16 main_cst_0
  let main_v6 : IVec S524288x16 1 := cmpf .olt main_v4 main_v5
  let main_c_1 : IVec S_ 1 := constantI S_ 1 1#1
  let main_v7 : IVec S_ 1 := (fun x v => Host.reduce IntOp.andi x v reducesTo_S524288x16_S_d0_1 h_S_) main_v6 main_c_1
  let main_v8 : IVec S_ 1 := andi main_v3 main_v7
  let main_v9 : FVec F S524288x16 .f32 := Host.absf main_arg2
  let main_cst_2 : FVec F S_ .f32 := constant S_ .f32 0x7F800000#32
  let main_v10 : FVec F S524288x16 .f32 := broadcastInDim S524288x16 ![] bcast_S_S524288x16 main_cst_2
  let main_v11 : IVec S524288x16 1 := cmpf .olt main_v9 main_v10
  let main_c_3 : IVec S_ 1 := constantI S_ 1 1#1
  let main_v12 : IVec S_ 1 := (fun x v => Host.reduce IntOp.andi x v reducesTo_S524288x16_S_d0_1 h_S_) main_v11 main_c_3
  let main_v13 : IVec S_ 1 := andi main_v8 main_v12
  let main_v14 : FVec F S8x524288x16 .f32 := Host.absf main_arg3
  let main_cst_4 : FVec F S_ .f32 := constant S_ .f32 0x7F800000#32
  let main_v15 : FVec F S8x524288x16 .f32 := broadcastInDim S8x524288x16 ![] bcast_S_S8x524288x16 main_cst_4
  let main_v16 : IVec S8x524288x16 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_v13 main_v16
-- ==== Kernel.lean ====
abbrev S524288x1 : Shape := ⟨2, ![524288, 1]⟩
abbrev S524288x16 : Shape := ⟨2, ![524288, 16]⟩
abbrev S8x524288x16 : Shape := ⟨3, ![8, 524288, 16]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S128x16 : Shape := ⟨2, ![128, 16]⟩
abbrev S128 : Shape := ⟨1, ![128]⟩
abbrev S1x16 : Shape := ⟨2, ![1, 16]⟩
abbrev S16x48 : Shape := ⟨2, ![16, 48]⟩
abbrev S16x128 : Shape := ⟨2, ![16, 128]⟩
abbrev S2048x1 : Shape := ⟨2, ![2048, 1]⟩
abbrev S2048x16 : Shape := ⟨2, ![2048, 16]⟩
abbrev S2048x48 : Shape := ⟨2, ![2048, 48]⟩
abbrev S1x48 : Shape := ⟨2, ![1, 48]⟩
abbrev S8x65536x16 : Shape := ⟨3, ![8, 65536, 16]⟩
abbrev S8x65536x128 : Shape := ⟨3, ![8, 65536, 128]⟩
abbrev S65536x128 : Shape := ⟨2, ![65536, 128]⟩
abbrev S8x512x16 : Shape := ⟨3, ![8, 512, 16]⟩
abbrev S8x512x128 : Shape := ⟨3, ![8, 512, 128]⟩
abbrev S512x128 : Shape := ⟨2, ![512, 128]⟩
abbrev S1x512x16 : Shape := ⟨3, ![1, 512, 16]⟩
abbrev S512x16 : Shape := ⟨2, ![512, 16]⟩
abbrev S1x128 : Shape := ⟨2, ![1, 128]⟩
abbrev S1x512x128 : Shape := ⟨3, ![1, 512, 128]⟩

abbrev nBuf : Space → Nat
  | .hbm => 61
  | .vmem => 52
  | .smem => 0
  | _ => 0

abbrev bufTy : (tb : Table) → Fin (tcTables nBuf tb) → BufTy
  | .hbm, ⟨0, _⟩ => ⟨S524288x1, .f32⟩
  | .hbm, ⟨1, _⟩ => ⟨S524288x16, .f32⟩
  | .hbm, ⟨2, _⟩ => ⟨S524288x16, .f32⟩
  | .hbm, ⟨3, _⟩ => ⟨S8x524288x16, .f32⟩
  | .hbm, ⟨4, _⟩ => ⟨S16x1, .f32⟩
  | .hbm, ⟨5, _⟩ => ⟨S16, .f32⟩
  | .hbm, ⟨6, _⟩ => ⟨S48x16, .f32⟩
  | .hbm, ⟨7, _⟩ => ⟨S48, .f32⟩
  | .hbm, ⟨8, _⟩ => ⟨S48x16, .f32⟩
  | .hbm, ⟨9, _⟩ => ⟨S48, .f32⟩
  | .hbm, ⟨10, _⟩ => ⟨S16x16, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S128x16, .f32⟩
  | .hbm, ⟨15, _⟩ => ⟨S128, .f32⟩
  | .hbm, ⟨16, _⟩ => ⟨S128x16, .f32⟩
  | .hbm, ⟨17, _⟩ => ⟨S128, .f32⟩
  | .hbm, ⟨18, _⟩ => ⟨S16x16, .f32⟩
  | .hbm, ⟨19, _⟩ => ⟨S16, .f32⟩
  | .hbm, ⟨20, _⟩ => ⟨S16x16, .f32⟩
  | .hbm, ⟨21, _⟩ => ⟨S16, .f32⟩
  | .hbm, ⟨22, _⟩ => ⟨S16x16, .f32⟩
  | .hbm, ⟨23, _⟩ => ⟨S16, .f32⟩
  | .hbm, ⟨24, _⟩ => ⟨S16x16, .f32⟩
  | .hbm, ⟨25, _⟩ => ⟨S16, .f32⟩
  | .hbm, ⟨26, _⟩ => ⟨S1x16, .f32⟩
  | .hbm, ⟨27, _⟩ => ⟨S1x16, .bf16⟩
  | .hbm, ⟨28, _⟩ => ⟨S16x48, .f32⟩
  | .hbm, ⟨29, _⟩ => ⟨S16x48, .bf16⟩
  | .hbm, ⟨30, _⟩ => ⟨S16x48, .f32⟩
  | .hbm, ⟨31, _⟩ => ⟨S16x48, .bf16⟩
  | .hbm, ⟨32, _⟩ => ⟨S16x16, .f32⟩
  | .hbm, ⟨33, _⟩ => ⟨S16x16, .bf16⟩
  | .hbm, ⟨34, _⟩ => ⟨S16x16, .f32⟩
  | .hbm, ⟨35, _⟩ => ⟨S16x16, .bf16⟩
  | .hbm, ⟨36, _⟩ => ⟨S16x16, .f32⟩
  | .hbm, ⟨37, _⟩ => ⟨S16x16, .bf16⟩
  | .hbm, ⟨38, _⟩ => ⟨S16x16, .f32⟩
  | .hbm, ⟨39, _⟩ => ⟨S16x16, .bf16⟩
  | .hbm, ⟨40, _⟩ => ⟨S16x16, .f32⟩
  | .hbm, ⟨41, _⟩ => ⟨S16x16, .bf16⟩
  | .hbm, ⟨42, _⟩ => ⟨S16x16, .f32⟩
  | .hbm, ⟨43, _⟩ => ⟨S16x16, .bf16⟩
  | .hbm, ⟨44, _⟩ => ⟨S16x128, .f32⟩
  | .hbm, ⟨45, _⟩ => ⟨S16x128, .bf16⟩
  | .hbm, ⟨46, _⟩ => ⟨S16x128, .f32⟩
  | .hbm, ⟨47, _⟩ => ⟨S16x128, .bf16⟩
  | .hbm, ⟨48, _⟩ => ⟨S524288x16, .f32⟩
  | .hbm, ⟨49, _⟩ => ⟨S524288x16, .f32⟩
  | .hbm, ⟨50, _⟩ => ⟨S524288x16, .bf16⟩
  | .hbm, ⟨51, _⟩ => ⟨S524288x16, .bf16⟩
  | .hbm, ⟨52, _⟩ => ⟨S524288x16, .bf16⟩
  | .hbm, ⟨53, _⟩ => ⟨S8x65536x16, .bf16⟩
  | .hbm, ⟨54, _⟩ => ⟨S8x65536x16, .f32⟩
  | .hbm, ⟨55, _⟩ => ⟨S8x65536x128, .f32⟩
  | .hbm, ⟨56, _⟩ => ⟨S65536x128, .bf16⟩
  | .hbm, ⟨57, _⟩ => ⟨S65536x128, .bf16⟩
  | .hbm, ⟨58, _⟩ => ⟨S65536x128, .f32⟩
  | .hbm, ⟨59, _⟩ => ⟨S65536x128, .f32⟩
  | .hbm, ⟨60, _⟩ => ⟨S524288x16, .f32⟩
  | .local _ .vmem, ⟨0, _⟩ => ⟨S2048x1, .f32⟩
  | .local _ .vmem, ⟨1, _⟩ => ⟨S2048x1, .f32⟩
  | .local _ .vmem, ⟨2, _⟩ => ⟨S2048x16, .f32⟩
  | .local _ .vmem, ⟨3, _⟩ => ⟨S2048x16, .f32⟩
  | .local _ .vmem, ⟨4, _⟩ => ⟨S2048x16, .f32⟩
  | .local _ .vmem, ⟨5, _⟩ => ⟨S2048x16, .f32⟩
  | .local _ .vmem, ⟨6, _⟩ => ⟨S1x16, .bf16⟩
  | .local _ .vmem, ⟨7, _⟩ => ⟨S16, .f32⟩
  | .local _ .vmem, ⟨8, _⟩ => ⟨S16x48, .bf16⟩
  | .local _ .vmem, ⟨9, _⟩ => ⟨S48, .f32⟩
  | .local _ .vmem, ⟨10, _⟩ => ⟨S16x48, .bf16⟩
  | .local _ .vmem, ⟨11, _⟩ => ⟨S48, .f32⟩
  | .local _ .vmem, ⟨12, _⟩ => ⟨S16x16, .bf16⟩
  | .local _ .vmem, ⟨13, _⟩ => ⟨S16, .f32⟩
  | .local _ .vmem, ⟨14, _⟩ => ⟨S16x16, .bf16⟩
  | .local _ .vmem, ⟨15, _⟩ => ⟨S16, .f32⟩
  | .local _ .vmem, ⟨16, _⟩ => ⟨S16x16, .bf16⟩
  | .local _ .vmem, ⟨17, _⟩ => ⟨S16, .f32⟩
  | .local _ .vmem, ⟨18, _⟩ => ⟨S16x16, .bf16⟩
  | .local _ .vmem, ⟨19, _⟩ => ⟨S16, .f32⟩
  | .local _ .vmem, ⟨20, _⟩ => ⟨S16x16, .bf16⟩
  | .local _ .vmem, ⟨21, _⟩ => ⟨S16, .f32⟩
  | .local _ .vmem, ⟨22, _⟩ => ⟨S16x16, .bf16⟩
  | .local _ .vmem, ⟨23, _⟩ => ⟨S16, .f32⟩
  | .local _ .vmem, ⟨24, _⟩ => ⟨S2048x16, .f32⟩
  | .local _ .vmem, ⟨25, _⟩ => ⟨S2048x16, .f32⟩
  | .local _ .vmem, ⟨26, _⟩ => ⟨S2048x16, .f32⟩
  | .local _ .vmem, ⟨27, _⟩ => ⟨S2048x16, .f32⟩
  | .local _ .vmem, ⟨28, _⟩ => ⟨S2048x16, .bf16⟩
  | .local _ .vmem, ⟨29, _⟩ => ⟨S2048x16, .bf16⟩
  | .local _ .vmem, ⟨30, _⟩ => ⟨S2048x16, .bf16⟩
  | .local _ .vmem, ⟨31, _⟩ => ⟨S2048x16, .bf16⟩
  | .local _ .vmem, ⟨32, _⟩ => ⟨S2048x16, .bf16⟩
  | .local _ .vmem, ⟨33, _⟩ => ⟨S2048x16, .bf16⟩
  | .local _ .vmem, ⟨34, _⟩ => ⟨S8x512x16, .bf16⟩
  | .local _ .vmem, ⟨35, _⟩ => ⟨S8x512x16, .bf16⟩
  | .local _ .vmem, ⟨36, _⟩ => ⟨S8x512x16, .f32⟩
  | .local _ .vmem, ⟨37, _⟩ => ⟨S8x512x16, .f32⟩
  | .local _ .vmem, ⟨38, _⟩ => ⟨S8x512x128, .f32⟩
  | .local _ .vmem, ⟨39, _⟩ => ⟨S8x512x128, .f32⟩
  | .local _ .vmem, ⟨40, _⟩ => ⟨S512x128, .bf16⟩
  | .local _ .vmem, ⟨41, _⟩ => ⟨S512x128, .bf16⟩
  | .local _ .vmem, ⟨42, _⟩ => ⟨S512x128, .bf16⟩
  | .local _ .vmem, ⟨43, _⟩ => ⟨S512x128, .bf16⟩
  | .local _ .vmem, ⟨44, _⟩ => ⟨S512x128, .f32⟩
  | .local _ .vmem, ⟨45, _⟩ => ⟨S512x128, .f32⟩
  | .local _ .vmem, ⟨46, _⟩ => ⟨S16x128, .bf16⟩
  | .local _ .vmem, ⟨47, _⟩ => ⟨S128, .f32⟩
  | .local _ .vmem, ⟨48, _⟩ => ⟨S16x128, .bf16⟩
  | .local _ .vmem, ⟨49, _⟩ => ⟨S128, .f32⟩
  | .local _ .vmem, ⟨50, _⟩ => ⟨S512x128, .f32⟩
  | .local _ .vmem, ⟨51, _⟩ => ⟨S512x128, .f32⟩
  | _, _ => ⟨S524288x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22_0 : Ref sig .tc := ⟨.hbm, 48, rfl⟩
abbrev main_v22_1 : Ref sig .tc := ⟨.hbm, 49, rfl⟩
abbrev main_v22_2 : Ref sig .tc := ⟨.hbm, 50, rfl⟩
abbrev main_v22_3 : Ref sig .tc := ⟨.hbm, 51, rfl⟩
abbrev main_v22_4 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_stg22_0 : Ref sig .tc := ⟨.vmem, 26, rfl⟩
abbrev cc0_stg22_1 : Ref sig .tc := ⟨.vmem, 27, rfl⟩
abbrev cc0_stg23_0 : Ref sig .tc := ⟨.vmem, 28, rfl⟩
abbrev cc0_stg23_1 : Ref sig .tc := ⟨.vmem, 29, rfl⟩
abbrev cc0_stg24_0 : Ref sig .tc := ⟨.vmem, 30, rfl⟩
abbrev cc0_stg24_1 : Ref sig .tc := ⟨.vmem, 31, rfl⟩
abbrev cc0_stg25_0 : Ref sig .tc := ⟨.vmem, 32, rfl⟩
abbrev cc0_stg25_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg1_1 : Ref sig .tc := ⟨.vmem, 37, rfl⟩
abbrev cc1_stg2_0 : Ref sig .tc := ⟨.vmem, 38, rfl⟩
abbrev cc1_stg2_1 : Ref sig .tc := ⟨.vmem, 39, rfl⟩
abbrev cc1_stg3_0 : Ref sig .tc := ⟨.vmem, 40, rfl⟩
abbrev cc1_stg3_1 : Ref sig .tc := ⟨.vmem, 41, rfl⟩
abbrev cc1_stg4_0 : Ref sig .tc := ⟨.vmem, 42, rfl⟩
abbrev cc1_stg4_1 : Ref sig .tc := ⟨.vmem, 43, rfl⟩
abbrev cc1_stg5_0 : Ref sig .tc := ⟨.vmem, 44, rfl⟩
abbrev cc1_stg5_1 : Ref sig .tc := ⟨.vmem, 45, rfl⟩
abbrev cc1_stg6_0 : Ref sig .tc := ⟨.vmem, 46, rfl⟩
abbrev cc1_stg7_0 : Ref sig .tc := ⟨.vmem, 47, rfl⟩
abbrev cc1_stg8_0 : Ref sig .tc := ⟨.vmem, 48, rfl⟩
abbrev cc1_stg9_0 : Ref sig .tc := ⟨.vmem, 49, rfl⟩
abbrev cc1_stg10_0 : Ref sig .tc := ⟨.vmem, 50, rfl⟩
abbrev cc1_stg10_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25
abbrev cc0_sem22_0 : DmaSem sig := 26
abbrev cc0_sem22_1 : DmaSem sig := 27
abbrev cc0_sem23_0 : DmaSem sig := 28
abbrev cc0_sem23_1 : DmaSem sig := 29
abbrev cc0_sem24_0 : DmaSem sig := 30
abbrev cc0_sem24_1 : DmaSem sig := 31
abbrev cc0_sem25_0 : DmaSem sig := 32
abbrev cc0_sem25_1 : DmaSem sig := 33
abbrev cc1_sem0_0 : DmaSem sig := 34
abbrev cc1_sem0_1 : DmaSem sig := 35
abbrev cc1_sem1_0 : DmaSem sig := 36
abbrev cc1_sem1_1 : DmaSem sig := 37
abbrev cc1_sem2_0 : DmaSem sig := 38
abbrev cc1_sem2_1 : DmaSem sig := 39
abbrev cc1_sem3_0 : DmaSem sig := 40
abbrev cc1_sem3_1 : DmaSem sig := 41
abbrev cc1_sem4_0 : DmaSem sig := 42
abbrev cc1_sem4_1 : DmaSem sig := 43
abbrev cc1_sem5_0 : DmaSem sig := 44
abbrev cc1_sem5_1 : DmaSem sig := 45
abbrev cc1_sem6_0 : DmaSem sig := 46
abbrev cc1_sem7_0 : DmaSem sig := 47
abbrev cc1_sem8_0 : DmaSem sig := 48
abbrev cc1_sem9_0 : DmaSem sig := 49
abbrev cc1_sem10_0 : DmaSem sig := 50
abbrev cc1_sem10_1 : DmaSem sig := 51

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_25 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x16 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x48 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x48 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x16 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S16 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x16 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S16x16 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S16x16 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S16 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S16x16 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S16 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S16x16 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S16 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S2048x16 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S2048x16 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S2048x16 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S2048x16 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S2048x16 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8x512x16 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8x512x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S16x128 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x128 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  transposes_S16x1_S1x16_1_0 : S16x1.Transposes [1, 0] S1x16
  bitsLt_bf16_f32 : FTy.bits .bf16 < FTy.bits .f32
  transposes_S48x16_S16x48_1_0 : S48x16.Transposes [1, 0] S16x48
  transposes_S16x16_S16x16_1_0 : S16x16.Transposes [1, 0] S16x16
  transposes_S128x16_S16x128_1_0 : S128x16.Transposes [1, 0] S16x128
  inb_S2048x1_S2048x1_0_0 : ∀ a, (![0, 0] : Fin 2 → Nat) a + S2048x1.size a ≤ S2048x1.size a
  h_S2048x1 : 0 < S2048x1.numel
  inb_S2048x16_S2048x16_0_0 : ∀ a, (![0, 0] : Fin 2 → Nat) a + S2048x16.size a ≤ S2048x16.size a
  h_S2048x16 : 0 < S2048x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  inb_S16_S16_0 : ∀ a, (![0] : Fin 1 → Nat) a + S16.size a ≤ S16.size a
  h_S16 : 0 < S16.numel
  shapeCasts_S16_S1x16 : S16.ShapeCasts S1x16
  broadcasts_S1x16_S2048x16 : S1x16.Broadcasts S2048x16
  inb_S16x48_S16x48_0_0 : ∀ a, (![0, 0] : Fin 2 → Nat) a + S16x48.size a ≤ S16x48.size a
  h_S16x48 : 0 < S16x48.numel
  shapeCasts_S16x48_S16x48 : S16x48.ShapeCasts S16x48
  inb_S48_S48_0 : ∀ a, (![0] : Fin 1 → Nat) a + S48.size a ≤ S48.size a
  h_S48 : 0 < S48.numel
  shapeCasts_S48_S1x48 : S48.ShapeCasts S1x48
  broadcasts_S1x48_S2048x48 : S1x48.Broadcasts S2048x48
  slices_S2048x48_o0_0_S2048x16 : S2048x48.Slices ![0, 0] S2048x16
  slices_S2048x48_o0_16_S2048x16 : S2048x48.Slices ![0, 16] S2048x16
  slices_S2048x48_o0_32_S2048x16 : S2048x48.Slices ![0, 32] S2048x16
  inb_S16x16_S16x16_0_0 : ∀ a, (![0, 0] : Fin 2 → Nat) a + S16x16.size a ≤ S16x16.size a
  h_S16x16 : 0 < S16x16.numel
  shapeCasts_S16x16_S16x16 : S16x16.ShapeCasts S16x16
  packedbf16_S2048x16_S2048x16_0_0 : (Rect.unit (s := S2048x16) ![0, 0] S2048x16.size inb_S2048x16_S2048x16_0_0).PackedRows (EltTy.packing .bf16)
  shapeCasts_S524288x16_S8x65536x16 : S524288x16.ShapeCasts S8x65536x16
  shapeCasts_S8x524288x16_S8x65536x128 : S8x524288x16.ShapeCasts S8x65536x128
  shapeCasts_S524288x16_S65536x128 : S524288x16.ShapeCasts S65536x128
  inb_S8x512x16_S1x512x16_0_0_0 : ∀ a, (![0, 0, 0] : Fin 3 → Nat) a + S1x512x16.size a ≤ S8x512x16.size a
  h_S1x512x16 : 0 < S1x512x16.numel
  shapeCasts_S1x512x16_S512x16 : S1x512x16.ShapeCasts S512x16
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  inb_S8x512x128_S1x512x128_0_0_0 : ∀ a, (![0, 0, 0] : Fin 3 → Nat) a + S1x512x128.size a ≤ S8x512x128.size a
  h_S1x512x128 : 0 < S1x512x128.numel
  shapeCasts_S1x512x128_S512x128 : S1x512x128.ShapeCasts S512x128
  inb_S8x512x16_S1x512x16_1_0_0 : ∀ a, (![1, 0, 0] : Fin 3 → Nat) a + S1x512x16.size a ≤ S8x512x16.size a
  inb_S8x512x128_S1x512x128_1_0_0 : ∀ a, (![1, 0, 0] : Fin 3 → Nat) a + S1x512x128.size a ≤ S8x512x128.size a
  inb_S8x512x16_S1x512x16_2_0_0 : ∀ a, (![2, 0, 0] : Fin 3 → Nat) a + S1x512x16.size a ≤ S8x512x16.size a
  inb_S8x512x128_S1x512x128_2_0_0 : ∀ a, (![2, 0, 0] : Fin 3 → Nat) a + S1x512x128.size a ≤ S8x512x128.size a
  inb_S8x512x16_S1x512x16_3_0_0 : ∀ a, (![3, 0, 0] : Fin 3 → Nat) a + S1x512x16.size a ≤ S8x512x16.size a
  inb_S8x512x128_S1x512x128_3_0_0 : ∀ a, (![3, 0, 0] : Fin 3 → Nat) a + S1x512x128.size a ≤ S8x512x128.size a
  inb_S8x512x16_S1x512x16_4_0_0 : ∀ a, (![4, 0, 0] : Fin 3 → Nat) a + S1x512x16.size a ≤ S8x512x16.size a
  inb_S8x512x128_S1x512x128_4_0_0 : ∀ a, (![4, 0, 0] : Fin 3 → Nat) a + S1x512x128.size a ≤ S8x512x128.size a
  inb_S8x512x16_S1x512x16_5_0_0 : ∀ a, (![5, 0, 0] : Fin 3 → Nat) a + S1x512x16.size a ≤ S8x512x16.size a
  inb_S8x512x128_S1x512x128_5_0_0 : ∀ a, (![5, 0, 0] : Fin 3 → Nat) a + S1x512x128.size a ≤ S8x512x128.size a
  inb_S8x512x16_S1x512x16_6_0_0 : ∀ a, (![6, 0, 0] : Fin 3 → Nat) a + S1x512x16.size a ≤ S8x512x16.size a
  inb_S8x512x128_S1x512x128_6_0_0 : ∀ a, (![6, 0, 0] : Fin 3 → Nat) a + S1x512x128.size a ≤ S8x512x128.size a
  inb_S8x512x16_S1x512x16_7_0_0 : ∀ a, (![7, 0, 0] : Fin 3 → Nat) a + S1x512x16.size a ≤ S8x512x16.size a
  inb_S8x512x128_S1x512x128_7_0_0 : ∀ a, (![7, 0, 0] : Fin 3 → Nat) a + S1x512x128.size a ≤ S8x512x128.size a
  inb_S512x128_S512x128_0_0 : ∀ a, (![0, 0] : Fin 2 → Nat) a + S512x128.size a ≤ S512x128.size a
  h_S512x128 : 0 < S512x128.numel
  shapeCasts_S512x128_S512x128 : S512x128.ShapeCasts S512x128
  shapeCasts_S65536x128_S524288x16 : S65536x128.ShapeCasts S524288x16
  dot_S2048x1_S1x16_S2048x16_1_0_0_1_n_n_wf : DotDims.WF S2048x1 S1x16 S2048x16 [1] [0] [0] [1] [] []
  dot_S2048x16_S16x48_S2048x48_1_0_0_1_n_n_wf : DotDims.WF S2048x16 S16x48 S2048x48 [1] [0] [0] [1] [] []
  dot_S2048x16_S16x16_S2048x16_1_0_0_1_n_n_wf : DotDims.WF S2048x16 S16x16 S2048x16 [1] [0] [0] [1] [] []
  dot_S512x16_S16x128_S512x128_1_0_0_1_n_n_wf : DotDims.WF S512x16 S16x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1.size a ≤ S524288x1.size a
  hwx0_0 : ∀ i : grid0.Coords, EltTy.bits .f32 = 32 ∨ (Rect.block (s := S524288x1) S2048x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S524288x16.size a
  hwx0_1 : ∀ i : grid0.Coords, EltTy.bits .f32 = 32 ∨ (Rect.block (s := S524288x16) S2048x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x16.size a ≤ S524288x16.size a
  hwx0_2 : ∀ i : grid0.Coords, EltTy.bits .f32 = 32 ∨ (Rect.block (s := S524288x16) S2048x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .bf16 = 32 ∨ (Rect.block (s := S1x16) S1x16.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S16.size a ≤ S16.size a
  hwx0_4 : ∀ i : grid0.Coords, EltTy.bits .f32 = 32 ∨ (Rect.block (s := S16) S16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x48.size a ≤ S16x48.size a
  hwx0_5 : ∀ i : grid0.Coords, EltTy.bits .bf16 = 32 ∨ (Rect.block (s := S16x48) S16x48.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S48.size a ≤ S48.size a
  hwx0_6 : ∀ i : grid0.Coords, EltTy.bits .f32 = 32 ∨ (Rect.block (s := S48) S48.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x48.size a ≤ S16x48.size a
  hwx0_7 : ∀ i : grid0.Coords, EltTy.bits .bf16 = 32 ∨ (Rect.block (s := S16x48) S16x48.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S48.size a ≤ S48.size a
  hwx0_8 : ∀ i : grid0.Coords, EltTy.bits .f32 = 32 ∨ (Rect.block (s := S48) S48.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x16.size a ≤ S16x16.size a
  hwx0_9 : ∀ i : grid0.Coords, EltTy.bits .bf16 = 32 ∨ (Rect.block (s := S16x16) S16x16.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S16.size a ≤ S16.size a
  hwx0_10 : ∀ i : grid0.Coords, EltTy.bits .f32 = 32 ∨ (Rect.block (s := S16) S16.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S16x16.size a ≤ S16x16.size a
  hwx0_11 : ∀ i : grid0.Coords, EltTy.bits .bf16 = 32 ∨ (Rect.block (s := S16x16) S16x16.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S16.size a ≤ S16.size a
  hwx0_12 : ∀ i : grid0.Coords, EltTy.bits .f32 = 32 ∨ (Rect.block (s := S16) S16.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S16x16.size a ≤ S16x16.size a
  hwx0_13 : ∀ i : grid0.Coords, EltTy.bits .bf16 = 32 ∨ (Rect.block (s := S16x16) S16x16.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S16.size a ≤ S16.size a
  hwx0_14 : ∀ i : grid0.Coords, EltTy.bits .f32 = 32 ∨ (Rect.block (s := S16) S16.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S16x16.size a ≤ S16x16.size a
  hwx0_15 : ∀ i : grid0.Coords, EltTy.bits .bf16 = 32 ∨ (Rect.block (s := S16x16) S16x16.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S16.size a ≤ S16.size a
  hwx0_16 : ∀ i : grid0.Coords, EltTy.bits .f32 = 32 ∨ (Rect.block (s := S16) S16.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S16x16.size a ≤ S16x16.size a
  hwx0_17 : ∀ i : grid0.Coords, EltTy.bits .bf16 = 32 ∨ (Rect.block (s := S16x16) S16x16.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S16.size a ≤ S16.size a
  hwx0_18 : ∀ i : grid0.Coords, EltTy.bits .f32 = 32 ∨ (Rect.block (s := S16) S16.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S16x16.size a ≤ S16x16.size a
  hwx0_19 : ∀ i : grid0.Coords, EltTy.bits .bf16 = 32 ∨ (Rect.block (s := S16x16) S16x16.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S16.size a ≤ S16.size a
  hwx0_20 : ∀ i : grid0.Coords, EltTy.bits .f32 = 32 ∨ (Rect.block (s := S16) S16.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S2048x16.size a ≤ S524288x16.size a
  hwx0_21 : ∀ i : grid0.Coords, EltTy.bits .f32 = 32 ∨ (Rect.block (s := S524288x16) S2048x16.size (cc0_transform_21 i) (hinb0_21 i)).WholeWords (EltTy.packing .f32)
  hstage0_22 : ∀ j, (stage0_22 j).IsWhole
  nbuf0_22 : grid0.bufCount reads0_22 false = 2
  hreads0_22 : ∀ i i' : grid0.Coords, (∀ a, reads0_22 a = true → i a = i' a) → cc0_transform_22 i = cc0_transform_22 i'
  hinb0_22 : ∀ (i : grid0.Coords) a, (cc0_transform_22 i a + 1) * S2048x16.size a ≤ S524288x16.size a
  hwx0_22 : ∀ i : grid0.Coords, EltTy.bits .f32 = 32 ∨ (Rect.block (s := S524288x16) S2048x16.size (cc0_transform_22 i) (hinb0_22 i)).WholeWords (EltTy.packing .f32)
  hstage0_23 : ∀ j, (stage0_23 j).IsWhole
  nbuf0_23 : grid0.bufCount reads0_23 false = 2
  hreads0_23 : ∀ i i' : grid0.Coords, (∀ a, reads0_23 a = true → i a = i' a) → cc0_transform_23 i = cc0_transform_23 i'
  hinb0_23 : ∀ (i : grid0.Coords) a, (cc0_transform_23 i a + 1) * S2048x16.size a ≤ S524288x16.size a
  hwx0_23 : ∀ i : grid0.Coords, EltTy.bits .bf16 = 32 ∨ (Rect.block (s := S524288x16) S2048x16.size (cc0_transform_23 i) (hinb0_23 i)).WholeWords (EltTy.packing .bf16)
  hstage0_24 : ∀ j, (stage0_24 j).IsWhole
  nbuf0_24 : grid0.bufCount reads0_24 false = 2
  hreads0_24 : ∀ i i' : grid0.Coords, (∀ a, reads0_24 a = true → i a = i' a) → cc0_transform_24 i = cc0_transform_24 i'
  hinb0_24 : ∀ (i : grid0.Coords) a, (cc0_transform_24 i a + 1) * S2048x16.size a ≤ S524288x16.size a
  hwx0_24 : ∀ i : grid0.Coords, EltTy.bits .bf16 = 32 ∨ (Rect.block (s := S524288x16) S2048x16.size (cc0_transform_24 i) (hinb0_24 i)).WholeWords (EltTy.packing .bf16)
  hstage0_25 : ∀ j, (stage0_25 j).IsWhole
  nbuf0_25 : grid0.bufCount reads0_25 false = 2
  hreads0_25 : ∀ i i' : grid0.Coords, (∀ a, reads0_25 a = true → i a = i' a) → cc0_transform_25 i = cc0_transform_25 i'
  hinb0_25 : ∀ (i : grid0.Coords) a, (cc0_transform_25 i a + 1) * S2048x16.size a ≤ S524288x16.size a
  hwx0_25 : ∀ i : grid0.Coords, EltTy.bits .bf16 = 32 ∨ (Rect.block (s := S524288x16) S2048x16.size (cc0_transform_25 i) (hinb0_25 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x512x16.size a ≤ S8x65536x16.size a
  hwx1_0 : ∀ i : grid1.Coords, EltTy.bits .bf16 = 32 ∨ (Rect.block (s := S8x65536x16) S8x512x16.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x512x16.size a ≤ S8x65536x16.size a
  hwx1_1 : ∀ i : grid1.Coords, EltTy.bits .f32 = 32 ∨ (Rect.block (s := S8x65536x16) S8x512x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x512x128.size a ≤ S8x65536x128.size a
  hwx1_2 : ∀ i : grid1.Coords, EltTy.bits .f32 = 32 ∨ (Rect.block (s := S8x65536x128) S8x512x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S65536x128.size a
  hwx1_3 : ∀ i : grid1.Coords, EltTy.bits .bf16 = 32 ∨ (Rect.block (s := S65536x128) S512x128.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x128.size a ≤ S65536x128.size a
  hwx1_4 : ∀ i : grid1.Coords, EltTy.bits .bf16 = 32 ∨ (Rect.block (s := S65536x128) S512x128.size (cc1_transform_4 i) (hinb1_4 i)).WholeWords (EltTy.packing .bf16)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x128.size a ≤ S65536x128.size a
  hwx1_5 : ∀ i : grid1.Coords, EltTy.bits .f32 = 32 ∨ (Rect.block (s := S65536x128) S512x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S16x128.size a ≤ S16x128.size a
  hwx1_6 : ∀ i : grid1.Coords, EltTy.bits .bf16 = 32 ∨ (Rect.block (s := S16x128) S16x128.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S16x128.size a ≤ S16x128.size a
  hwx1_8 : ∀ i : grid1.Coords, EltTy.bits .bf16 = 32 ∨ (Rect.block (s := S16x128) S16x128.size (cc1_transform_8 i) (hinb1_8 i)).WholeWords (EltTy.packing .bf16)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S512x128.size a ≤ S65536x128.size a
  hwx1_10 : ∀ i : grid1.Coords, EltTy.bits .f32 = 32 ∨ (Rect.block (s := S65536x128) S512x128.size (cc1_transform_10 i) (hinb1_10 i)).WholeWords (EltTy.packing .f32)

variable [Facts₀]

def dot_S2048x1_S1x16_S2048x16_1_0_0_1_n_n : DotDims S2048x1 S1x16 S2048x16 where
  lhsContracting := [1]
  rhsContracting := [0]
  lhsNonContracting := [0]
  rhsNonContracting := [1]
  lhsBatch := []
  rhsBatch := []
  wf := dot_S2048x1_S1x16_S2048x16_1_0_0_1_n_n_wf
def dot_S2048x16_S16x48_S2048x48_1_0_0_1_n_n : DotDims S2048x16 S16x48 S2048x48 where
  lhsContracting := [1]
  rhsContracting := [0]
  lhsNonContracting := [0]
  rhsNonContracting := [1]
  lhsBatch := []
  rhsBatch := []
  wf := dot_S2048x16_S16x48_S2048x48_1_0_0_1_n_n_wf
def dot_S2048x16_S16x16_S2048x16_1_0_0_1_n_n : DotDims S2048x16 S16x16 S2048x16 where
  lhsContracting := [1]
  rhsContracting := [0]
  lhsNonContracting := [0]
  rhsNonContracting := [1]
  lhsBatch := []
  rhsBatch := []
  wf := dot_S2048x16_S16x16_S2048x16_1_0_0_1_n_n_wf
def dot_S512x16_S16x128_S512x128_1_0_0_1_n_n : DotDims S512x16 S16x128 S512x128 where
  lhsContracting := [1]
  rhsContracting := [0]
  lhsNonContracting := [0]
  rhsNonContracting := [1]
  lhsBatch := []
  rhsBatch := []
  wf := dot_S512x16_S16x128_S512x128_1_0_0_1_n_n_wf

abbrev win0_0 : Pipeline.Window sig grid0 :=
  Pipeline.Window.ofSpec (Memref.whole main_arg0) S2048x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S16x48.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S48.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S16x48.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S48.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S16x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S16.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S16x16.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg13) S16.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v11) S16x16.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg19) S16.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13) S16x16.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg21) S16.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v15) S16x16.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg23) S16.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v17) S16x16.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg25) S16.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v22_0) S2048x16.size cc0_transform_21 reads0_21 true false 2 stage0_21 sem0_21
    hrank0 hreads0_21 hinb0_21 nbuf0_21 (Memref.isWhole_whole _) hwx0_21 hstage0_21

abbrev win0_22 : Pipeline.Window sig grid0 :=
  Pipeline.Window.ofSpec (Memref.whole main_v22_1) S2048x16.size cc0_transform_22 reads0_22 true false 2 stage0_22 sem0_22
    hrank0 hreads0_22 hinb0_22 nbuf0_22 (Memref.isWhole_whole _) hwx0_22 hstage0_22

abbrev win0_23 : Pipeline.Window sig grid0 :=
  Pipeline.Window.ofSpec (Memref.whole main_v22_2) S2048x16.size cc0_transform_23 reads0_23 true false 2 stage0_23 sem0_23
    hrank0 hreads0_23 hinb0_23 nbuf0_23 (Memref.isWhole_whole _) hwx0_23 hstage0_23

abbrev win0_24 : Pipeline.Window sig grid0 :=
  Pipeline.Window.ofSpec (Memref.whole main_v22_3) S2048x16.size cc0_transform_24 reads0_24 true false 2 stage0_24 sem0_24
    hrank0 hreads0_24 hinb0_24 nbuf0_24 (Memref.isWhole_whole _) hwx0_24 hstage0_24

abbrev win0_25 : Pipeline.Window sig grid0 :=
  Pipeline.Window.ofSpec (Memref.whole main_v22_4) S2048x16.size cc0_transform_25 reads0_25 true false 2 stage0_25 sem0_25
    hrank0 hreads0_25 hinb0_25 nbuf0_25 (Memref.isWhole_whole _) hwx0_25 hstage0_25

abbrev win0 : Fin 26 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | ⟨_ + 26, h⟩ => absurd h (Nat.not_lt.2 (Nat.le_add_left _ _))
abbrev spec0 : Fin 26 → Pipeline.WinSpec sig grid0.rank := fun w => (win0 w).toWinSpec

abbrev win1_0 : Pipeline.Window sig grid1 :=
  Pipeline.Window.ofSpec (Memref.whole main_v23) S8x512x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S8x512x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v25) S8x512x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v26) S512x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v27) S512x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S512x128.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v19) S16x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v21) S16x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v29) S512x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S524288x1 : Shape := ⟨2, ![524288, 1]⟩
abbrev S524288x16 : Shape := ⟨2, ![524288, 16]⟩
abbrev S8x524288x16 : Shape := ⟨3, ![8, 524288, 16]⟩
abbrev S16x1 : Shape := ⟨2, ![16, 1]⟩
abbrev S16 : Shape := ⟨1, ![16]⟩
abbrev S48x16 : Shape := ⟨2, ![48, 16]⟩
abbrev S48 : Shape := ⟨1, ![48]⟩
abbrev S16x16 : Shape := ⟨2, ![16, 16]⟩
abbrev S128x16 : Shape := ⟨2, ![128, 16]⟩
abbrev S128 : Shape := ⟨1, ![128]⟩
abbrev S1x16 : Shape := ⟨2, ![1, 16]⟩
abbrev S_ : Shape := ⟨0, ![]⟩
abbrev S16x48 : Shape := ⟨2, ![16, 48]⟩
abbrev S524288x48 : Shape := ⟨2, ![524288, 48]⟩
abbrev S1x48 : Shape := ⟨2, ![1, 48]⟩
abbrev S16x128 : Shape := ⟨2, ![16, 128]⟩
abbrev S524288x128 : Shape := ⟨2, ![524288, 128]⟩
abbrev S1x128 : Shape := ⟨2, ![1, 128]⟩

abbrev nBuf : Space → Nat
  | .hbm => 137
  | .vmem => 0
  | .smem => 0
  | _ => 0

abbrev hbmTy0_0 (i : Nat) : BufTy := match i % 128 with
  | 0 => ⟨S524288x1, .f32⟩
  | 1 => ⟨S524288x16, .f32⟩
  | 2 => ⟨S524288x16, .f32⟩
  | 3 => ⟨S8x524288x16, .f32⟩
  | 4 => ⟨S16x1, .f32⟩
  | 5 => ⟨S16, .f32⟩
  | 6 => ⟨S48x16, .f32⟩
  | 7 => ⟨S48, .f32⟩
  | 8 => ⟨S48x16, .f32⟩
  | 9 => ⟨S48, .f32⟩
  | 10 => ⟨S16x16, .f32⟩
  | 11 => ⟨S16, .f32⟩
  | 12 => ⟨S16x16, .f32⟩
  | 13 => ⟨S16, .f32⟩
  | 14 => ⟨S128x16, .f32⟩
  | 15 => ⟨S128, .f32⟩
  | 16 => ⟨S128x16, .f32⟩
  | 17 => ⟨S128, .f32⟩
  | 18 => ⟨S16x16, .f32⟩
  | 19 => ⟨S16, .f32⟩
  | 20 => ⟨S16x16, .f32⟩
  | 21 => ⟨S16, .f32⟩
  | 22 => ⟨S16x16, .f32⟩
  | 23 => ⟨S16, .f32⟩
  | 24 => ⟨S16x16, .f32⟩
  | 25 => ⟨S16, .f32⟩
  | 26 => ⟨S1x16, .f32⟩
  | 27 => ⟨S524288x16, .f32⟩
  | 28 => ⟨S1x16, .f32⟩
  | 29 => ⟨S524288x16, .f32⟩
  | 30 => ⟨S524288x16, .f32⟩
  | 31 => ⟨S_, .f32⟩
  | 32 => ⟨S524288x16, .f32⟩
  | 33 => ⟨S524288x16, .f32⟩
  | 34 => ⟨S16x48, .f32⟩
  | 35 => ⟨S524288x48, .f32⟩
  | 36 => ⟨S1x48, .f32⟩
  | 37 => ⟨S524288x48, .f32⟩
  | 38 => ⟨S524288x48, .f32⟩
  | 39 => ⟨S16x48, .f32⟩
  | 40 => ⟨S524288x48, .f32⟩
  | 41 => ⟨S1x48, .f32⟩
  | 42 => ⟨S524288x48, .f32⟩
  | 43 => ⟨S524288x48, .f32⟩
  | 44 => ⟨S524288x48, .f32⟩
  | 45 => ⟨S524288x48, .f32⟩
  | 46 => ⟨S524288x48, .f32⟩
  | 47 => ⟨S_, .f32⟩
  | 48 => ⟨S524288x48, .f32⟩
  | 49 => ⟨S524288x48, .f32⟩
  | 50 => ⟨S_, .f32⟩
  | 51 => ⟨S524288x48, .f32⟩
  | 52 => ⟨S524288x48, .f32⟩
  | 53 => ⟨S524288x16, .f32⟩
  | 54 => ⟨S524288x16, .f32⟩
  | 55 => ⟨S524288x16, .f32⟩
  | 56 => ⟨S16x16, .f32⟩
  | 57 => ⟨S524288x16, .f32⟩
  | 58 => ⟨S1x16, .f32⟩
  | 59 => ⟨S524288x16, .f32⟩
  | 60 => ⟨S524288x16, .f32⟩
  | 61 => ⟨S16x16, .f32⟩
  | 62 => ⟨S524288x16, .f32⟩
  | 63 => ⟨S1x16, .f32⟩
  | 64 => ⟨S524288x16, .f32⟩
  | 65 => ⟨S524288x16, .f32⟩
  | 66 => ⟨S524288x16, .f32⟩
  | 67 => ⟨S524288x16, .f32⟩
  | 68 => ⟨S524288x16, .f32⟩
  | 69 => ⟨S524288x16, .f32⟩
  | 70 => ⟨S524288x16, .f32⟩
  | 71 => ⟨S524288x16, .f32⟩
  | 72 => ⟨S524288x16, .f32⟩
  | 73 => ⟨S16x128, .f32⟩
  | 74 => ⟨S524288x128, .f32⟩
  | 75 => ⟨S1x128, .f32⟩
  | 76 => ⟨S524288x128, .f32⟩
  | 77 => ⟨S524288x128, .f32⟩
  | 78 => ⟨S16x128, .f32⟩
  | 79 => ⟨S524288x128, .f32⟩
  | 80 => ⟨S1x128, .f32⟩
  | 81 => ⟨S524288x128, .f32⟩
  | 82 => ⟨S524288x128, .f32⟩
  | 83 => ⟨S524288x128, .f32⟩
  | 84 => ⟨S524288x128, .f32⟩
  | 85 => ⟨S524288x128, .f32⟩
  | 86 => ⟨S_, .f32⟩
  | 87 => ⟨S524288x128, .f32⟩
  | 88 => ⟨S524288x128, .f32⟩
  | 89 => ⟨S_, .f32⟩
  | 90 => ⟨S524288x128, .f32⟩
  | 91 => ⟨S524288x128, .f32⟩
  | 92 => ⟨S8x524288x16, .f32⟩
  | 93 => ⟨S8x524288x16, .f32⟩
  | 94 => ⟨S_, .f32⟩
  | 95 => ⟨S524288x16, .f32⟩
  | 96 => ⟨S16x16, .f32⟩
  | 97 => ⟨S524288x16, .f32⟩
  | 98 => ⟨S1x16, .f32⟩
  | 99 => ⟨S524288x16, .f32⟩
  | 100 => ⟨S524288x16, .f32⟩
  | 101 => ⟨S16x16, .f32⟩
  | 102 => ⟨S524288x16, .f32⟩
  | 103 => ⟨S1x16, .f32⟩
  | 104 => ⟨S524288x16, .f32⟩
  | 105 => ⟨S524288x16, .f32⟩
  | 106 => ⟨S524288x16, .f32⟩
  | 107 => ⟨S524288x16, .f32⟩
  | 108 => ⟨S524288x16, .f32⟩
  | 109 => ⟨S_, .f32⟩
  | 110 => ⟨S524288x16, .f32⟩
  | 111 => ⟨S524288x16, .f32⟩
  | 112 => ⟨S_, .f32⟩
  | 113 => ⟨S524288x16, .f32⟩
  | 114 => ⟨S524288x16, .f32⟩
  | 115 => ⟨S16x16, .f32⟩
  | 116 => ⟨S524288x16, .f32⟩
  | 117 => ⟨S1x16, .f32⟩
  | 118 => ⟨S524288x16, .f32⟩
  | 119 => ⟨S524288x16, .f32⟩
  | 120 => ⟨S16x16, .f32⟩
  | 121 => ⟨S524288x16, .f32⟩
  | 122 => ⟨S1x16, .f32⟩
  | 123 => ⟨S524288x16, .f32⟩
  | 124 => ⟨S524288x16, .f32⟩
  | 125 => ⟨S524288x16, .f32⟩
  | 126 => ⟨S524288x16, .f32⟩
  | 127 => ⟨S524288x16, .f32⟩
  | _ => ⟨S524288x1, .f32⟩

abbrev hbmTy0_1 (i : Nat) : BufTy := match i % 128 with
  | 0 => ⟨S_, .f32⟩
  | 1 => ⟨S524288x16, .f32⟩
  | 2 => ⟨S524288x16, .f32⟩
  | 3 => ⟨S_, .f32⟩
  | 4 => ⟨S524288x16, .f32⟩
  | 5 => ⟨S524288x16, .f32⟩
  | 6 => ⟨S524288x16, .f32⟩
  | 7 => ⟨S524288x16, .f32⟩
  | 8 => ⟨S524288x16, .f32⟩
  | _ => ⟨S524288x1, .f32⟩

abbrev hbmTy (i : Nat) : BufTy := match i / 128 with
  | 0 => hbmTy0_0 i
  | 1 => hbmTy0_1 i
  | _ => ⟨S524288x1, .f32⟩

abbrev bufTy : (tb : Table) → Fin (tcTables nBuf tb) → BufTy
  | .hbm, ⟨i, _⟩ => hbmTy i
  | _, _ => ⟨S524288x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_call0_cst : Ref sig .tc := ⟨.hbm, 31, rfl⟩
abbrev main_call0_v0 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst : Ref sig .tc := ⟨.hbm, 47, rfl⟩
abbrev main_v19 : Ref sig .tc := ⟨.hbm, 48, rfl⟩
abbrev main_v20 : Ref sig .tc := ⟨.hbm, 49, rfl⟩
abbrev main_cst_0 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_cst_1 : Ref sig .tc := ⟨.hbm, 86, rfl⟩
abbrev main_v56 : Ref sig .tc := ⟨.hbm, 87, rfl⟩
abbrev main_v57 : Ref sig .tc := ⟨.hbm, 88, rfl⟩
abbrev main_cst_2 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_cst_3 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_4 : Ref sig .tc := ⟨.hbm, 109, rfl⟩
abbrev main_v76 : Ref sig .tc := ⟨.hbm, 110, rfl⟩
abbrev main_v77 : Ref sig .tc := ⟨.hbm, 111, rfl⟩
abbrev main_cst_5 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_6 : Ref sig .tc := ⟨.hbm, 128, rfl⟩
abbrev main_v93 : Ref sig .tc := ⟨.hbm, 129, rfl⟩
abbrev main_v94 : Ref sig .tc := ⟨.hbm, 130, rfl⟩
abbrev main_cst_7 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩

abbrev nD : Nat := 1
abbrev τ : Topo := Topo.v7x

variable {F : FTy → Type} [FloatOps F]

class Facts₀ : Prop where
  transposes_S16x1_S1x16_1_0 : S16x1.Transposes [1, 0] S1x16
  bcast_S16_S1x16_1 : S16.BroadcastsInDim S1x16 (![1] : Fin 1 → Fin S1x16.rank)
  bcast_S1x16_S524288x16_0_1 : S1x16.BroadcastsInDim S524288x16 (![0, 1] : Fin 2 → Fin S524288x16.rank)
  bcast_S_S524288x16 : S_.BroadcastsInDim S524288x16 (![] : Fin 0 → Fin S524288x16.rank)
  transposes_S48x16_S16x48_1_0 : S48x16.Transposes [1, 0] S16x48
  bcast_S48_S1x48_1 : S48.BroadcastsInDim S1x48 (![1] : Fin 1 → Fin S1x48.rank)
  bcast_S1x48_S524288x48_0_1 : S1x48.BroadcastsInDim S524288x48 (![0, 1] : Fin 2 → Fin S524288x48.rank)
  bcast_S_S524288x48 : S_.BroadcastsInDim S524288x48 (![] : Fin 0 → Fin S524288x48.rank)
  slices_S524288x48_S524288x16_0_0 : S524288x48.Slices ![0, 0] S524288x16
  slices_S524288x48_S524288x16_0_16 : S524288x48.Slices ![0, 16] S524288x16
  slices_S524288x48_S524288x16_0_32 : S524288x48.Slices ![0, 32] S524288x16
  transposes_S16x16_S16x16_1_0 : S16x16.Transposes [1, 0] S16x16
  transposes_S128x16_S16x128_1_0 : S128x16.Transposes [1, 0] S16x128
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  shapeCasts_S524288x128_S8x524288x16 : S524288x128.ShapeCasts S8x524288x16
  reducesTo_S8x524288x16_S524288x16_d0 : S8x524288x16.ReducesTo [0] S524288x16
  h_S_ : 0 < S_.numel
  dot_S524288x1_S1x16_S524288x16_1_0_0_1_n_n_wf : DotDims.WF S524288x1 S1x16 S524288x16 [1] [0] [0] [1] [] []
  dot_S524288x16_S16x48_S524288x48_1_0_0_1_n_n_wf : DotDims.WF S524288x16 S16x48 S524288x48 [1] [0] [0] [1] [] []
  dot_S524288x16_S16x16_S524288x16_1_0_0_1_n_n_wf : DotDims.WF S524288x16 S16x16 S524288x16 [1] [0] [0] [1] [] []
  dot_S524288x16_S16x128_S524288x128_1_0_0_1_n_n_wf : DotDims.WF S524288x16 S16x128 S524288x128 [1] [0] [0] [1] [] []

variable [Facts₀]

def dot_S524288x1_S1x16_S524288x16_1_0_0_1_n_n : DotDims S524288x1 S1x16 S524288x16 where
  lhsContracting := [1]
  rhsContracting := [0]
  lhsNonContracting := [0]
  rhsNonContracting := [1]
  lhsBatch := []
  rhsBatch := []
  wf := dot_S524288x1_S1x16_S524288x16_1_0_0_1_n_n_wf
def dot_S524288x16_S16x48_S524288x48_1_0_0_1_n_n : DotDims S524288x16 S16x48 S524288x48 where
  lhsContracting := [1]
  rhsContracting := [0]
  lhsNonContracting := [0]
  rhsNonContracting := [1]
  lhsBatch := []
  rhsBatch := []
  wf := dot_S524288x16_S16x48_S524288x48_1_0_0_1_n_n_wf
def dot_S524288x16_S16x16_S524288x16_1_0_0_1_n_n : DotDims S524288x16 S16x16 S524288x16 where
  lhsContracting := [1]
  rhsContracting := [0]
  lhsNonContracting := [0]
  rhsNonContracting := [1]
  lhsBatch := []
  rhsBatch := []
  wf := dot_S524288x16_S16x16_S524288x16_1_0_0_1_n_n_wf
def dot_S524288x16_S16x128_S524288x128_1_0_0_1_n_n : DotDims S524288x16 S16x128 S524288x128 where
  lhsContracting := [1]
  rhsContracting := [0]
  lhsNonContracting := [0]
  rhsNonContracting := [1]
  lhsBatch := []
  rhsBatch := []
  wf := dot_S524288x16_S16x128_S524288x128_1_0_0_1_n_n_wf

class Facts : Prop extends Facts₀ where

variable [Facts]
-- ==== Proof.KernelRun.lean ====
/-
  The idealized kernel's run with its three result buffers named.

  The program is two kernel launches among three stretches of host operations. Its buffer contents at the five
  boundaries are a fold from the launch memory: a stretch of host operations applies its operations, a launch leaves
  every array its windows write back at what the write-backs made of it and every other buffer as it was. Every weakly
  fair execution terminates without a fault, and the final memory holds, at every buffer no launch scopes, the last
  fold's contents — in particular at the three results, which is what this module states beside the unchanged arguments.
-/
import proofs.«110906_j20761871909637_2_alg».proof.Proof.FrameKernelIdealP

set_option maxRecDepth 16384

noncomputable section

namespace Cert.KernelIdeal.Results

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the three results at the last boundary's contents
    and the argument arrays as launched. -/
theorem run_results : θ_run defs (onTc (τ := τ) (main (F := F))) ⟨m, fun _ => 0, ρ⟩ (fun r => ∀ c : Dev nD,
      r.2.mem ((c.tc : Thread nD τ).loc main_v22_0) = W5 m ρ c (Proc.devRef .tc main_v22_0)
      ∧ r.2.mem ((c.tc : Thread nD τ).loc main_v22_1) = W5 m ρ c (Proc.devRef .tc main_v22_1)
      ∧ r.2.mem ((c.tc : Thread nD τ).loc main_v30) = W5 m ρ c (Proc.devRef .tc main_v30)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v22_0 (by decide)),
       h c _ (mem_uc main_v22_1 (by decide)),
       h c _ (mem_uc main_v30 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c),
       (h c _ (mem_uc main_arg12 (by decide))).trans (W5_main_arg12 m ρ c),
       (h c _ (mem_uc main_arg13 (by decide))).trans (W5_main_arg13 m ρ c),
       (h c _ (mem_uc main_arg14 (by decide))).trans (W5_main_arg14 m ρ c),
       (h c _ (mem_uc main_arg15 (by decide))).trans (W5_main_arg15 m ρ c),
       (h c _ (mem_uc main_arg16 (by decide))).trans (W5_main_arg16 m ρ c),
       (h c _ (mem_uc main_arg17 (by decide))).trans (W5_main_arg17 m ρ c),
       (h c _ (mem_uc main_arg18 (by decide))).trans (W5_main_arg18 m ρ c),
       (h c _ (mem_uc main_arg19 (by decide))).trans (W5_main_arg19 m ρ c),
       (h c _ (mem_uc main_arg20 (by decide))).trans (W5_main_arg20 m ρ c),
       (h c _ (mem_uc main_arg21 (by decide))).trans (W5_main_arg21 m ρ c),
       (h c _ (mem_uc main_arg22 (by decide))).trans (W5_main_arg22 m ρ c),
       (h c _ (mem_uc main_arg23 (by decide))).trans (W5_main_arg23 m ρ c),
       (h c _ (mem_uc main_arg24 (by decide))).trans (W5_main_arg24 m ρ c),
       (h c _ (mem_uc main_arg25 (by decide))).trans (W5_main_arg25 m ρ c)⟩)

end Cert.KernelIdeal.Results

end
-- ==== Proof.Reshapes.lean ====
/-
  Four reinterpretations of a row-major buffer, each read at an entry.

  A reshape keeps the flat position. With 524288 = 8 · 65536 and 128 = 8 · 16:
  * splitting the leading axis, `[524288, 16] → [8, 65536, 16]`: entry `(c, r, k)` is entry `(65536 c + r, k)`;
  * merging eight rows of sixteen into one of a hundred and twenty-eight, `[524288, 16] → [65536, 128]`: entry `(r, q)`
    is entry `(8 r + q / 16, q % 16)`; the same under a leading axis, `[8, 524288, 16] → [8, 65536, 128]`;
  * and back, `[65536, 128] → [524288, 16]`: entry `(b, j)` is entry `(b / 8, 16 (b % 8) + j)`.
-/
import Idealize.ShloMosaic.Lib.Pipeline.Value
import Idealize.ShloMosaic.Lib.ValueIdx

noncomputable section

namespace TreeCell.Reshape

open Idealize.ShloMosaic Idealize.ShloMosaic.ValueIdx

variable {α : Type}

/-- Row `65536 c + r` of the long axis. -/
abbrev runRow (c : Fin 8) (r : Fin 65536) : Fin 524288 := ⟨65536 * c.val + r.val, by omega⟩

/-- Row `8 r + q / 16` of the long axis, for a lane `q` of a merged row. -/
abbrev laneRow (r : Fin 65536) (q : Fin 128) : Fin 524288 := ⟨8 * r.val + q.val / 16, by omega⟩

/-- The position `q % 16` inside its group of sixteen lanes. -/
abbrev laneCol (q : Fin 128) : Fin 16 := ⟨q.val % 16, by omega⟩

/-- The merged row `b / 8` that holds row `b`. -/
abbrev mergedRow (b : Fin 524288) : Fin 65536 := ⟨b.val / 8, by omega⟩

/-- The lane `16 (b % 8) + j` of the merged row at which entry `(b, j)` sits. -/
abbrev mergedLane (b : Fin 524288) (j : Fin 16) : Fin 128 := ⟨16 * (b.val % 8) + j.val, by omega⟩

/-- Splitting the leading axis into eight runs of 65536 rows. -/
theorem split_rows (x : (⟨2, ![524288, 16]⟩ : Shape).Idx → α)
    (h : (⟨2, ![524288, 16]⟩ : Shape).ShapeCasts ⟨3, ![8, 65536, 16]⟩) (c : Fin 8) (r : Fin 65536) (k : Fin 16) :
    shapeCast ⟨3, ![8, 65536, 16]⟩ x h (ix3 c r k) = x (ix2 (runRow c r) k) := by
  refine shapeCast_apply x h (ix3 c r k) (ix2 (runRow c r) k) ?_
  rw [Shape.rowMajor_val_two, Shape.rowMajor_val_three]
  show (65536 * c.val + r.val) * 16 + k.val = (c.val * 65536 + r.val) * 16 + k.val
  omega

/-- Merging eight rows of sixteen into one row of a hundred and twenty-eight. -/
theorem merge_lanes (x : (⟨2, ![524288, 16]⟩ : Shape).Idx → α)
    (h : (⟨2, ![524288, 16]⟩ : Shape).ShapeCasts ⟨2, ![65536, 128]⟩) (r : Fin 65536) (q : Fin 128) :
    shapeCast ⟨2, ![65536, 128]⟩ x h (ix2 r q) = x (ix2 (laneRow r q) (laneCol q)) := by
  refine shapeCast_apply x h (ix2 r q) (ix2 (laneRow r q) (laneCol q)) ?_
  rw [Shape.rowMajor_val_two, Shape.rowMajor_val_two]
  show (8 * r.val + q.val / 16) * 16 + q.val % 16 = r.val * 128 + q.val
  omega

/-- The same merge under a leading axis of eight. -/
theorem merge_lanes3 (x : (⟨3, ![8, 524288, 16]⟩ : Shape).Idx → α)
    (h : (⟨3, ![8, 524288, 16]⟩ : Shape).ShapeCasts ⟨3, ![8, 65536, 128]⟩) (c : Fin 8) (r : Fin 65536) (q : Fin 128) :
    shapeCast ⟨3, ![8, 65536, 128]⟩ x h (ix3 c r q) = x (ix3 c (laneRow r q) (laneCol q)) := by
  refine shapeCast_apply x h (ix3 c r q) (ix3 c (laneRow r q) (laneCol q)) ?_
  rw [Shape.rowMajor_val_three, Shape.rowMajor_val_three]
  show (c.val * 524288 + (8 * r.val + q.val / 16)) * 16 + q.val % 16 = (c.val * 65536 + r.val) * 128 + q.val
  omega

/-- Splitting a row of a hundred and twenty-eight back into eight rows of sixteen. -/
theorem split_lanes (x : (⟨2, ![65536, 128]⟩ : Shape).Idx → α)
    (h : (⟨2, ![65536, 128]⟩ : Shape).ShapeCasts ⟨2, ![524288, 16]⟩) (b : Fin 524288) (j : Fin 16) :
    shapeCast ⟨2, ![524288, 16]⟩ x h (ix2 b j) = x (ix2 (mergedRow b) (mergedLane b j)) := by
  refine shapeCast_apply x h (ix2 b j) (ix2 (mergedRow b) (mergedLane b j)) ?_
  rw [Shape.rowMajor_val_two, Shape.rowMajor_val_two]
  show b.val / 8 * 128 + (16 * (b.val % 8) + j.val) = b.val * 16 + j.val
  omega

/-- Entry `(b, j)` sits in merged row `b / 8` at lane `16 (b % 8) + j`; read back through the merge it is itself. -/
theorem laneRow_merged (b : Fin 524288) (j : Fin 16) : laneRow (mergedRow b) (mergedLane b j) = b := by
  apply Fin.ext; show 8 * (b.val / 8) + (16 * (b.val % 8) + j.val) / 16 = b.val; omega

theorem laneCol_merged (b : Fin 524288) (j : Fin 16) : laneCol (mergedLane b j) = j := by
  apply Fin.ext; show (16 * (b.val % 8) + j.val) % 16 = j.val; omega

end TreeCell.Reshape

end
-- ==== Proof.Stages.lean ====
/-
  The idealized kernel's buffers at the boundaries between its stretches of host operations and its two launches.

  Before the first launch the host transposes each weight matrix (and narrows its format, the identity on the extended
  reals): buffer entry `(k, j)` is the given matrix at `(j, k)`. Between the launches it reinterprets six arrays'
  flat buffers, after the second it reinterprets the result. Every other buffer passes each stretch and each launch
  untouched: a stretch changes only what its operations write, a launch only the arrays its output windows write back.
-/
import proofs.«110906_j20761871909637_2_alg».proof.Proof.FrameKernelIdealP
import proofs.«110906_j20761871909637_2_alg».proof.Proof.Reshapes

set_option maxRecDepth 16384

noncomputable section

namespace Cert.KernelIdeal.Stages

open Cert.KernelIdeal Cert.KernelIdeal.Gen Cert.KernelIdeal.GenP
open Idealize.ShloMosaic Idealize.ShloMosaic.TcCoe Idealize.ShloMosaic.Tactic Idealize.ShloMosaic.ValueIdx Idealize.ShloMosaic.StableHlo
open Idealize.SL.Sem
open Idealize.ShloMosaic.Pipeline (Dat Cfg Window)

variable (m : (ℓ : Loc nD τ sig) → Buf (Elt Ideal) ℓ) (ρ : Dev nD → PrngReg)

/-- No operation of a stretch writes the buffer: every operation's result buffer is another one. -/
local macro "no_write " ops:ident : tactic => `(tactic| (
  simp only [$ops:ident, List.flatten_cons, List.flatten_nil, List.append_nil, List.cons_append, List.nil_append,
    List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## At the first launch: after the transposes -/

theorem at1_arg0 (c : Dev nD) : W1 m ρ c (Proc.devRef .tc main_arg0) = m ((c : Thread nD τ).loc main_arg0) :=
  (StableHlo.after_of_forall_not_mem (b := Proc.devRef .tc main_arg0) _ _ (List.forall_iff_forall_mem.mp (by no_write hostOps0))).trans rfl
theorem at1_arg1 (c : Dev nD) : W1 m ρ c (Proc.devRef .tc main_arg1) = m ((c : Thread nD τ).loc main_arg1) :=
  (StableHlo.after_of_forall_not_mem (b := Proc.devRef .tc main_arg1) _ _ (List.forall_iff_forall_mem.mp (by no_write hostOps0))).trans rfl
theorem at1_arg2 (c : Dev nD) : W1 m ρ c (Proc.devRef .tc main_arg2) = m ((c : Thread nD τ).loc main_arg2) :=
  (StableHlo.after_of_forall_not_mem (b := Proc.devRef .tc main_arg2) _ _ (List.forall_iff_forall_mem.mp (by no_write hostOps0))).trans rfl
theorem at1_arg3 (c : Dev nD) : W1 m ρ c (Proc.devRef .tc main_arg3) = m ((c : Thread nD τ).loc main_arg3) :=
  (StableHlo.after_of_forall_not_mem (b := Proc.devRef .tc main_arg3) _ _ (List.forall_iff_forall_mem.mp (by no_write hostOps0))).trans rfl
theorem at1_arg5 (c : Dev nD) : W1 m ρ c (Proc.devRef .tc main_arg5) = m ((c : Thread nD τ).loc main_arg5) :=
  (StableHlo.after_of_forall_not_mem (b := Proc.devRef .tc main_arg5) _ _ (List.forall_iff_forall_mem.mp (by no_write hostOps0))).trans rfl
theorem at1_arg7 (c : Dev nD) : W1 m ρ c (Proc.devRef .tc main_arg7) = m ((c : Thread nD τ).loc main_arg7) :=
  (StableHlo.after_of_forall_not_mem (b := Proc.devRef .tc main_arg7) _ _ (List.forall_iff_forall_mem.mp (by no_write hostOps0))).trans rfl
theorem at1_arg9 (c : Dev nD) : W1 m ρ c (Proc.devRef .tc main_arg9) = m ((c : Thread nD τ).loc main_arg9) :=
  (StableHlo.after_of_forall_not_mem (b := Proc.devRef .tc main_arg9) _ _ (List.forall_iff_forall_mem.mp (by no_write hostOps0))).trans rfl
theorem at1_arg11 (c : Dev nD) : W1 m ρ c (Proc.devRef .tc main_arg11) = m ((c : Thread nD τ).loc main_arg11) :=
  (StableHlo.after_of_forall_not_mem (b := Proc.devRef .tc main_arg11) _ _ (List.forall_iff_forall_mem.mp (by no_write hostOps0))).trans rfl
theorem at1_arg13 (c : Dev nD) : W1 m ρ c (Proc.devRef .tc main_arg13) = m ((c : Thread nD τ).loc main_arg13) :=
  (StableHlo.after_of_forall_not_mem (b := Proc.devRef .tc main_arg13) _ _ (List.forall_iff_forall_mem.mp (by no_write hostOps0))).trans rfl
theorem at1_arg15 (c : Dev nD) : W1 m ρ c (Proc.devRef .tc main_arg15) = m ((c : Thread nD τ).loc main_arg15) :=
  (StableHlo.after_of_forall_not_mem (b := Proc.devRef .tc main_arg15) _ _ (List.forall_iff_forall_mem.mp (by no_write hostOps0))).trans rfl
theorem at1_arg17 (c : Dev nD) : W1 m ρ c (Proc.devRef .tc main_arg17) = m ((c : Thread nD τ).loc main_arg17) :=
  (StableHlo.after_of_forall_not_mem (b := Proc.devRef .tc main_arg17) _ _ (List.forall_iff_forall_mem.mp (by no_write hostOps0))).trans rfl
theorem at1_arg19 (c : Dev nD) : W1 m ρ c (Proc.devRef .tc main_arg19) = m ((c : Thread nD τ).loc main_arg19) :=
  (StableHlo.after_of_forall_not_mem (b := Proc.devRef .tc main_arg19) _ _ (List.forall_iff_forall_mem.mp (by no_write hostOps0))).trans rfl
theorem at1_arg21 (c : Dev nD) : W1 m ρ c (Proc.devRef .tc main_arg21) = m ((c : Thread nD τ).loc main_arg21) :=
  (StableHlo.after_of_forall_not_mem (b := Proc.devRef .tc main_arg21) _ _ (List.forall_iff_forall_mem.mp (by no_write hostOps0))).trans rfl
theorem at1_arg23 (c : Dev nD) : W1 m ρ c (Proc.devRef .tc main_arg23) = m ((c : Thread nD τ).loc main_arg23) :=
  (StableHlo.after_of_forall_not_mem (b := Proc.devRef .tc main_arg23) _ _ (List.forall_iff_forall_mem.mp (by no_write hostOps0))).trans rfl
theorem at1_arg25 (c : Dev nD) : W1 m ρ c (Proc.devRef .tc main_arg25) = m ((c : Thread nD τ).loc main_arg25) :=
  (StableHlo.after_of_forall_not_mem (b := Proc.devRef .tc main_arg25) _ _ (List.forall_iff_forall_mem.mp (by no_write hostOps0))).trans rfl

/-- A transposed weight at `(k, j)` is the given weight at `(j, k)`. -/
theorem at1_v1 (c : Dev nD) (k : Fin 1) (j : Fin 16) :
    W1 m ρ c (Proc.devRef .tc main_v1) (ix2 k j) = m ((c : Thread nD τ).loc main_arg4) (ix2 j k) := by
  have e : W1 m ρ c (Proc.devRef .tc main_v1) = truncf (F := Ideal) .bf16 (transpose S1x16 [1, 0] (m ((c : Thread nD τ).loc main_arg4)) transposes_S16x1_S1x16_1_0) bitsLt_bf16_f32 := by
    show StableHlo.after hostOps0 (W0 m ρ c) (Proc.devRef .tc main_v1) = _
    after_results
  exact (congrFun e (ix2 k j)).trans (transpose_apply [1, 0] _ transposes_S16x1_S1x16_1_0 (ix2 k j) (ix2 j k)
    (fun b => match b with | ⟨0, _⟩ => rfl | ⟨1, _⟩ => rfl))
theorem at1_v3 (c : Dev nD) (k : Fin 16) (j : Fin 48) :
    W1 m ρ c (Proc.devRef .tc main_v3) (ix2 k j) = m ((c : Thread nD τ).loc main_arg6) (ix2 j k) := by
  have e : W1 m ρ c (Proc.devRef .tc main_v3) = truncf (F := Ideal) .bf16 (transpose S16x48 [1, 0] (m ((c : Thread nD τ).loc main_arg6)) transposes_S48x16_S16x48_1_0) bitsLt_bf16_f32 := by
    show StableHlo.after hostOps0 (W0 m ρ c) (Proc.devRef .tc main_v3) = _
    after_results
  exact (congrFun e (ix2 k j)).trans (transpose_apply [1, 0] _ transposes_S48x16_S16x48_1_0 (ix2 k j) (ix2 j k)
    (fun b => match b with | ⟨0, _⟩ => rfl | ⟨1, _⟩ => rfl))
theorem at1_v5 (c : Dev nD) (k : Fin 16) (j : Fin 48) :
    W1 m ρ c (Proc.devRef .tc main_v5) (ix2 k j) = m ((c : Thread nD τ).loc main_arg8) (ix2 j k) := by
  have e : W1 m ρ c (Proc.devRef .tc main_v5) = truncf (F := Ideal) .bf16 (transpose S16x48 [1, 0] (m ((c : Thread nD τ).loc main_arg8)) transposes_S48x16_S16x48_1_0) bitsLt_bf16_f32 := by
    show StableHlo.after hostOps0 (W0 m ρ c) (Proc.devRef .tc main_v5) = _
    after_results
  exact (congrFun e (ix2 k j)).trans (transpose_apply [1, 0] _ transposes_S48x16_S16x48_1_0 (ix2 k j) (ix2 j k)
    (fun b => match b with | ⟨0, _⟩ => rfl | ⟨1, _⟩ => rfl))
theorem at1_v7 (c : Dev nD) (k : Fin 16) (j : Fin 16) :
    W1 m ρ c (Proc.devRef .tc main_v7) (ix2 k j) = m ((c : Thread nD τ).loc main_arg10) (ix2 j k) := by
  have e : W1 m ρ c (Proc.devRef .tc main_v7) = truncf (F := Ideal) .bf16 (transpose S16x16 [1, 0] (m ((c : Thread nD τ).loc main_arg10)) transposes_S16x16_S16x16_1_0) bitsLt_bf16_f32 := by
    show StableHlo.after hostOps0 (W0 m ρ c) (Proc.devRef .tc main_v7) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v9 (c : Dev nD) (k : Fin 16) (j : Fin 16) :
    W1 m ρ c (Proc.devRef .tc main_v9) (ix2 k j) = m ((c : Thread nD τ).loc main_arg12) (ix2 j k) := by
  have e : W1 m ρ c (Proc.devRef .tc main_v9) = truncf (F := Ideal) .bf16 (transpose S16x16 [1, 0] (m ((c : Thread nD τ).loc main_arg12)) transposes_S16x16_S16x16_1_0) bitsLt_bf16_f32 := by
    show StableHlo.after hostOps0 (W0 m ρ c) (Proc.devRef .tc main_v9) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v11 (c : Dev nD) (k : Fin 16) (j : Fin 16) :
    W1 m ρ c (Proc.devRef .tc main_v11) (ix2 k j) = m ((c : Thread nD τ).loc main_arg18) (ix2 j k) := by
  have e : W1 m ρ c (Proc.devRef .tc main_v11) = truncf (F := Ideal) .bf16 (transpose S16x16 [1, 0] (m ((c : Thread nD τ).loc main_arg18)) transposes_S16x16_S16x16_1_0) bitsLt_bf16_f32 := by
    show StableHlo.after hostOps0 (W0 m ρ c) (Proc.devRef .tc main_v11) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v13 (c : Dev nD) (k : Fin 16) (j : Fin 16) :
    W1 m ρ c (Proc.devRef .tc main_v13) (ix2 k j) = m ((c : Thread nD τ).loc main_arg20) (ix2 j k) := by
  have e : W1 m ρ c (Proc.devRef .tc main_v13) = truncf (F := Ideal) .bf16 (transpose S16x16 [1, 0] (m ((c : Thread nD τ).loc main_arg20)) transposes_S16x16_S16x16_1_0) bitsLt_bf16_f32 := by
    show StableHlo.after hostOps0 (W0 m ρ c) (Proc.devRef .tc main_v13) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v15 (c : Dev nD) (k : Fin 16) (j : Fin 16) :
    W1 m ρ c (Proc.devRef .tc main_v15) (ix2 k j) = m ((c : Thread nD τ).loc main_arg22) (ix2 j k) := by
  have e : W1 m ρ c (Proc.devRef .tc main_v15) = truncf (F := Ideal) .bf16 (transpose S16x16 [1, 0] (m ((c : Thread nD τ).loc main_arg22)) transposes_S16x16_S16x16_1_0) bitsLt_bf16_f32 := by
    show StableHlo.after hostOps0 (W0 m ρ c) (Proc.devRef .tc main_v15) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v17 (c : Dev nD) (k : Fin 16) (j : Fin 16) :
    W1 m ρ c (Proc.devRef .tc main_v17) (ix2 k j) = m ((c : Thread nD τ).loc main_arg24) (ix2 j k) := by
  have e : W1 m ρ c (Proc.devRef .tc main_v17) = truncf (F := Ideal) .bf16 (transpose S16x16 [1, 0] (m ((c : Thread nD τ).loc main_arg24)) transposes_S16x16_S16x16_1_0) bitsLt_bf16_f32 := by
    show StableHlo.after hostOps0 (W0 m ρ c) (Proc.devRef .tc main_v17) = _
    after_results
  exact (congrFun e (ix2 k j)).trans (transpose_apply [1, 0] _ transposes_S16x16_S16x16_1_0 (ix2 k j) (ix2 j k)
    (fun b => match b with | ⟨0, _⟩ => rfl | ⟨1, _⟩ => rfl))
theorem at1_v19 (c : Dev nD) (k : Fin 16) (j : Fin 128) :
    W1 m ρ c (Proc.devRef .tc main_v19) (ix2 k j) = m ((c : Thread nD τ).loc main_arg14) (ix2 j k) := by
  have e : W1 m ρ c (Proc.devRef .tc main_v19) = truncf (F := Ideal) .bf16 (transpose S16x128 [1, 0] (m ((c : Thread nD τ).loc main_arg14)) transposes_S128x16_S16x128_1_0) bitsLt_bf16_f32 := by
    show StableHlo.after hostOps0 (W0 m ρ c) (Proc.devRef .tc main_v19) = _
    after_results
  exact (congrFun e (ix2 k j)).trans (transpose_apply [1, 0] _ transposes_S128x16_S16x128_1_0 (ix2 k j) (ix2 j k)
    (fun b => match b with | ⟨0, _⟩ => rfl | ⟨1, _⟩ => rfl))
theorem at1_v21 (c : Dev nD) (k : Fin 16) (j : Fin 128) :
    W1 m ρ c (Proc.devRef .tc main_v21) (ix2 k j) = m ((c : Thread nD τ).loc main_arg16) (ix2 j k) := by
  have e : W1 m ρ c (Proc.devRef .tc main_v21) = truncf (F := Ideal) .bf16 (transpose S16x128 [1, 0] (m ((c : Thread nD τ).loc main_arg16)) transposes_S128x16_S16x128_1_0) bitsLt_bf16_f32 := by
    show StableHlo.after hostOps0 (W0 m ρ c) (Proc.devRef .tc main_v21) = _
    after_results
  exact (congrFun e (ix2 k j)).trans (transpose_apply [1, 0] _ transposes_S128x16_S16x128_1_0 (ix2 k j) (ix2 j k)
    (fun b => match b with | ⟨0, _⟩ => rfl | ⟨1, _⟩ => rfl))

/-! ## After the first launch -/

/-- An array an output window of the first launch writes back: what the launch's write-backs leave. -/
theorem at2_out (c : Dev nD) (w : Fin cfg0.W) :
    W2 m ρ c (Proc.devRef .tc (Pipeline.arrRef spec0 w)) = (dat0 (V1 m ρ) c).arrAt w cfg0.N := W2_arr m ρ c w

/-- The previous hidden states, an input array of the first launch, pass it unchanged. -/
theorem at2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (at1_arg1 m ρ c)
theorem at2_arg3 (c : Dev nD) : W2 m ρ c (Proc.devRef .tc main_arg3) = m ((c : Thread nD τ).loc main_arg3) :=
  (W2_of_ne m ρ c main_arg3 (by decide)).trans (at1_arg3 m ρ c)
theorem at2_arg15 (c : Dev nD) : W2 m ρ c (Proc.devRef .tc main_arg15) = m ((c : Thread nD τ).loc main_arg15) :=
  (W2_of_ne m ρ c main_arg15 (by decide)).trans (at1_arg15 m ρ c)
theorem at2_arg17 (c : Dev nD) : W2 m ρ c (Proc.devRef .tc main_arg17) = m ((c : Thread nD τ).loc main_arg17) :=
  (W2_of_ne m ρ c main_arg17 (by decide)).trans (at1_arg17 m ρ c)
theorem at2_v19 (c : Dev nD) : W2 m ρ c (Proc.devRef .tc main_v19) = W1 m ρ c (Proc.devRef .tc main_v19) :=
  W2_of_ne m ρ c main_v19 (by decide)
theorem at2_v21 (c : Dev nD) : W2 m ρ c (Proc.devRef .tc main_v21) = W1 m ρ c (Proc.devRef .tc main_v21) :=
  W2_of_ne m ρ c main_v21 (by decide)

/-! ## At the second launch: after the six reinterpretations -/

theorem at3_v23 (c : Dev nD) : W3 m ρ c (Proc.devRef .tc main_v23) = shapeCast S8x65536x16 (W2 m ρ c (Proc.devRef .tc main_v22_4)) shapeCasts_S524288x16_S8x65536x16 := by
  show StableHlo.after hostOps1 (W2 m ρ c) (Proc.devRef .tc main_v23) = _
  after_results
  rfl
theorem at3_v24 (c : Dev nD) : W3 m ρ c (Proc.devRef .tc main_v24) = shapeCast S8x65536x16 (W2 m ρ c (Proc.devRef .tc main_arg1)) shapeCasts_S524288x16_S8x65536x16 := by
  show StableHlo.after hostOps1 (W2 m ρ c) (Proc.devRef .tc main_v24) = _
  after_results
  rfl
theorem at3_v25 (c : Dev nD) : W3 m ρ c (Proc.devRef .tc main_v25) = shapeCast S8x65536x128 (W2 m ρ c (Proc.devRef .tc main_arg3)) shapeCasts_S8x524288x16_S8x65536x128 := by
  show StableHlo.after hostOps1 (W2 m ρ c) (Proc.devRef .tc main_v25) = _
  after_results
  rfl
theorem at3_v26 (c : Dev nD) : W3 m ρ c (Proc.devRef .tc main_v26) = shapeCast S65536x128 (W2 m ρ c (Proc.devRef .tc main_v22_2)) shapeCasts_S524288x16_S65536x128 := by
  show StableHlo.after hostOps1 (W2 m ρ c) (Proc.devRef .tc main_v26) = _
  after_results
  rfl
theorem at3_v27 (c : Dev nD) : W3 m ρ c (Proc.devRef .tc main_v27) = shapeCast S65536x128 (W2 m ρ c (Proc.devRef .tc main_v22_3)) shapeCasts_S524288x16_S65536x128 := by
  show StableHlo.after hostOps1 (W2 m ρ c) (Proc.devRef .tc main_v27) = _
  after_results
  rfl
theorem at3_v28 (c : Dev nD) : W3 m ρ c (Proc.devRef .tc main_v28) = shapeCast S65536x128 (W2 m ρ c (Proc.devRef .tc main_v22_0)) shapeCasts_S524288x16_S65536x128 := by
  show StableHlo.after hostOps1 (W2 m ρ c) (Proc.devRef .tc main_v28) = _
  after_results
  rfl
theorem at3_keep_v19 (c : Dev nD) : W3 m ρ c (Proc.devRef .tc main_v19) = W2 m ρ c (Proc.devRef .tc main_v19) :=
  (StableHlo.after_of_forall_not_mem (b := Proc.devRef .tc main_v19) _ _ (List.forall_iff_forall_mem.mp (by no_write hostOps1)))
theorem at3_keep_v21 (c : Dev nD) : W3 m ρ c (Proc.devRef .tc main_v21) = W2 m ρ c (Proc.devRef .tc main_v21) :=
  (StableHlo.after_of_forall_not_mem (b := Proc.devRef .tc main_v21) _ _ (List.forall_iff_forall_mem.mp (by no_write hostOps1)))
theorem at3_keep_arg15 (c : Dev nD) : W3 m ρ c (Proc.devRef .tc main_arg15) = W2 m ρ c (Proc.devRef .tc main_arg15) :=
  (StableHlo.after_of_forall_not_mem (b := Proc.devRef .tc main_arg15) _ _ (List.forall_iff_forall_mem.mp (by no_write hostOps1)))
theorem at3_keep_arg17 (c : Dev nD) : W3 m ρ c (Proc.devRef .tc main_arg17) = W2 m ρ c (Proc.devRef .tc main_arg17) :=
  (StableHlo.after_of_forall_not_mem (b := Proc.devRef .tc main_arg17) _ _ (List.forall_iff_forall_mem.mp (by no_write hostOps1)))
theorem at3_keep_v22_0 (c : Dev nD) : W3 m ρ c (Proc.devRef .tc main_v22_0) = W2 m ρ c (Proc.devRef .tc main_v22_0) :=
  (StableHlo.after_of_forall_not_mem (b := Proc.devRef .tc main_v22_0) _ _ (List.forall_iff_forall_mem.mp (by no_write hostOps1)))
theorem at3_keep_v22_1 (c : Dev nD) : W3 m ρ c (Proc.devRef .tc main_v22_1) = W2 m ρ c (Proc.devRef .tc main_v22_1) :=
  (StableHlo.after_of_forall_not_mem (b := Proc.devRef .tc main_v22_1) _ _ (List.forall_iff_forall_mem.mp (by no_write hostOps1)))

/-! ## After the second launch, and at the return -/

theorem at4_out (c : Dev nD) : W4 m ρ c (Proc.devRef .tc main_v29) = (dat1 (V3 m ρ) c).arrAt 10 cfg1.N := W4_arr m ρ c 10
theorem at4_keep_v22_0 (c : Dev nD) : W4 m ρ c (Proc.devRef .tc main_v22_0) = W3 m ρ c (Proc.devRef .tc main_v22_0) :=
  W4_of_ne m ρ c main_v22_0 (by decide)
theorem at4_keep_v22_1 (c : Dev nD) : W4 m ρ c (Proc.devRef .tc main_v22_1) = W3 m ρ c (Proc.devRef .tc main_v22_1) :=
  W4_of_ne m ρ c main_v22_1 (by decide)
theorem at5_v30 (c : Dev nD) : W5 m ρ c (Proc.devRef .tc main_v30) = shapeCast S524288x16 (W4 m ρ c (Proc.devRef .tc main_v29)) shapeCasts_S65536x128_S524288x16 := by
  show StableHlo.after hostOps2 (W4 m ρ c) (Proc.devRef .tc main_v30) = _
  after_results
  rfl
theorem at5_keep_v22_0 (c : Dev nD) : W5 m ρ c (Proc.devRef .tc main_v22_0) = W4 m ρ c (Proc.devRef .tc main_v22_0) :=
  (StableHlo.after_of_forall_not_mem (b := Proc.devRef .tc main_v22_0) _ _ (List.forall_iff_forall_mem.mp (by no_write hostOps2)))
theorem at5_keep_v22_1 (c : Dev nD) : W5 m ρ c (Proc.devRef .tc main_v22_1) = W4 m ρ c (Proc.devRef .tc main_v22_1) :=
  (StableHlo.after_of_forall_not_mem (b := Proc.devRef .tc main_v22_1) _ _ (List.forall_iff_forall_mem.mp (by no_write hostOps2)))

/-- The new hidden states and the new cell states are the first launch's first two written-back arrays, untouched since. -/
theorem result_h (c : Dev nD) : W5 m ρ c (Proc.devRef .tc main_v22_0) = (dat0 (V1 m ρ) c).arrAt 21 cfg0.N :=
  (at5_keep_v22_0 m ρ c).trans ((at4_keep_v22_0 m ρ c).trans ((at3_keep_v22_0 m ρ c).trans (at2_out m ρ c 21)))
theorem result_c (c : Dev nD) : W5 m ρ c (Proc.devRef .tc main_v22_1) = (dat0 (V1 m ρ) c).arrAt 22 cfg0.N :=
  (at5_keep_v22_1 m ρ c).trans ((at4_keep_v22_1 m ρ c).trans ((at3_keep_v22_1 m ρ c).trans (at2_out m ρ c 22)))

end Cert.KernelIdeal.Stages

end
-- ==== Proof.TreeCell.lean ====
/-
  The child-sum tree cell, one row at a time, on the extended reals.

  A row of the cell has a scalar input `u`, a previous hidden state `hp` and a previous cell state `cp` of sixteen
  entries each. Every gate is a logistic or a hyperbolic tangent of a sum of two affine forms — one in the row's
  mapped input `x = max (u · w_in + b_in) 0`, one in a hidden state — and each affine form is a dot product with one
  weight column plus that column's bias. The weights enter only through their columns, so the same row functions
  serve a program that keeps a weight matrix as given and a program that keeps its transpose.

  The neighbourhood term reads the `B × 128` table of child gates through the flat reinterpretation
  `[B, 8·16] → [8, B, 16]` of its row-major buffer: the entry `(c, b, j)` of the reinterpreted table is the entry of
  the original at row `((c·B + b)·16 + j) / 128` and column `((c·B + b)·16 + j) % 128`.
-/
import Idealize.ShloMosaic.PureOps.Ideal
import Idealize.ShloMosaic.Lib.ValueIdx

noncomputable section

open scoped BigOperators

namespace TreeCell

open Idealize.ShloMosaic

/-- The float word of one, kept as its pattern: both programs write the same word. -/
abbrev one : EReal := Ideal.ofBits .f32 0x3F800000#32
/-- The float word of zero, kept as its pattern. -/
abbrev zero : EReal := Ideal.ofBits .f32 0x00000000#32

/-- An affine form: the dot product of a row with one weight column, plus the column's bias. -/
def aff {K : ℕ} (s w : Fin K → EReal) (β : EReal) : EReal := (∑ k, s k * w k) + β

/-- The pre-activation of a gate fed by two rows: two affine forms added. -/
def pre {K : ℕ} (s t : Fin K → EReal) (ws : Fin K → EReal) (βs : EReal) (wt : Fin K → EReal) (βt : EReal) : EReal :=
  aff s ws βs + aff t wt βt

/-- The logistic function spelled as a quotient: `1 / (1 + e^(-z))`. -/
def sig (z : EReal) : EReal := Ideal.div one (one + Ideal.exp (-z))

/-- The weights of the row update, by columns: `w j` is the column feeding output entry `j`. -/
structure RowWeights where
  win : Fin 16 → Fin 1 → EReal
  bin : Fin 16 → EReal
  wix : Fin 48 → Fin 16 → EReal
  bix : Fin 48 → EReal
  wih : Fin 48 → Fin 16 → EReal
  bih : Fin 48 → EReal
  wax : Fin 16 → Fin 16 → EReal
  bax : Fin 16 → EReal
  wah : Fin 16 → Fin 16 → EReal
  bah : Fin 16 → EReal
  w1x : Fin 16 → Fin 16 → EReal
  b1x : Fin 16 → EReal
  w1h : Fin 16 → Fin 16 → EReal
  b1h : Fin 16 → EReal
  w2x : Fin 16 → Fin 16 → EReal
  b2x : Fin 16 → EReal
  w2h : Fin 16 → Fin 16 → EReal
  b2h : Fin 16 → EReal

/-- The weights of the child gates, by columns. -/
structure ChildWeights where
  wcx : Fin 128 → Fin 16 → EReal
  bcx : Fin 128 → EReal
  wch : Fin 128 → Fin 16 → EReal
  bch : Fin 128 → EReal

/-- The three sixteen-wide thirds of the forty-eight joint gates: input, forget, output. -/
abbrev third0 (j : Fin 16) : Fin 48 := ⟨j.val, by omega⟩
abbrev third1 (j : Fin 16) : Fin 48 := ⟨16 + j.val, by omega⟩
abbrev third2 (j : Fin 16) : Fin 48 := ⟨32 + j.val, by omega⟩

variable (P : RowWeights) (Q : ChildWeights)

/-- The mapped input of a row: the positive part of an affine form in the scalar input. -/
def xRow (u : Fin 1 → EReal) (j : Fin 16) : EReal := max (aff u (P.win j) (P.bin j)) zero

/-- The forty-eight joint gates of a row. -/
def ifoRow (u : Fin 1 → EReal) (hp : Fin 16 → EReal) (j : Fin 48) : EReal :=
  sig (pre (xRow P u) hp (P.wix j) (P.bix j) (P.wih j) (P.bih j))

/-- The candidate of a row. -/
def aRow (u : Fin 1 → EReal) (hp : Fin 16 → EReal) (j : Fin 16) : EReal :=
  Ideal.tanh (pre (xRow P u) hp (P.wax j) (P.bax j) (P.wah j) (P.bah j))

/-- The new cell state of a row: input gate times candidate plus forget gate times the previous cell state. -/
def cRow (u : Fin 1 → EReal) (hp cp : Fin 16 → EReal) (j : Fin 16) : EReal :=
  ifoRow P u hp (third0 j) * aRow P u hp j + ifoRow P u hp (third1 j) * cp j

/-- The new hidden state of a row: output gate times the hyperbolic tangent of the new cell state. -/
def hRow (u : Fin 1 → EReal) (hp cp : Fin 16 → EReal) (j : Fin 16) : EReal :=
  ifoRow P u hp (third2 j) * Ideal.tanh (cRow P u hp cp j)

/-- The first node gate of a row, fed by the mapped input and the previous hidden state. -/
def n1Row (u : Fin 1 → EReal) (hp : Fin 16 → EReal) (j : Fin 16) : EReal :=
  sig (pre (xRow P u) hp (P.w1x j) (P.b1x j) (P.w1h j) (P.b1h j))

/-- The second node gate of a row, fed by the mapped input and the NEW hidden state. -/
def n2Row (u : Fin 1 → EReal) (hp cp : Fin 16 → EReal) (j : Fin 16) : EReal :=
  sig (pre (xRow P u) (hRow P u hp cp) (P.w2x j) (P.b2x j) (P.w2h j) (P.b2h j))

/-- One child gate of a row, from the row's mapped input `xr` and previous hidden state. -/
def gateRow (xr hp : Fin 16 → EReal) (j : Fin 128) : EReal :=
  sig (pre xr hp (Q.wcx j) (Q.bcx j) (Q.wch j) (Q.bch j))

/-- The flat position of entry `(c, b, j)` of an `[8, 524288, 16]` table. -/
abbrev flat (c : Fin 8) (b : Fin 524288) (j : Fin 16) : ℕ := (c.val * 524288 + b.val) * 16 + j.val

/-- The row of the `[524288, 128]` table that the flat reinterpretation reads at `(c, b, j)`. -/
abbrev rowOf (c : Fin 8) (b : Fin 524288) (j : Fin 16) : Fin 524288 := ⟨flat c b j / 128, by
  have := c.isLt; have := b.isLt; have := j.isLt; unfold flat; omega⟩

/-- The column of the `[524288, 128]` table that the flat reinterpretation reads at `(c, b, j)`. -/
abbrev colOf (c : Fin 8) (b : Fin 524288) (j : Fin 16) : Fin 128 := ⟨flat c b j % 128, by omega⟩

/-- With `b = 8 r + k` the flat reinterpretation reads row `65536 c + r`, column `16 k + j`: splitting the leading
    axis into eight runs of `65536` rows and merging eight rows of sixteen into one of a hundred and twenty-eight
    are the same reinterpretation. -/
theorem rowOf_val (c : Fin 8) (r : Fin 65536) (k : Fin 8) (j : Fin 16) (b : Fin 524288) (hb : b.val = 8 * r.val + k.val) :
    (rowOf c b j).val = 65536 * c.val + r.val := by
  have := c.isLt; have := r.isLt; have := k.isLt; have := j.isLt
  show ((c.val * 524288 + b.val) * 16 + j.val) / 128 = _
  omega

theorem colOf_val (c : Fin 8) (r : Fin 65536) (k : Fin 8) (j : Fin 16) (b : Fin 524288) (hb : b.val = 8 * r.val + k.val) :
    (colOf c b j).val = 16 * k.val + j.val := by
  have := c.isLt; have := r.isLt; have := k.isLt; have := j.isLt
  show ((c.val * 524288 + b.val) * 16 + j.val) % 128 = _
  omega

/-! ## The three results as whole arrays -/

section Arrays

variable (inp : (⟨2, ![524288, 1]⟩ : Shape).Idx → EReal) (hprev cprev : (⟨2, ![524288, 16]⟩ : Shape).Idx → EReal)
  (child : (⟨3, ![8, 524288, 16]⟩ : Shape).Idx → EReal)

open ValueIdx

/-- Row `b` of the input column, the previous hidden states and the previous cell states. -/
abbrev uOf (b : Fin 524288) : Fin 1 → EReal := fun k => inp (ix2 b k)
abbrev hpOf (b : Fin 524288) : Fin 16 → EReal := fun k => hprev (ix2 b k)
abbrev cpOf (b : Fin 524288) : Fin 16 → EReal := fun k => cprev (ix2 b k)

/-- The new hidden states. -/
def hArr : (⟨2, ![524288, 16]⟩ : Shape).Idx → EReal := fun i =>
  hRow P (uOf inp (i 0)) (hpOf hprev (i 0)) (cpOf cprev (i 0)) (i 1)

/-- The new cell states. -/
def cArr : (⟨2, ![524288, 16]⟩ : Shape).Idx → EReal := fun i =>
  cRow P (uOf inp (i 0)) (hpOf hprev (i 0)) (cpOf cprev (i 0)) (i 1)

/-- The child gates as a `[524288, 128]` table. -/
def gateAt (b : Fin 524288) (j : Fin 128) : EReal := gateRow Q (xRow P (uOf inp b)) (hpOf hprev b) j

/-- The neighbourhood term: from zero, the sum over the eight children of the reinterpreted gate times the child's state. -/
def neigh (b : Fin 524288) (j : Fin 16) : EReal :=
  zero + ∑ c : Fin 8, gateAt P Q inp hprev (rowOf c b j) (colOf c b j) * child (ix3 c b j)

/-- The new node states. -/
def nArr : (⟨2, ![524288, 16]⟩ : Shape).Idx → EReal := fun i =>
  n1Row P (uOf inp (i 0)) (hpOf hprev (i 0)) (i 1) * neigh P Q inp hprev child (i 0) (i 1)
    + n2Row P (uOf inp (i 0)) (hpOf hprev (i 0)) (cpOf cprev (i 0)) (i 1) * hRow P (uOf inp (i 0)) (hpOf hprev (i 0)) (cpOf cprev (i 0)) (i 1)

end Arrays

/-! ## Weight bundles from arrays -/

section Bundles

open ValueIdx

/-- The row weights from the matrices as given, `[out, in]`: column `j` is row `j` of the matrix. -/
def RowWeights.ofGiven
    (w_in : (⟨2, ![16, 1]⟩ : Shape).Idx → EReal) (b_in : (⟨1, ![16]⟩ : Shape).Idx → EReal)
    (w_ix : (⟨2, ![48, 16]⟩ : Shape).Idx → EReal) (b_ix : (⟨1, ![48]⟩ : Shape).Idx → EReal)
    (w_ih : (⟨2, ![48, 16]⟩ : Shape).Idx → EReal) (b_ih : (⟨1, ![48]⟩ : Shape).Idx → EReal)
    (w_ax : (⟨2, ![16, 16]⟩ : Shape).Idx → EReal) (b_ax : (⟨1, ![16]⟩ : Shape).Idx → EReal)
    (w_ah : (⟨2, ![16, 16]⟩ : Shape).Idx → EReal) (b_ah : (⟨1, ![16]⟩ : Shape).Idx → EReal)
    (w_1x : (⟨2, ![16, 16]⟩ : Shape).Idx → EReal) (b_1x : (⟨1, ![16]⟩ : Shape).Idx → EReal)
    (w_1h : (⟨2, ![16, 16]⟩ : Shape).Idx → EReal) (b_1h : (⟨1, ![16]⟩ : Shape).Idx → EReal)
    (w_2x : (⟨2, ![16, 16]⟩ : Shape).Idx → EReal) (b_2x : (⟨1, ![16]⟩ : Shape).Idx → EReal)
    (w_2h : (⟨2, ![16, 16]⟩ : Shape).Idx → EReal) (b_2h : (⟨1, ![16]⟩ : Shape).Idx → EReal) : RowWeights where
  win := fun j k => w_in (ix2 j k)
  bin := fun j => b_in (ix1 j)
  wix := fun j k => w_ix (ix2 j k)
  bix := fun j => b_ix (ix1 j)
  wih := fun j k => w_ih (ix2 j k)
  bih := fun j => b_ih (ix1 j)
  wax := fun j k => w_ax (ix2 j k)
  bax := fun j => b_ax (ix1 j)
  wah := fun j k => w_ah (ix2 j k)
  bah := fun j => b_ah (ix1 j)
  w1x := fun j k => w_1x (ix2 j k)
  b1x := fun j => b_1x (ix1 j)
  w1h := fun j k => w_1h (ix2 j k)
  b1h := fun j => b_1h (ix1 j)
  w2x := fun j k => w_2x (ix2 j k)
  b2x := fun j => b_2x (ix1 j)
  w2h := fun j k => w_2h (ix2 j k)
  b2h := fun j => b_2h (ix1 j)

/-- The row weights from the transposed matrices, `[in, out]`: column `j` is column `j` of the matrix. -/
def RowWeights.ofTransposed
    (t_in : (⟨2, ![1, 16]⟩ : Shape).Idx → EReal) (b_in : (⟨1, ![16]⟩ : Shape).Idx → EReal)
    (t_ix : (⟨2, ![16, 48]⟩ : Shape).Idx → EReal) (b_ix : (⟨1, ![48]⟩ : Shape).Idx → EReal)
    (t_ih : (⟨2, ![16, 48]⟩ : Shape).Idx → EReal) (b_ih : (⟨1, ![48]⟩ : Shape).Idx → EReal)
    (t_ax : (⟨2, ![16, 16]⟩ : Shape).Idx → EReal) (b_ax : (⟨1, ![16]⟩ : Shape).Idx → EReal)
    (t_ah : (⟨2, ![16, 16]⟩ : Shape).Idx → EReal) (b_ah : (⟨1, ![16]⟩ : Shape).Idx → EReal)
    (t_1x : (⟨2, ![16, 16]⟩ : Shape).Idx → EReal) (b_1x : (⟨1, ![16]⟩ : Shape).Idx → EReal)
    (t_1h : (⟨2, ![16, 16]⟩ : Shape).Idx → EReal) (b_1h : (⟨1, ![16]⟩ : Shape).Idx → EReal)
    (t_2x : (⟨2, ![16, 16]⟩ : Shape).Idx → EReal) (b_2x : (⟨1, ![16]⟩ : Shape).Idx → EReal)
    (t_2h : (⟨2, ![16, 16]⟩ : Shape).Idx → EReal) (b_2h : (⟨1, ![16]⟩ : Shape).Idx → EReal) : RowWeights where
  win := fun j k => t_in (ix2 k j)
  bin := fun j => b_in (ix1 j)
  wix := fun j k => t_ix (ix2 k j)
  bix := fun j => b_ix (ix1 j)
  wih := fun j k => t_ih (ix2 k j)
  bih := fun j => b_ih (ix1 j)
  wax := fun j k => t_ax (ix2 k j)
  bax := fun j => b_ax (ix1 j)
  wah := fun j k => t_ah (ix2 k j)
  bah := fun j => b_ah (ix1 j)
  w1x := fun j k => t_1x (ix2 k j)
  b1x := fun j => b_1x (ix1 j)
  w1h := fun j k => t_1h (ix2 k j)
  b1h := fun j => b_1h (ix1 j)
  w2x := fun j k => t_2x (ix2 k j)
  b2x := fun j => b_2x (ix1 j)
  w2h := fun j k => t_2h (ix2 k j)
  b2h := fun j => b_2h (ix1 j)

/-- The child-gate weights from the matrices as given, `[128, 16]`. -/
def ChildWeights.ofGiven
    (w_cx : (⟨2, ![128, 16]⟩ : Shape).Idx → EReal) (b_cx : (⟨1, ![128]⟩ : Shape).Idx → EReal)
    (w_ch : (⟨2, ![128, 16]⟩ : Shape).Idx → EReal) (b_ch : (⟨1, ![128]⟩ : Shape).Idx → EReal) : ChildWeights where
  wcx := fun j k => w_cx (ix2 j k)
  bcx := fun j => b_cx (ix1 j)
  wch := fun j k => w_ch (ix2 j k)
  bch := fun j => b_ch (ix1 j)

/-- The child-gate weights from the transposed matrices, `[16, 128]`. -/
def ChildWeights.ofTransposed
    (t_cx : (⟨2, ![16, 128]⟩ : Shape).Idx → EReal) (b_cx : (⟨1, ![128]⟩ : Shape).Idx → EReal)
    (t_ch : (⟨2, ![16, 128]⟩ : Shape).Idx → EReal) (b_ch : (⟨1, ![128]⟩ : Shape).Idx → EReal) : ChildWeights where
  wcx := fun j k => t_cx (ix2 k j)
  bcx := fun j => b_cx (ix1 j)
  wch := fun j k => t_ch (ix2 k j)
  bch := fun j => b_ch (ix1 j)

end Bundles

end TreeCell

end
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.LibRowOps.lean ====
/-
  General readings, at the ideal values, of the operations a row-wise dense layer and a row-wise reduction are printed
  with, each at an entry given by its coordinates.

  * An affine layer `A·B + b` (the bias a vector laid along every row): the entry `(r, c)` is `∑_q A_{r,q} B_{q,c} + b_c`,
    whether it is spelt as a kernel spells it (a matrix product accumulated into the zero splat, plus the broadcast of the
    bias's one-row cast) or as the host does (a `dot_general`, plus the bias broadcast to one row and then down the rows).
  * A sum along the rows of a matrix: the entry `r` is `∑_q v_{r,q}`, for the kernel's lane reduction (whose neutral
    accumulator the reading drops) and, with the initial value in front, for the host's `reduce`.
  * A column `[a, 1]` turned on its side and given a leading unit axis reads back, at `(0, 0, j)`, the column at `(j, 0)`.
-/
import Idealize.ShloMosaic.Lib.StackMember
import Idealize.ShloMosaic.Lib.KernelVsHost
import Idealize.ShloMosaic.Lib.ValueIdx
import Idealize.ShloMosaic.Lib.ValueLayout
import Idealize.ShloMosaic.Lib.Pipeline.Value
import Idealize.ShloMosaic.PureOps.Ideal.Laws
import proofs.«110906_j20761871909637_2_alg».proof.Proof.LibMatmulPlain

noncomputable section

open scoped BigOperators

namespace Cert.LibRowOps

open Idealize.ShloMosaic Idealize.ShloMosaic.ValueIdx

/-- A kernel's affine layer at an entry: the matrix product with the plain dimension numbers into the zero splat, plus the
    bias vector cast to one row and broadcast down the rows. -/
theorem kernel_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    addf (matmul dd prec A B (constant (F := Ideal) ⟨2, ![m, n]⟩ .f32 0x00000000#32))
        (broadcastTo ⟨2, ![m, n]⟩ (shapeCast ⟨2, ![1, n]⟩ b h1) hb) (ix2 r c)
      = (∑ q : Fin k, A (ix2 r q) * B (ix2 q c)) + b (ix1 c) := by
  subst hdd
  rw [addf_apply, LibMatmulPlain.matmul_plain_zero_apply, broadcastTo_1b_ab_apply, shapeCast_a_1a_apply]

/-- The host's affine layer at an entry: a `dot_general` with the plain dimension numbers, plus the bias vector broadcast to
    one row and that row broadcast down the rows. -/
theorem host_affine_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (b : FVec Ideal ⟨1, ![n]⟩ .f32)
    (hd1 : (⟨1, ![n]⟩ : Shape).BroadcastsInDim ⟨2, ![1, n]⟩ ![1])
    (hd2 : (⟨2, ![1, n]⟩ : Shape).BroadcastsInDim ⟨2, ![m, n]⟩ ![0, 1]) (r : Fin m) (c : Fin n) :
    addf (Host.dotGeneral dd prec A B)
        (broadcastInDim ⟨2, ![m, n]⟩ ![0, 1] hd2 (broadcastInDim ⟨2, ![1, n]⟩ ![1] hd1 b)) (ix2 r c)
      = (∑ q : Fin k, A (ix2 r q) * B (ix2 q c)) + b (ix1 c) := by
  subst hdd
  rw [addf_apply, StackMember.dotGeneral_plain_apply, broadcastInDim_oneRow_apply]
  refine congrArg (_ + ·) ?_
  refine broadcastInDim_apply ![1] hd1 b (ix2 (0 : Fin 1) c) (ix1 c) fun a => ?_
  match a with
  | ⟨0, _⟩ =>
    show c.val = if n = 1 then 0 else c.val
    split
    · have := c.isLt; omega
    · rfl

/-- A kernel's sum along the rows of a matrix, at row `r`. -/
theorem kernel_rowsum_apply {m k : Nat} (v : FVec Ideal ⟨2, ![m, k]⟩ .f32)
    (h : (⟨2, ![m, k]⟩ : Shape).Reduces [1] ⟨1, ![m]⟩) (hφ : FKind.Formats .f32)
    (hacc : (0x00000000#32 : BitVec FTy.f32.bits) = FKind.add.neutral .f32 hφ) (r : Fin m) :
    multiReduction .add [1] ⟨1, ![m]⟩ v 0x00000000#32 h hφ hacc (ix1 r) = ∑ q : Fin k, v (ix2 r q) := by
  refine (Ideal.multiReduction_add_single v 0x00000000#32 h hφ hacc (ix1 r)).trans ?_
  refine Finset.sum_congr rfl fun q _ => congrArg v (funext fun a => Fin.ext ?_)
  match a with
  | ⟨0, _⟩ => rfl
  | ⟨1, _⟩ => rfl

/-- The host's sum along the rows of a matrix from a scalar initial value, at row `r`. -/
theorem host_rowsum_apply {m k : Nat} (v : FVec Ideal ⟨2, ![m, k]⟩ .f32) (init : FVec Ideal ⟨0, ![]⟩ .f32)
    (h' : (⟨2, ![m, k]⟩ : Shape).ReducesTo [1] ⟨1, ![m]⟩) (h : (⟨2, ![m, k]⟩ : Shape).Reduces [1] ⟨1, ![m]⟩)
    (hu : 0 < (⟨0, ![]⟩ : Shape).numel) (r : Fin m) :
    Host.reduceAdd v init h' hu (ix1 r) = init ix0 + ∑ q : Fin k, v (ix2 r q) := by
  show Ideal.hostReduceAdd h' v (init (Shape.Idx.first hu)) (ix1 r) = _
  rw [Ideal.hostReduceAdd_single h' h, eq_ix0 (Shape.Idx.first hu)]
  refine congrArg (_ + ·) (Finset.sum_congr rfl fun q _ => congrArg v (funext fun a => Fin.ext ?_))
  match a with
  | ⟨0, _⟩ => rfl
  | ⟨1, _⟩ => rfl

/-- A column turned on its side and given a leading unit axis, read at `(0, 0, j)`: the column's entry of row `j`. -/
theorem column_as_lanes_apply {a : Nat} {α : Type} (x : (⟨2, ![a, 1]⟩ : Shape).Idx → α)
    (ht : (⟨2, ![a, 1]⟩ : Shape).Transposes [1, 0] ⟨2, ![1, a]⟩)
    (hc : (⟨2, ![1, a]⟩ : Shape).ShapeCasts ⟨3, ![1, 1, a]⟩) (j : Fin a) :
    shapeCast ⟨3, ![1, 1, a]⟩ (transpose ⟨2, ![1, a]⟩ [1, 0] x ht) hc (ix3 (0 : Fin 1) (0 : Fin 1) j) = x (ix2 j (0 : Fin 1)) := by
  rw [shapeCast_ab_1ab_apply, transpose_ix2_apply]

end Cert.LibRowOps

end
-- ==== Proof.RowBodyPay.lean ====
/-
  What one row of the first kernel's body computes, payload by payload.

  The body maps a row's scalar input to sixteen features (an affine form, then the positive part), forms the
  forty-eight joint gates as a logistic of two affine forms (one in the mapped input, one in the previous hidden
  state), cuts them into three sixteen-wide thirds, forms the candidate as a hyperbolic tangent of two affine forms,
  combines them into the new cell state and the new hidden state, and forms the two node gates, the second one from
  the NEW hidden state. Every matrix product is a plain rows-by-columns product into the zero splat, so each entry is
  an inner product of a row with a weight column; every bias is a vector laid along the rows; a change of float
  format is the identity on the extended reals. Entry by entry the payloads are therefore the row functions of the
  tree cell at the weights read by columns of the transposed matrices.

  The body adds its four terms as ((A + a) + B) + b where the row functions add (A + a) + (B + b): associativity of
  addition on the extended reals is all that is needed.
-/
import proofs.«110906_j20761871909637_2_alg».proof.Proof.Gen.KernelIdeal.Skeleton
import proofs.«110906_j20761871909637_2_alg».proof.Proof.TreeCell
import proofs.«110906_j20761871909637_2_alg».proof.Proof.LibMatmulPlain
import proofs.«110906_j20761871909637_2_alg».proof.Proof.LibRowOps
import Idealize.ShloMosaic.Lib.IdealHost
import Idealize.ShloMosaic.Lib.ValueLayout

noncomputable section

open scoped BigOperators

namespace Cert.RowBody

open Cert.KernelIdeal Cert.KernelIdeal.Gen Idealize.ShloMosaic Idealize.ShloMosaic.ValueIdx

/-! ## Preliminaries -/

/-- The three product records of the body are the plain rows-by-columns product. -/
theorem dot_in_plain : dot_S2048x1_S1x16_S2048x16_1_0_0_1_n_n = DotDims.plain 2048 1 16 := rfl
theorem dot_wide_plain : dot_S2048x16_S16x48_S2048x48_1_0_0_1_n_n = DotDims.plain 2048 16 48 := rfl
theorem dot_sq_plain : dot_S2048x16_S16x16_S2048x16_1_0_0_1_n_n = DotDims.plain 2048 16 16 := rfl

/-- The logistic spelt as a quotient with the float word of one is the logistic function. -/
theorem sig_eq (z : EReal) : TreeCell.sig z = Ideal.logistic z := by
  unfold TreeCell.sig TreeCell.one Ideal.logistic
  rw [Ideal.ofBits_one_f32]

/-- A product with plain dimension numbers into the zero splat, at an entry: a row times a column. -/
theorem matmul_zero_apply {m k n : Nat} {φ₁ φ₂ : FTy} (dd : DotDims ⟨2, ![m, k]⟩ ⟨2, ![k, n]⟩ ⟨2, ![m, n]⟩)
    (hdd : dd = DotDims.plain m k n) (prec : Option ContractPrecision)
    (A : FVec Ideal ⟨2, ![m, k]⟩ φ₁) (B : FVec Ideal ⟨2, ![k, n]⟩ φ₂) (a : Fin m) (b : Fin n) :
    matmul dd prec A B (constant (F := Ideal) ⟨2, ![m, n]⟩ .f32 0x00000000#32) (ix2 a b)
      = ∑ c : Fin k, A (ix2 a c) * B (ix2 c b) := by
  subst hdd
  exact LibMatmulPlain.matmul_plain_zero_apply prec A B a b

/-- A bias vector cast to one row and laid along every row, at an entry: the vector's entry of that column. -/
theorem bias_apply {m n : Nat} (b : FVec Ideal ⟨1, ![n]⟩ .f32)
    (h1 : (⟨1, ![n]⟩ : Shape).ShapeCasts ⟨2, ![1, n]⟩) (hb : (⟨2, ![1, n]⟩ : Shape).Broadcasts ⟨2, ![m, n]⟩)
    (r : Fin m) (c : Fin n) :
    broadcastTo ⟨2, ![m, n]⟩ (shapeCast ⟨2, ![1, n]⟩ b h1) hb (ix2 r c) = b (ix1 c) := by
  rw [broadcastTo_1b_ab_apply, shapeCast_a_1a_apply]

/-! ## The payloads at an entry, over arbitrary operands -/

section Payloads

variable (p : Fin 2048) (q : Fin 16)

/-- The mapped input: the positive part of the affine form in the row's scalar input. -/
theorem pay3_apply (v0 : Vec Ideal S2048x1 .f32) (v4 : Vec Ideal S1x16 .bf16) (v7 : Vec Ideal S16 .f32) :
    k0_pay3 (F := Ideal) v0 v4 v7 (ix2 p q)
      = max ((∑ c : Fin 1, v0 (ix2 p c) * v4 (ix2 c q)) + v7 (ix1 q)) TreeCell.zero := by
  unfold k0_pay3
  show max ((addf _ _ : FVec Ideal S2048x16 .f32) (ix2 p q)) _ = _
  rw [LibRowOps.kernel_affine_apply _ dot_in_plain]
  simp only [truncf_apply, shapeCast_self]
  rfl

/-- A narrowed copy of a block is the block. -/
theorem pay4_apply (v1 : Vec Ideal S2048x16 .f32) (i : S2048x16.Idx) : k0_pay4 (F := Ideal) v1 i = v1 i := rfl

/-- The joint gates: the logistic of the two affine forms added. -/
theorem pay5_apply (v0 : Vec Ideal S2048x1 .f32) (v1 : Vec Ideal S2048x16 .f32) (v4 : Vec Ideal S1x16 .bf16)
    (v7 : Vec Ideal S16 .f32) (v15 : Vec Ideal S16x48 .bf16) (v18 : Vec Ideal S48 .f32) (v22 : Vec Ideal S16x48 .bf16)
    (v26 : Vec Ideal S48 .f32) (j : Fin 48) :
    k0_pay5 (F := Ideal) v0 v1 v4 v7 v15 v18 v22 v26 (ix2 p j)
      = Ideal.logistic (((∑ c : Fin 16, k0_pay3 (F := Ideal) v0 v4 v7 (ix2 p c) * v15 (ix2 c j)) + v18 (ix1 j))
          + ((∑ c : Fin 16, v1 (ix2 p c) * v22 (ix2 c j)) + v26 (ix1 j))) := by
  unfold k0_pay5
  show Ideal.logistic ((addf (addf (addf _ _) _) _ : FVec Ideal S2048x48 .f32) (ix2 p j)) = _
  simp only [addf_apply, matmul_zero_apply _ dot_wide_plain, bias_apply, shapeCast_self, pay4_apply]
  exact congrArg Ideal.logistic (add_assoc _ _ _)

/-- The three thirds of the joint gates. -/
theorem pay6_apply (v0 : Vec Ideal S2048x1 .f32) (v1 : Vec Ideal S2048x16 .f32) (v4 : Vec Ideal S1x16 .bf16)
    (v7 : Vec Ideal S16 .f32) (v15 : Vec Ideal S16x48 .bf16) (v18 : Vec Ideal S48 .f32) (v22 : Vec Ideal S16x48 .bf16)
    (v26 : Vec Ideal S48 .f32) :
    k0_pay6 (F := Ideal) v0 v1 v4 v7 v15 v18 v22 v26 (ix2 p q)
      = k0_pay5 (F := Ideal) v0 v1 v4 v7 v15 v18 v22 v26 (ix2 p (TreeCell.third0 q)) := by
  unfold k0_pay6
  exact slice2_axis1_apply 0 _ _ p q (TreeCell.third0 q) (Nat.zero_add _).symm

theorem pay7_apply (v0 : Vec Ideal S2048x1 .f32) (v1 : Vec Ideal S2048x16 .f32) (v4 : Vec Ideal S1x16 .bf16)
    (v7 : Vec Ideal S16 .f32) (v15 : Vec Ideal S16x48 .bf16) (v18 : Vec Ideal S48 .f32) (v22 : Vec Ideal S16x48 .bf16)
    (v26 : Vec Ideal S48 .f32) :
    k0_pay7 (F := Ideal) v0 v1 v4 v7 v15 v18 v22 v26 (ix2 p q)
      = k0_pay5 (F := Ideal) v0 v1 v4 v7 v15 v18 v22 v26 (ix2 p (TreeCell.third1 q)) := by
  unfold k0_pay7
  exact slice2_axis1_apply 16 _ _ p q (TreeCell.third1 q) rfl

theorem pay8_apply (v0 : Vec Ideal S2048x1 .f32) (v1 : Vec Ideal S2048x16 .f32) (v4 : Vec Ideal S1x16 .bf16)
    (v7 : Vec Ideal S16 .f32) (v15 : Vec Ideal S16x48 .bf16) (v18 : Vec Ideal S48 .f32) (v22 : Vec Ideal S16x48 .bf16)
    (v26 : Vec Ideal S48 .f32) :
    k0_pay8 (F := Ideal) v0 v1 v4 v7 v15 v18 v22 v26 (ix2 p q)
      = k0_pay5 (F := Ideal) v0 v1 v4 v7 v15 v18 v22 v26 (ix2 p (TreeCell.third2 q)) := by
  unfold k0_pay8
  exact slice2_axis1_apply 32 _ _ p q (TreeCell.third2 q) rfl

/-- The candidate's product in the mapped input. -/
theorem pay9_apply (v0 : Vec Ideal S2048x1 .f32) (v4 : Vec Ideal S1x16 .bf16) (v7 : Vec Ideal S16 .f32)
    (v34 : Vec Ideal S16x16 .bf16) :
    k0_pay9 (F := Ideal) v0 v4 v7 v34 (ix2 p q)
      = ∑ c : Fin 16, k0_pay3 (F := Ideal) v0 v4 v7 (ix2 p c) * v34 (ix2 c q) := by
  unfold k0_pay9
  refine (matmul_zero_apply _ dot_sq_plain none _ _ p q).trans ?_
  simp only [shapeCast_self]

/-- The new cell state: first third times the candidate, plus second third times the previous cell state. -/
theorem pay10_apply (v2 : Vec Ideal S2048x16 .f32) (v14 : FVec Ideal S2048x16 .bf16)
    (v31 v32 v36 : FVec Ideal S2048x16 .f32) (v37 : Vec Ideal S16 .f32) (v41 : Vec Ideal S16x16 .bf16)
    (v45 : Vec Ideal S16 .f32) :
    k0_pay10 (F := Ideal) v2 v14 v31 v32 v36 v37 v41 v45 (ix2 p q)
      = v31 (ix2 p q) * Ideal.tanh ((v36 (ix2 p q) + v37 (ix1 q))
            + ((∑ c : Fin 16, v14 (ix2 p c) * v41 (ix2 c q)) + v45 (ix1 q)))
          + v32 (ix2 p q) * v2 (ix2 p q) := by
  unfold k0_pay10
  show v31 (ix2 p q) * Ideal.tanh (addf (addf (addf v36 _) _) _ (ix2 p q)) + v32 (ix2 p q) * v2 (ix2 p q) = _
  simp only [addf_apply, matmul_zero_apply _ dot_sq_plain, bias_apply, shapeCast_self]
  rw [add_assoc (v36 (ix2 p q) + v37 (ix1 q))]

/-- The new hidden state: third third times the hyperbolic tangent of the new cell state. -/
theorem pay11_apply (v2 : Vec Ideal S2048x16 .f32) (v14 : FVec Ideal S2048x16 .bf16)
    (v31 v32 v33 v36 : FVec Ideal S2048x16 .f32) (v37 : Vec Ideal S16 .f32) (v41 : Vec Ideal S16x16 .bf16)
    (v45 : Vec Ideal S16 .f32) (i : S2048x16.Idx) :
    k0_pay11 (F := Ideal) v2 v14 v31 v32 v33 v36 v37 v41 v45 i
      = v33 i * Ideal.tanh (k0_pay10 (F := Ideal) v2 v14 v31 v32 v36 v37 v41 v45 i) := rfl

theorem pay12_apply (v2 : Vec Ideal S2048x16 .f32) (v14 : FVec Ideal S2048x16 .bf16)
    (v31 v32 v33 v36 : FVec Ideal S2048x16 .f32) (v37 : Vec Ideal S16 .f32) (v41 : Vec Ideal S16x16 .bf16)
    (v45 : Vec Ideal S16 .f32) (i : S2048x16.Idx) :
    k0_pay12 (F := Ideal) v2 v14 v31 v32 v33 v36 v37 v41 v45 i
      = k0_pay11 (F := Ideal) v2 v14 v31 v32 v33 v36 v37 v41 v45 i := rfl

/-- A node gate fed by two blocks: the logistic of the two affine forms added. -/
theorem pay13_apply (v13 v14 : FVec Ideal S2048x16 .bf16) (v56 : Vec Ideal S16x16 .bf16) (v59 : Vec Ideal S16 .f32)
    (v63 : Vec Ideal S16x16 .bf16) (v67 : Vec Ideal S16 .f32) :
    k0_pay13 (F := Ideal) v13 v14 v56 v59 v63 v67 (ix2 p q)
      = Ideal.logistic (((∑ c : Fin 16, v13 (ix2 p c) * v56 (ix2 c q)) + v59 (ix1 q))
          + ((∑ c : Fin 16, v14 (ix2 p c) * v63 (ix2 c q)) + v67 (ix1 q))) := by
  unfold k0_pay13
  show Ideal.logistic ((addf (addf (addf _ _) _) _ : FVec Ideal S2048x16 .f32) (ix2 p q)) = _
  simp only [addf_apply, matmul_zero_apply _ dot_sq_plain, bias_apply, shapeCast_self]
  exact congrArg Ideal.logistic (add_assoc _ _ _)

theorem pay1_apply (v71 : FVec Ideal S2048x16 .f32) (i : S2048x16.Idx) : k0_pay1 (F := Ideal) v71 i = v71 i := rfl

/-- The second node gate's affine form in the mapped input. -/
theorem pay14_apply (v13 : FVec Ideal S2048x16 .bf16) (v72 : Vec Ideal S16x16 .bf16) (v75 : Vec Ideal S16 .f32) :
    k0_pay14 (F := Ideal) v13 v72 v75 (ix2 p q) = (∑ c : Fin 16, v13 (ix2 p c) * v72 (ix2 c q)) + v75 (ix1 q) := by
  unfold k0_pay14
  refine (LibRowOps.kernel_affine_apply _ dot_sq_plain none _ _ _ _ _ p q).trans ?_
  simp only [shapeCast_self]

/-- The second node gate: the logistic of a ready affine form plus the affine form in another block. -/
theorem pay2_apply (v55 : FVec Ideal S2048x16 .bf16) (v78 : FVec Ideal S2048x16 .f32) (v79 : Vec Ideal S16x16 .bf16)
    (v83 : Vec Ideal S16 .f32) :
    k0_pay2 (F := Ideal) v55 v78 v79 v83 (ix2 p q)
      = Ideal.logistic (v78 (ix2 p q) + ((∑ c : Fin 16, v55 (ix2 p c) * v79 (ix2 c q)) + v83 (ix1 q))) := by
  unfold k0_pay2
  show Ideal.logistic (addf (addf v78 _) _ (ix2 p q)) = _
  simp only [addf_apply, matmul_zero_apply _ dot_sq_plain, bias_apply, shapeCast_self]
  exact congrArg Ideal.logistic (add_assoc _ _ _)

end Payloads

section Rows

variable (x0 : Vec Ideal S2048x1 .f32) (x1 x2 : Vec Ideal S2048x16 .f32)
  {x3 : Vec Ideal S1x16 .bf16} {x4 : Vec Ideal S16 .f32} {x5 : Vec Ideal S16x48 .bf16} {x6 : Vec Ideal S48 .f32}
  {x7 : Vec Ideal S16x48 .bf16} {x8 : Vec Ideal S48 .f32} {x9 : Vec Ideal S16x16 .bf16} {x10 : Vec Ideal S16 .f32}
  {x11 : Vec Ideal S16x16 .bf16} {x12 : Vec Ideal S16 .f32} {x13 : Vec Ideal S16x16 .bf16} {x14 : Vec Ideal S16 .f32}
  {x15 : Vec Ideal S16x16 .bf16} {x16 : Vec Ideal S16 .f32} {x17 : Vec Ideal S16x16 .bf16} {x18 : Vec Ideal S16 .f32}
  {x19 : Vec Ideal S16x16 .bf16} {x20 : Vec Ideal S16 .f32}

/-! ## The payloads of the input blocks are the row functions of the tree cell

The weights enter as a bundle `P` equal to the bundle read by columns of the transposed matrices. -/

variable (p : Fin 2048) (P : TreeCell.RowWeights)
  (hP : P = TreeCell.RowWeights.ofTransposed x3 x4 x5 x6 x7 x8 x9 x10 x11 x12 x13 x14 x15 x16 x17 x18 x19 x20)

include hP

/-- The mapped input of row `p`. -/
theorem x_apply (c : Fin 16) : k0_pay3 (F := Ideal) x0 x3 x4 (ix2 p c) = TreeCell.xRow P (fun k => x0 (ix2 p k)) c := by
  subst hP
  exact pay3_apply p c x0 x3 x4

/-- The joint gates of row `p`. -/
theorem ifo_apply (j : Fin 48) :
    k0_pay5 (F := Ideal) x0 x1 x3 x4 x5 x6 x7 x8 (ix2 p j) = TreeCell.ifoRow P (fun k => x0 (ix2 p k)) (fun k => x1 (ix2 p k)) j := by
  rw [pay5_apply]
  simp only [x_apply x0 p P hP]
  subst hP
  unfold TreeCell.ifoRow TreeCell.pre TreeCell.aff
  rw [sig_eq]
  rfl

/-- The new cell state of row `p`. -/
theorem c_apply (q : Fin 16) :
    k0_pay10 (F := Ideal) x2 (k0_pay4 x1) (k0_pay6 x0 x1 x3 x4 x5 x6 x7 x8) (k0_pay7 x0 x1 x3 x4 x5 x6 x7 x8) (k0_pay9 x0 x3 x4 x9) x10 x11 x12 (ix2 p q) = TreeCell.cRow P (fun k => x0 (ix2 p k)) (fun k => x1 (ix2 p k)) (fun k => x2 (ix2 p k)) q := by
  rw [pay10_apply, pay6_apply, pay7_apply, pay9_apply, ifo_apply x0 x1 p P hP, ifo_apply x0 x1 p P hP]
  simp only [x_apply x0 p P hP, pay4_apply]
  subst hP
  rfl

/-- The new hidden state of row `p`. -/
theorem h_apply (q : Fin 16) :
    k0_pay11 (F := Ideal) x2 (k0_pay4 x1) (k0_pay6 x0 x1 x3 x4 x5 x6 x7 x8) (k0_pay7 x0 x1 x3 x4 x5 x6 x7 x8) (k0_pay8 x0 x1 x3 x4 x5 x6 x7 x8) (k0_pay9 x0 x3 x4 x9) x10 x11 x12 (ix2 p q) = TreeCell.hRow P (fun k => x0 (ix2 p k)) (fun k => x1 (ix2 p k)) (fun k => x2 (ix2 p k)) q := by
  rw [pay11_apply, pay8_apply, ifo_apply x0 x1 p P hP, c_apply x0 x1 x2 p P hP]
  rfl

/-- The first node gate of row `p`. -/
theorem n1_apply (q : Fin 16) :
    k0_pay13 (F := Ideal) (k0_pay3 x0 x3 x4) (k0_pay4 x1) x13 x14 x15 x16 (ix2 p q) = TreeCell.n1Row P (fun k => x0 (ix2 p k)) (fun k => x1 (ix2 p k)) q := by
  rw [pay13_apply]
  simp only [x_apply x0 p P hP, pay4_apply]
  subst hP
  unfold TreeCell.n1Row TreeCell.pre TreeCell.aff
  rw [sig_eq]
  rfl

/-- The second node gate of row `p`: its hidden operand is the NEW hidden state. -/
theorem n2_apply (q : Fin 16) :
    k0_pay2 (F := Ideal) (k0_pay12 x2 (k0_pay4 x1) (k0_pay6 x0 x1 x3 x4 x5 x6 x7 x8) (k0_pay7 x0 x1 x3 x4 x5 x6 x7 x8) (k0_pay8 x0 x1 x3 x4 x5 x6 x7 x8) (k0_pay9 x0 x3 x4 x9) x10 x11 x12) (k0_pay14 (k0_pay3 x0 x3 x4) x17 x18) x19 x20 (ix2 p q)
      = TreeCell.n2Row P (fun k => x0 (ix2 p k)) (fun k => x1 (ix2 p k)) (fun k => x2 (ix2 p k)) q := by
  rw [pay2_apply, pay14_apply]
  simp only [pay12_apply, h_apply x0 x1 x2 p P hP, x_apply x0 p P hP]
  subst hP
  unfold TreeCell.n2Row TreeCell.pre TreeCell.aff
  rw [sig_eq]
  rfl

end Rows

end Cert.RowBody

end
-- ==== Proof.RowBody.lean ====
/-
  What the first kernel's body leaves in its five output blocks, entry by entry.

  Every access of the body is a whole block at zero offsets: a load reads the block, and the one store of an output
  block leaves its payload. So each output block is a payload of the input blocks themselves, and the payloads, read
  at row `p` and column `q`, are the row functions of the tree cell: the new hidden state, the new cell state, the two
  node gates and the mapped input of row `p`, at the weights read by columns of the transposed matrices.
-/
import proofs.«110906_j20761871909637_2_alg».proof.Proof.FrameKernelIdealP
import proofs.«110906_j20761871909637_2_alg».proof.Proof.RowBodyPay

noncomputable section

open scoped BigOperators

namespace Cert.RowBody

open Cert.KernelIdeal Cert.KernelIdeal.Gen Cert.KernelIdeal.GenP Idealize.ShloMosaic Idealize.ShloMosaic.ValueIdx

/-! ## The blocks after the body are the payloads of the input blocks -/

/-- The zero offsets of a rank-two access, however spelt. -/
theorem zeros2 : (![0, 0] : Fin 2 → Nat) = fun _ => 0 := funext fun a => by fin_cases a <;> rfl
/-- The zero offset of a rank-one access. -/
theorem zeros1 : (![0] : Fin 1 → Nat) = fun _ => 0 := funext fun a => by fin_cases a; rfl

section Rows

variable (x0 : Vec Ideal S2048x1 .f32) (x1 x2 : Vec Ideal S2048x16 .f32)
  {x3 : Vec Ideal S1x16 .bf16} {x4 : Vec Ideal S16 .f32} {x5 : Vec Ideal S16x48 .bf16} {x6 : Vec Ideal S48 .f32}
  {x7 : Vec Ideal S16x48 .bf16} {x8 : Vec Ideal S48 .f32} {x9 : Vec Ideal S16x16 .bf16} {x10 : Vec Ideal S16 .f32}
  {x11 : Vec Ideal S16x16 .bf16} {x12 : Vec Ideal S16 .f32} {x13 : Vec Ideal S16x16 .bf16} {x14 : Vec Ideal S16 .f32}
  {x15 : Vec Ideal S16x16 .bf16} {x16 : Vec Ideal S16 .f32} {x17 : Vec Ideal S16x16 .bf16} {x18 : Vec Ideal S16 .f32}
  {x19 : Vec Ideal S16x16 .bf16} {x20 : Vec Ideal S16 .f32}

/-- The zero offsets of every access make each load the block and each store's block its payload. -/
theorem out0_25_eq : out0_25 (F := Ideal) x0 x1 x2 x3 x4 x5 x6 x7 x8 x9 x10 x11 x12 x13 x14 x15 x16 x17 x18 x19 x20 = k0_pay3 x0 x3 x4 := by
  unfold out0_25
  rw [View.canon_unit_zero (S := S2048x16) zeros2]
  simp only [View.ld_unit_zero (S := S2048x1) zeros2, View.ld_unit_zero (S := S2048x16) zeros2, View.ld_unit_zero (S := S1x16) zeros2, View.ld_unit_zero (S := S16) zeros1, View.ld_unit_zero (S := S16x48) zeros2, View.ld_unit_zero (S := S48) zeros1, View.ld_unit_zero (S := S16x16) zeros2]

theorem out0_21_eq : out0_21 (F := Ideal) x0 x1 x2 x3 x4 x5 x6 x7 x8 x9 x10 x11 x12 x13 x14 x15 x16 x17 x18 x19 x20 = k0_pay11 x2 (k0_pay4 x1) (k0_pay6 x0 x1 x3 x4 x5 x6 x7 x8) (k0_pay7 x0 x1 x3 x4 x5 x6 x7 x8) (k0_pay8 x0 x1 x3 x4 x5 x6 x7 x8) (k0_pay9 x0 x3 x4 x9) x10 x11 x12 := by
  unfold out0_21
  rw [View.canon_unit_zero (S := S2048x16) zeros2]
  simp only [View.ld_unit_zero (S := S2048x1) zeros2, View.ld_unit_zero (S := S2048x16) zeros2, View.ld_unit_zero (S := S1x16) zeros2, View.ld_unit_zero (S := S16) zeros1, View.ld_unit_zero (S := S16x48) zeros2, View.ld_unit_zero (S := S48) zeros1, View.ld_unit_zero (S := S16x16) zeros2]

theorem out0_22_eq : out0_22 (F := Ideal) x0 x1 x2 x3 x4 x5 x6 x7 x8 x9 x10 x11 x12 x13 x14 x15 x16 x17 x18 x19 x20 = k0_pay10 x2 (k0_pay4 x1) (k0_pay6 x0 x1 x3 x4 x5 x6 x7 x8) (k0_pay7 x0 x1 x3 x4 x5 x6 x7 x8) (k0_pay9 x0 x3 x4 x9) x10 x11 x12 := by
  unfold out0_22
  rw [View.canon_unit_zero (S := S2048x16) zeros2]
  simp only [View.ld_unit_zero (S := S2048x1) zeros2, View.ld_unit_zero (S := S2048x16) zeros2, View.ld_unit_zero (S := S1x16) zeros2, View.ld_unit_zero (S := S16) zeros1, View.ld_unit_zero (S := S16x48) zeros2, View.ld_unit_zero (S := S48) zeros1, View.ld_unit_zero (S := S16x16) zeros2]

theorem out0_23_eq : out0_23 (F := Ideal) x0 x1 x2 x3 x4 x5 x6 x7 x8 x9 x10 x11 x12 x13 x14 x15 x16 x17 x18 x19 x20
    = k0_pay1 (k0_pay13 (k0_pay3 x0 x3 x4) (k0_pay4 x1) x13 x14 x15 x16) := by
  unfold out0_23
  rw [View.canon_unit_zero (S := S2048x16) zeros2]
  simp only [View.ld_unit_zero (S := S2048x1) zeros2, View.ld_unit_zero (S := S2048x16) zeros2, View.ld_unit_zero (S := S1x16) zeros2, View.ld_unit_zero (S := S16) zeros1, View.ld_unit_zero (S := S16x48) zeros2, View.ld_unit_zero (S := S48) zeros1, View.ld_unit_zero (S := S16x16) zeros2]

theorem out0_24_eq : out0_24 (F := Ideal) x0 x1 x2 x3 x4 x5 x6 x7 x8 x9 x10 x11 x12 x13 x14 x15 x16 x17 x18 x19 x20
    = k0_pay2 (k0_pay12 x2 (k0_pay4 x1) (k0_pay6 x0 x1 x3 x4 x5 x6 x7 x8) (k0_pay7 x0 x1 x3 x4 x5 x6 x7 x8) (k0_pay8 x0 x1 x3 x4 x5 x6 x7 x8) (k0_pay9 x0 x3 x4 x9) x10 x11 x12) (k0_pay14 (k0_pay3 x0 x3 x4) x17 x18) x19 x20 := by
  unfold out0_24
  rw [View.canon_unit_zero (S := S2048x16) zeros2]
  simp only [View.ld_unit_zero (S := S2048x1) zeros2, View.ld_unit_zero (S := S2048x16) zeros2, View.ld_unit_zero (S := S1x16) zeros2, View.ld_unit_zero (S := S16) zeros1, View.ld_unit_zero (S := S16x48) zeros2, View.ld_unit_zero (S := S48) zeros1, View.ld_unit_zero (S := S16x16) zeros2]

end Rows

/-! ## The five output blocks, entry by entry -/

section Blocks

variable (x0 : Vec Ideal S2048x1 .f32) (x1 x2 : Vec Ideal S2048x16 .f32)
  (x3 : Vec Ideal S1x16 .bf16) (x4 : Vec Ideal S16 .f32) (x5 : Vec Ideal S16x48 .bf16) (x6 : Vec Ideal S48 .f32)
  (x7 : Vec Ideal S16x48 .bf16) (x8 : Vec Ideal S48 .f32) (x9 : Vec Ideal S16x16 .bf16) (x10 : Vec Ideal S16 .f32)
  (x11 : Vec Ideal S16x16 .bf16) (x12 : Vec Ideal S16 .f32) (x13 : Vec Ideal S16x16 .bf16) (x14 : Vec Ideal S16 .f32)
  (x15 : Vec Ideal S16x16 .bf16) (x16 : Vec Ideal S16 .f32) (x17 : Vec Ideal S16x16 .bf16) (x18 : Vec Ideal S16 .f32)
  (x19 : Vec Ideal S16x16 .bf16) (x20 : Vec Ideal S16 .f32)
  (p : Fin 2048) (q : Fin 16)

/-- The first output block holds the new hidden state. -/
theorem out0_21_apply : out0_21 (F := Ideal) x0 x1 x2 x3 x4 x5 x6 x7 x8 x9 x10 x11 x12 x13 x14 x15 x16 x17 x18 x19 x20 (ix2 p q)
    = TreeCell.hRow (TreeCell.RowWeights.ofTransposed x3 x4 x5 x6 x7 x8 x9 x10 x11 x12 x13 x14 x15 x16 x17 x18 x19 x20)
        (fun k => x0 (ix2 p k)) (fun k => x1 (ix2 p k)) (fun k => x2 (ix2 p k)) q := by
  rw [out0_21_eq]
  exact h_apply x0 x1 x2 p _ rfl q

/-- The second output block holds the new cell state. -/
theorem out0_22_apply : out0_22 (F := Ideal) x0 x1 x2 x3 x4 x5 x6 x7 x8 x9 x10 x11 x12 x13 x14 x15 x16 x17 x18 x19 x20 (ix2 p q)
    = TreeCell.cRow (TreeCell.RowWeights.ofTransposed x3 x4 x5 x6 x7 x8 x9 x10 x11 x12 x13 x14 x15 x16 x17 x18 x19 x20)
        (fun k => x0 (ix2 p k)) (fun k => x1 (ix2 p k)) (fun k => x2 (ix2 p k)) q := by
  rw [out0_22_eq]
  exact c_apply x0 x1 x2 p _ rfl q

/-- The third output block holds the first node gate (its narrower float format is the identity here). -/
theorem out0_23_apply : out0_23 (F := Ideal) x0 x1 x2 x3 x4 x5 x6 x7 x8 x9 x10 x11 x12 x13 x14 x15 x16 x17 x18 x19 x20 (ix2 p q)
    = TreeCell.n1Row (TreeCell.RowWeights.ofTransposed x3 x4 x5 x6 x7 x8 x9 x10 x11 x12 x13 x14 x15 x16 x17 x18 x19 x20)
        (fun k => x0 (ix2 p k)) (fun k => x1 (ix2 p k)) q := by
  rw [out0_23_eq, pay1_apply]
  exact n1_apply x0 x1 p _ rfl q

/-- The fourth output block holds the second node gate. -/
theorem out0_24_apply : out0_24 (F := Ideal) x0 x1 x2 x3 x4 x5 x6 x7 x8 x9 x10 x11 x12 x13 x14 x15 x16 x17 x18 x19 x20 (ix2 p q)
    = TreeCell.n2Row (TreeCell.RowWeights.ofTransposed x3 x4 x5 x6 x7 x8 x9 x10 x11 x12 x13 x14 x15 x16 x17 x18 x19 x20)
        (fun k => x0 (ix2 p k)) (fun k => x1 (ix2 p k)) (fun k => x2 (ix2 p k)) q := by
  rw [out0_24_eq]
  exact n2_apply x0 x1 x2 p _ rfl q

/-- The fifth output block holds the mapped input. -/
theorem out0_25_apply : out0_25 (F := Ideal) x0 x1 x2 x3 x4 x5 x6 x7 x8 x9 x10 x11 x12 x13 x14 x15 x16 x17 x18 x19 x20 (ix2 p q)
    = TreeCell.xRow (TreeCell.RowWeights.ofTransposed x3 x4 x5 x6 x7 x8 x9 x10 x11 x12 x13 x14 x15 x16 x17 x18 x19 x20)
        (fun k => x0 (ix2 p k)) q := by
  rw [out0_25_eq]
  exact x_apply x0 p _ rfl q

end Blocks

end Cert.RowBody

end
-- ==== Proof.FirstLaunch.lean ====
/-
  The first launch: what its five written-back arrays hold once every grid point has run.

  The launch walks 256 grid points; point `t` stages rows `2048 t … 2048 t + 2047` of the input column, the previous
  hidden states and the previous cell states, and every weight whole. Its body computes one row of the cell per row
  of the block, so the block point `t` writes back is rows `2048 t …` of the whole-array result, and the 256 blocks
  tile the 524288 rows: each written-back array ends as the cell's row function of the arrays the launch found.
-/
import proofs.«110906_j20761871909637_2_alg».proof.Proof.FrameKernelIdealP
import proofs.«110906_j20761871909637_2_alg».proof.Proof.TreeCell
import proofs.«110906_j20761871909637_2_alg».proof.Proof.RowBody

set_option maxRecDepth 16384

noncomputable section

namespace Cert.KernelIdeal.FirstLaunch

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The weights as the launch finds them: the transposed matrices and the biases. -/
def weights (c : Dev nD) : TreeCell.RowWeights :=
  TreeCell.RowWeights.ofTransposed (V c main_v1) (V c main_arg5) (V c main_v3) (V c main_arg7) (V c main_v5) (V c main_arg9) (V c main_v7) (V c main_arg11) (V c main_v9) (V c main_arg13) (V c main_v11) (V c main_arg19) (V c main_v13) (V c main_arg21) (V c main_v15) (V c main_arg23) (V c main_v17) (V c main_arg25)

/-- Row `2048 t + p`: row `p` of the block grid point `t` stages. -/
abbrev rowAt (t : Fin cfg0.N) (p : Fin 2048) : Fin 524288 :=
  ⟨2048 * t.val + p.val, by have h := t.isLt; have h2 : cfg0.N = 256 := N_0; omega⟩

/-! ## The index maps, decided over the grid -/

/-- The row-blocked windows sit at block `(t, 0)`. -/
theorem idx_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_21.index t (0 : Fin 2) = t.val ∧ win0_21.index t (1 : Fin 2) = 0
    ∧ win0_22.index t (0 : Fin 2) = t.val ∧ win0_22.index t (1 : Fin 2) = 0
    ∧ win0_23.index t (0 : Fin 2) = t.val ∧ win0_23.index t (1 : Fin 2) = 0
    ∧ win0_24.index t (0 : Fin 2) = t.val ∧ win0_24.index t (1 : Fin 2) = 0
    ∧ win0_25.index t (0 : Fin 2) = t.val ∧ win0_25.index t (1 : Fin 2) = 0 :=
  (by decide +kernel : ∀ t : Fin grid0.N, _)

/-- The weight windows sit at block zero. -/
theorem idx_weights : ∀ t : Fin cfg0.N,
    win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = 0 ∧ win0_9.index t (1 : Fin 2) = 0
    ∧ win0_10.index t (0 : Fin 1) = 0
    ∧ win0_11.index t (0 : Fin 2) = 0 ∧ win0_11.index t (1 : Fin 2) = 0
    ∧ win0_12.index t (0 : Fin 1) = 0
    ∧ win0_13.index t (0 : Fin 2) = 0 ∧ win0_13.index t (1 : Fin 2) = 0
    ∧ win0_14.index t (0 : Fin 1) = 0
    ∧ win0_15.index t (0 : Fin 2) = 0 ∧ win0_15.index t (1 : Fin 2) = 0
    ∧ win0_16.index t (0 : Fin 1) = 0
    ∧ win0_17.index t (0 : Fin 2) = 0 ∧ win0_17.index t (1 : Fin 2) = 0
    ∧ win0_18.index t (0 : Fin 1) = 0
    ∧ win0_19.index t (0 : Fin 2) = 0 ∧ win0_19.index t (1 : Fin 2) = 0
    ∧ win0_20.index t (0 : Fin 1) = 0 :=
  (by decide +kernel : ∀ t : Fin grid0.N, _)

/-! ## The staged blocks -/

theorem blk_in0 (c : Dev nD) (t : Fin cfg0.N) (p : Fin 2048) (k : Fin 1) :
    iblk0 V c 0 t (ix2 p k) = V c main_arg0 (ix2 (rowAt t p) k) := by
  show V c main_arg0 (((cfg0.win 0).blk t).view.emb (ix2 p k)) = _
  refine congrArg (V c main_arg0) (funext fun a => Fin.ext ?_)
  have hi := idx_rows t
  match a with
  | ⟨0, _⟩ => show win0_0.index t (0 : Fin 2) * 2048 + 1 * p.val = 2048 * t.val + p.val; omega
  | ⟨1, _⟩ => show win0_0.index t (1 : Fin 2) * 1 + 1 * k.val = k.val; omega
theorem blk_in1 (c : Dev nD) (t : Fin cfg0.N) (p : Fin 2048) (k : Fin 16) :
    iblk0 V c 1 t (ix2 p k) = V c main_arg1 (ix2 (rowAt t p) k) := by
  show V c main_arg1 (((cfg0.win 1).blk t).view.emb (ix2 p k)) = _
  refine congrArg (V c main_arg1) (funext fun a => Fin.ext ?_)
  have hi := idx_rows t
  match a with
  | ⟨0, _⟩ => show win0_1.index t (0 : Fin 2) * 2048 + 1 * p.val = 2048 * t.val + p.val; omega
  | ⟨1, _⟩ => show win0_1.index t (1 : Fin 2) * 16 + 1 * k.val = k.val; omega
theorem blk_in2 (c : Dev nD) (t : Fin cfg0.N) (p : Fin 2048) (k : Fin 16) :
    iblk0 V c 2 t (ix2 p k) = V c main_arg2 (ix2 (rowAt t p) k) := by
  show V c main_arg2 (((cfg0.win 2).blk t).view.emb (ix2 p k)) = _
  refine congrArg (V c main_arg2) (funext fun a => Fin.ext ?_)
  have hi := idx_rows t
  match a with
  | ⟨0, _⟩ => show win0_2.index t (0 : Fin 2) * 2048 + 1 * p.val = 2048 * t.val + p.val; omega
  | ⟨1, _⟩ => show win0_2.index t (1 : Fin 2) * 16 + 1 * k.val = k.val; omega
theorem blk_w3 (c : Dev nD) (t : Fin cfg0.N) : (iblk0 V c 3 t : S1x16.Idx → EReal) = V c main_v1 := by
  funext j
  show V c main_v1 (((cfg0.win 3).blk t).view.emb j) = V c main_v1 j
  refine congrArg (V c main_v1) (funext fun a => Fin.ext ?_)
  have hi := idx_weights t
  match a with
  | ⟨0, _⟩ => show win0_3.index t (0 : Fin 2) * 1 + 1 * (j 0).val = (j 0).val; omega
  | ⟨1, _⟩ => show win0_3.index t (1 : Fin 2) * 16 + 1 * (j 1).val = (j 1).val; omega
theorem blk_w4 (c : Dev nD) (t : Fin cfg0.N) : (iblk0 V c 4 t : S16.Idx → EReal) = V c main_arg5 := by
  funext j
  show V c main_arg5 (((cfg0.win 4).blk t).view.emb j) = V c main_arg5 j
  refine congrArg (V c main_arg5) (funext fun a => Fin.ext ?_)
  have hi := idx_weights t
  match a with
  | ⟨0, _⟩ => show win0_4.index t (0 : Fin 1) * 16 + 1 * (j 0).val = (j 0).val; omega
theorem blk_w5 (c : Dev nD) (t : Fin cfg0.N) : (iblk0 V c 5 t : S16x48.Idx → EReal) = V c main_v3 := by
  funext j
  show V c main_v3 (((cfg0.win 5).blk t).view.emb j) = V c main_v3 j
  refine congrArg (V c main_v3) (funext fun a => Fin.ext ?_)
  have hi := idx_weights t
  match a with
  | ⟨0, _⟩ => show win0_5.index t (0 : Fin 2) * 16 + 1 * (j 0).val = (j 0).val; omega
  | ⟨1, _⟩ => show win0_5.index t (1 : Fin 2) * 48 + 1 * (j 1).val = (j 1).val; omega
theorem blk_w6 (c : Dev nD) (t : Fin cfg0.N) : (iblk0 V c 6 t : S48.Idx → EReal) = V c main_arg7 := by
  funext j
  show V c main_arg7 (((cfg0.win 6).blk t).view.emb j) = V c main_arg7 j
  refine congrArg (V c main_arg7) (funext fun a => Fin.ext ?_)
  have hi := idx_weights t
  match a with
  | ⟨0, _⟩ => show win0_6.index t (0 : Fin 1) * 48 + 1 * (j 0).val = (j 0).val; omega
theorem blk_w7 (c : Dev nD) (t : Fin cfg0.N) : (iblk0 V c 7 t : S16x48.Idx → EReal) = V c main_v5 := by
  funext j
  show V c main_v5 (((cfg0.win 7).blk t).view.emb j) = V c main_v5 j
  refine congrArg (V c main_v5) (funext fun a => Fin.ext ?_)
  have hi := idx_weights t
  match a with
  | ⟨0, _⟩ => show win0_7.index t (0 : Fin 2) * 16 + 1 * (j 0).val = (j 0).val; omega
  | ⟨1, _⟩ => show win0_7.index t (1 : Fin 2) * 48 + 1 * (j 1).val = (j 1).val; omega
theorem blk_w8 (c : Dev nD) (t : Fin cfg0.N) : (iblk0 V c 8 t : S48.Idx → EReal) = V c main_arg9 := by
  funext j
  show V c main_arg9 (((cfg0.win 8).blk t).view.emb j) = V c main_arg9 j
  refine congrArg (V c main_arg9) (funext fun a => Fin.ext ?_)
  have hi := idx_weights t
  match a with
  | ⟨0, _⟩ => show win0_8.index t (0 : Fin 1) * 48 + 1 * (j 0).val = (j 0).val; omega
theorem blk_w9 (c : Dev nD) (t : Fin cfg0.N) : (iblk0 V c 9 t : S16x16.Idx → EReal) = V c main_v7 := by
  funext j
  show V c main_v7 (((cfg0.win 9).blk t).view.emb j) = V c main_v7 j
  refine congrArg (V c main_v7) (funext fun a => Fin.ext ?_)
  have hi := idx_weights t
  match a with
  | ⟨0, _⟩ => show win0_9.index t (0 : Fin 2) * 16 + 1 * (j 0).val = (j 0).val; omega
  | ⟨1, _⟩ => show win0_9.index t (1 : Fin 2) * 16 + 1 * (j 1).val = (j 1).val; omega
theorem blk_w10 (c : Dev nD) (t : Fin cfg0.N) : (iblk0 V c 10 t : S16.Idx → EReal) = V c main_arg11 := by
  funext j
  show V c main_arg11 (((cfg0.win 10).blk t).view.emb j) = V c main_arg11 j
  refine congrArg (V c main_arg11) (funext fun a => Fin.ext ?_)
  have hi := idx_weights t
  match a with
  | ⟨0, _⟩ => show win0_10.index t (0 : Fin 1) * 16 + 1 * (j 0).val = (j 0).val; omega
theorem blk_w11 (c : Dev nD) (t : Fin cfg0.N) : (iblk0 V c 11 t : S16x16.Idx → EReal) = V c main_v9 := by
  funext j
  show V c main_v9 (((cfg0.win 11).blk t).view.emb j) = V c main_v9 j
  refine congrArg (V c main_v9) (funext fun a => Fin.ext ?_)
  have hi := idx_weights t
  match a with
  | ⟨0, _⟩ => show win0_11.index t (0 : Fin 2) * 16 + 1 * (j 0).val = (j 0).val; omega
  | ⟨1, _⟩ => show win0_11.index t (1 : Fin 2) * 16 + 1 * (j 1).val = (j 1).val; omega
theorem blk_w12 (c : Dev nD) (t : Fin cfg0.N) : (iblk0 V c 12 t : S16.Idx → EReal) = V c main_arg13 := by
  funext j
  show V c main_arg13 (((cfg0.win 12).blk t).view.emb j) = V c main_arg13 j
  refine congrArg (V c main_arg13) (funext fun a => Fin.ext ?_)
  have hi := idx_weights t
  match a with
  | ⟨0, _⟩ => show win0_12.index t (0 : Fin 1) * 16 + 1 * (j 0).val = (j 0).val; omega
theorem blk_w13 (c : Dev nD) (t : Fin cfg0.N) : (iblk0 V c 13 t : S16x16.Idx → EReal) = V c main_v11 := by
  funext j
  show V c main_v11 (((cfg0.win 13).blk t).view.emb j) = V c main_v11 j
  refine congrArg (V c main_v11) (funext fun a => Fin.ext ?_)
  have hi := idx_weights t
  match a with
  | ⟨0, _⟩ => show win0_13.index t (0 : Fin 2) * 16 + 1 * (j 0).val = (j 0).val; omega
  | ⟨1, _⟩ => show win0_13.index t (1 : Fin 2) * 16 + 1 * (j 1).val = (j 1).val; omega
theorem blk_w14 (c : Dev nD) (t : Fin cfg0.N) : (iblk0 V c 14 t : S16.Idx → EReal) = V c main_arg19 := by
  funext j
  show V c main_arg19 (((cfg0.win 14).blk t).view.emb j) = V c main_arg19 j
  refine congrArg (V c main_arg19) (funext fun a => Fin.ext ?_)
  have hi := idx_weights t
  match a with
  | ⟨0, _⟩ => show win0_14.index t (0 : Fin 1) * 16 + 1 * (j 0).val = (j 0).val; omega
theorem blk_w15 (c : Dev nD) (t : Fin cfg0.N) : (iblk0 V c 15 t : S16x16.Idx → EReal) = V c main_v13 := by
  funext j
  show V c main_v13 (((cfg0.win 15).blk t).view.emb j) = V c main_v13 j
  refine congrArg (V c main_v13) (funext fun a => Fin.ext ?_)
  have hi := idx_weights t
  match a with
  | ⟨0, _⟩ => show win0_15.index t (0 : Fin 2) * 16 + 1 * (j 0).val = (j 0).val; omega
  | ⟨1, _⟩ => show win0_15.index t (1 : Fin 2) * 16 + 1 * (j 1).val = (j 1).val; omega
theorem blk_w16 (c : Dev nD) (t : Fin cfg0.N) : (iblk0 V c 16 t : S16.Idx → EReal) = V c main_arg21 := by
  funext j
  show V c main_arg21 (((cfg0.win 16).blk t).view.emb j) = V c main_arg21 j
  refine congrArg (V c main_arg21) (funext fun a => Fin.ext ?_)
  have hi := idx_weights t
  match a with
  | ⟨0, _⟩ => show win0_16.index t (0 : Fin 1) * 16 + 1 * (j 0).val = (j 0).val; omega
theorem blk_w17 (c : Dev nD) (t : Fin cfg0.N) : (iblk0 V c 17 t : S16x16.Idx → EReal) = V c main_v15 := by
  funext j
  show V c main_v15 (((cfg0.win 17).blk t).view.emb j) = V c main_v15 j
  refine congrArg (V c main_v15) (funext fun a => Fin.ext ?_)
  have hi := idx_weights t
  match a with
  | ⟨0, _⟩ => show win0_17.index t (0 : Fin 2) * 16 + 1 * (j 0).val = (j 0).val; omega
  | ⟨1, _⟩ => show win0_17.index t (1 : Fin 2) * 16 + 1 * (j 1).val = (j 1).val; omega
theorem blk_w18 (c : Dev nD) (t : Fin cfg0.N) : (iblk0 V c 18 t : S16.Idx → EReal) = V c main_arg23 := by
  funext j
  show V c main_arg23 (((cfg0.win 18).blk t).view.emb j) = V c main_arg23 j
  refine congrArg (V c main_arg23) (funext fun a => Fin.ext ?_)
  have hi := idx_weights t
  match a with
  | ⟨0, _⟩ => show win0_18.index t (0 : Fin 1) * 16 + 1 * (j 0).val = (j 0).val; omega
theorem blk_w19 (c : Dev nD) (t : Fin cfg0.N) : (iblk0 V c 19 t : S16x16.Idx → EReal) = V c main_v17 := by
  funext j
  show V c main_v17 (((cfg0.win 19).blk t).view.emb j) = V c main_v17 j
  refine congrArg (V c main_v17) (funext fun a => Fin.ext ?_)
  have hi := idx_weights t
  match a with
  | ⟨0, _⟩ => show win0_19.index t (0 : Fin 2) * 16 + 1 * (j 0).val = (j 0).val; omega
  | ⟨1, _⟩ => show win0_19.index t (1 : Fin 2) * 16 + 1 * (j 1).val = (j 1).val; omega
theorem blk_w20 (c : Dev nD) (t : Fin cfg0.N) : (iblk0 V c 20 t : S16.Idx → EReal) = V c main_arg25 := by
  funext j
  show V c main_arg25 (((cfg0.win 20).blk t).view.emb j) = V c main_arg25 j
  refine congrArg (V c main_arg25) (funext fun a => Fin.ext ?_)
  have hi := idx_weights t
  match a with
  | ⟨0, _⟩ => show win0_20.index t (0 : Fin 1) * 16 + 1 * (j 0).val = (j 0).val; omega

/-- The weights a grid point stages are the weights the launch finds. -/
theorem weights_blk (c : Dev nD) (t : Fin cfg0.N) :
    TreeCell.RowWeights.ofTransposed (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) = weights V c := by
  unfold weights
  rw [blk_w3 V c t, blk_w4 V c t, blk_w5 V c t, blk_w6 V c t, blk_w7 V c t, blk_w8 V c t, blk_w9 V c t, blk_w10 V c t, blk_w11 V c t, blk_w12 V c t, blk_w13 V c t, blk_w14 V c t, blk_w15 V c t, blk_w16 V c t, blk_w17 V c t, blk_w18 V c t, blk_w19 V c t, blk_w20 V c t]

/-! ## The written-back arrays -/

/-- A row function of the cell as a whole array over the arrays the launch finds. -/
def rows (f : TreeCell.RowWeights → (Fin 1 → EReal) → (Fin 16 → EReal) → (Fin 16 → EReal) → Fin 16 → EReal) (c : Dev nD) :
    S524288x16.Idx → EReal := fun i =>
  f (weights V c) (TreeCell.uOf (V c main_arg0) (i 0)) (TreeCell.hpOf (V c main_arg1) (i 0)) (TreeCell.cpOf (V c main_arg2) (i 0)) (i 1)

/-- Window 21's row function: the new hidden states. -/
abbrev f21 : TreeCell.RowWeights → (Fin 1 → EReal) → (Fin 16 → EReal) → (Fin 16 → EReal) → Fin 16 → EReal :=
  fun P u hp cp => TreeCell.hRow P u hp cp

/-- Entry `(p, q)` of the block point `t` writes back sits at row `2048 t + p`, column `q` of the array. -/
theorem emb_out21 (t : Fin cfg0.N) (p : Fin 2048) (q : Fin 16) :
    ((cfg0.win 21).blk t).view.emb (ix2 p q) = ix2 (rowAt t p) q := by
  funext a; apply Fin.ext
  have hi := idx_rows t
  match a with
  | ⟨0, _⟩ => show win0_21.index t (0 : Fin 2) * 2048 + 1 * p.val = 2048 * t.val + p.val; omega
  | ⟨1, _⟩ => show win0_21.index t (1 : Fin 2) * 16 + 1 * q.val = q.val; omega

/-- What point `t` writes back through window 21 is block `t` of the new hidden states as a whole array. -/
theorem flushed21 (c : Dev nD) (t : Fin cfg0.N) :
    (dat0 V c).flushed 21 t = ((cfg0.win 21).blk t).view.read (Elt Ideal) (rows V f21 c) := by
  show (cfg0.win 21).cut (grid0.coords t) ((dat0 V c).after 21 t) = _
  rw [after0_21]
  refine funext fun (j : S2048x16.Idx) => ?_
  obtain ⟨p, q, rfl⟩ : ∃ (p : Fin 2048) (q : Fin 16), j = ix2 p q := ⟨j 0, j 1, eq_ix2 j⟩
  show out0_21 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 p q)
    = rows V f21 c (((cfg0.win 21).blk t).view.emb (ix2 p q))
  rw [emb_out21 t p q]
  refine (Cert.RowBody.out0_21_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p q).trans ?_
  rw [weights_blk V c t]
  simp only [blk_in0 V c t p, blk_in1 V c t p, blk_in2 V c t p]
  rfl

/-- An index of the array is in point `t`'s block iff each coordinate is in the block's range on its axis. -/
theorem mem_blk21 (t : Fin cfg0.N) (i : S524288x16.Idx) :
    i ∈ ((cfg0.win 21).blk t).view.set ↔ ∀ a : Fin 2, win0_21.index t a * S2048x16.size a ≤ (i a).val ∧ (i a).val < win0_21.index t a * S2048x16.size a + S2048x16.size a := by
  show i ∈ ((View.whole main_v22_0).slice (win0_21.rect t)).set ↔ _
  rw [View.set_slice_whole, Rect.mem_set_unit]
  exact Iff.rfl

/-- Row `b` lies in the block of point `b / 2048`: the 256 blocks tile the array. -/
theorem cover21 (i : S524288x16.Idx) :
    ∃ t : Fin cfg0.N, (cfg0.win 21).flush t = true ∧ i ∈ ((cfg0.win 21).blk t).view.set := by
  have h0 : (i 0).val < 524288 := (i 0).isLt
  have h1 : (i 1).val < 16 := (i 1).isLt
  have hN : cfg0.N = 256 := N_0
  refine ⟨⟨(i 0).val / 2048, by omega⟩, flush0_21 _, ?_⟩
  rw [mem_blk21]
  have hi := idx_rows ⟨(i 0).val / 2048, by omega⟩
  have ht : (⟨(i 0).val / 2048, by omega⟩ : Fin cfg0.N).val = (i 0).val / 2048 := rfl
  intro a
  match a with
  | ⟨0, _⟩ =>
    show win0_21.index ⟨(i 0).val / 2048, _⟩ (0 : Fin 2) * 2048 ≤ (i 0).val ∧ (i 0).val < win0_21.index ⟨(i 0).val / 2048, _⟩ (0 : Fin 2) * 2048 + 2048
    omega
  | ⟨1, _⟩ =>
    show win0_21.index ⟨(i 0).val / 2048, _⟩ (1 : Fin 2) * 16 ≤ (i 1).val ∧ (i 1).val < win0_21.index ⟨(i 0).val / 2048, _⟩ (1 : Fin 2) * 16 + 16
    omega

/-- After the launch the array holds the new hidden states, row by row. -/
theorem final21 (c : Dev nD) : (dat0 V c).arrAt 21 cfg0.N = rows V f21 c :=
  (dat0 V c).arrAt_eq_of_cover 21 (rows V f21 c) (fun t _ => flushed21 V c t) cover21

/-- Window 22's row function: the new cell states. -/
abbrev f22 : TreeCell.RowWeights → (Fin 1 → EReal) → (Fin 16 → EReal) → (Fin 16 → EReal) → Fin 16 → EReal :=
  fun P u hp cp => TreeCell.cRow P u hp cp

/-- Entry `(p, q)` of the block point `t` writes back sits at row `2048 t + p`, column `q` of the array. -/
theorem emb_out22 (t : Fin cfg0.N) (p : Fin 2048) (q : Fin 16) :
    ((cfg0.win 22).blk t).view.emb (ix2 p q) = ix2 (rowAt t p) q := by
  funext a; apply Fin.ext
  have hi := idx_rows t
  match a with
  | ⟨0, _⟩ => show win0_22.index t (0 : Fin 2) * 2048 + 1 * p.val = 2048 * t.val + p.val; omega
  | ⟨1, _⟩ => show win0_22.index t (1 : Fin 2) * 16 + 1 * q.val = q.val; omega

/-- What point `t` writes back through window 22 is block `t` of the new cell states as a whole array. -/
theorem flushed22 (c : Dev nD) (t : Fin cfg0.N) :
    (dat0 V c).flushed 22 t = ((cfg0.win 22).blk t).view.read (Elt Ideal) (rows V f22 c) := by
  show (cfg0.win 22).cut (grid0.coords t) ((dat0 V c).after 22 t) = _
  rw [after0_22]
  refine funext fun (j : S2048x16.Idx) => ?_
  obtain ⟨p, q, rfl⟩ : ∃ (p : Fin 2048) (q : Fin 16), j = ix2 p q := ⟨j 0, j 1, eq_ix2 j⟩
  show out0_22 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 p q)
    = rows V f22 c (((cfg0.win 22).blk t).view.emb (ix2 p q))
  rw [emb_out22 t p q]
  refine (Cert.RowBody.out0_22_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p q).trans ?_
  rw [weights_blk V c t]
  simp only [blk_in0 V c t p, blk_in1 V c t p, blk_in2 V c t p]
  rfl

/-- An index of the array is in point `t`'s block iff each coordinate is in the block's range on its axis. -/
theorem mem_blk22 (t : Fin cfg0.N) (i : S524288x16.Idx) :
    i ∈ ((cfg0.win 22).blk t).view.set ↔ ∀ a : Fin 2, win0_22.index t a * S2048x16.size a ≤ (i a).val ∧ (i a).val < win0_22.index t a * S2048x16.size a + S2048x16.size a := by
  show i ∈ ((View.whole main_v22_1).slice (win0_22.rect t)).set ↔ _
  rw [View.set_slice_whole, Rect.mem_set_unit]
  exact Iff.rfl

/-- Row `b` lies in the block of point `b / 2048`: the 256 blocks tile the array. -/
theorem cover22 (i : S524288x16.Idx) :
    ∃ t : Fin cfg0.N, (cfg0.win 22).flush t = true ∧ i ∈ ((cfg0.win 22).blk t).view.set := by
  have h0 : (i 0).val < 524288 := (i 0).isLt
  have h1 : (i 1).val < 16 := (i 1).isLt
  have hN : cfg0.N = 256 := N_0
  refine ⟨⟨(i 0).val / 2048, by omega⟩, flush0_22 _, ?_⟩
  rw [mem_blk22]
  have hi := idx_rows ⟨(i 0).val / 2048, by omega⟩
  have ht : (⟨(i 0).val / 2048, by omega⟩ : Fin cfg0.N).val = (i 0).val / 2048 := rfl
  intro a
  match a with
  | ⟨0, _⟩ =>
    show win0_22.index ⟨(i 0).val / 2048, _⟩ (0 : Fin 2) * 2048 ≤ (i 0).val ∧ (i 0).val < win0_22.index ⟨(i 0).val / 2048, _⟩ (0 : Fin 2) * 2048 + 2048
    omega
  | ⟨1, _⟩ =>
    show win0_22.index ⟨(i 0).val / 2048, _⟩ (1 : Fin 2) * 16 ≤ (i 1).val ∧ (i 1).val < win0_22.index ⟨(i 0).val / 2048, _⟩ (1 : Fin 2) * 16 + 16
    omega

/-- After the launch the array holds the new cell states, row by row. -/
theorem final22 (c : Dev nD) : (dat0 V c).arrAt 22 cfg0.N = rows V f22 c :=
  (dat0 V c).arrAt_eq_of_cover 22 (rows V f22 c) (fun t _ => flushed22 V c t) cover22

/-- Window 23's row function: the first node gates. -/
abbrev f23 : TreeCell.RowWeights → (Fin 1 → EReal) → (Fin 16 → EReal) → (Fin 16 → EReal) → Fin 16 → EReal :=
  fun P u hp cp => TreeCell.n1Row P u hp

/-- Entry `(p, q)` of the block point `t` writes back sits at row `2048 t + p`, column `q` of the array. -/
theorem emb_out23 (t : Fin cfg0.N) (p : Fin 2048) (q : Fin 16) :
    ((cfg0.win 23).blk t).view.emb (ix2 p q) = ix2 (rowAt t p) q := by
  funext a; apply Fin.ext
  have hi := idx_rows t
  match a with
  | ⟨0, _⟩ => show win0_23.index t (0 : Fin 2) * 2048 + 1 * p.val = 2048 * t.val + p.val; omega
  | ⟨1, _⟩ => show win0_23.index t (1 : Fin 2) * 16 + 1 * q.val = q.val; omega

/-- What point `t` writes back through window 23 is block `t` of the first node gates as a whole array. -/
theorem flushed23 (c : Dev nD) (t : Fin cfg0.N) :
    (dat0 V c).flushed 23 t = ((cfg0.win 23).blk t).view.read (Elt Ideal) (rows V f23 c) := by
  show (cfg0.win 23).cut (grid0.coords t) ((dat0 V c).after 23 t) = _
  rw [after0_23]
  refine funext fun (j : S2048x16.Idx) => ?_
  obtain ⟨p, q, rfl⟩ : ∃ (p : Fin 2048) (q : Fin 16), j = ix2 p q := ⟨j 0, j 1, eq_ix2 j⟩
  show out0_23 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 p q)
    = rows V f23 c (((cfg0.win 23).blk t).view.emb (ix2 p q))
  rw [emb_out23 t p q]
  refine (Cert.RowBody.out0_23_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p q).trans ?_
  rw [weights_blk V c t]
  simp only [blk_in0 V c t p, blk_in1 V c t p, blk_in2 V c t p]
  rfl

/-- An index of the array is in point `t`'s block iff each coordinate is in the block's range on its axis. -/
theorem mem_blk23 (t : Fin cfg0.N) (i : S524288x16.Idx) :
    i ∈ ((cfg0.win 23).blk t).view.set ↔ ∀ a : Fin 2, win0_23.index t a * S2048x16.size a ≤ (i a).val ∧ (i a).val < win0_23.index t a * S2048x16.size a + S2048x16.size a := by
  show i ∈ ((View.whole main_v22_2).slice (win0_23.rect t)).set ↔ _
  rw [View.set_slice_whole, Rect.mem_set_unit]
  exact Iff.rfl

/-- Row `b` lies in the block of point `b / 2048`: the 256 blocks tile the array. -/
theorem cover23 (i : S524288x16.Idx) :
    ∃ t : Fin cfg0.N, (cfg0.win 23).flush t = true ∧ i ∈ ((cfg0.win 23).blk t).view.set := by
  have h0 : (i 0).val < 524288 := (i 0).isLt
  have h1 : (i 1).val < 16 := (i 1).isLt
  have hN : cfg0.N = 256 := N_0
  refine ⟨⟨(i 0).val / 2048, by omega⟩, flush0_23 _, ?_⟩
  rw [mem_blk23]
  have hi := idx_rows ⟨(i 0).val / 2048, by omega⟩
  have ht : (⟨(i 0).val / 2048, by omega⟩ : Fin cfg0.N).val = (i 0).val / 2048 := rfl
  intro a
  match a with
  | ⟨0, _⟩ =>
    show win0_23.index ⟨(i 0).val / 2048, _⟩ (0 : Fin 2) * 2048 ≤ (i 0).val ∧ (i 0).val < win0_23.index ⟨(i 0).val / 2048, _⟩ (0 : Fin 2) * 2048 + 2048
    omega
  | ⟨1, _⟩ =>
    show win0_23.index ⟨(i 0).val / 2048, _⟩ (1 : Fin 2) * 16 ≤ (i 1).val ∧ (i 1).val < win0_23.index ⟨(i 0).val / 2048, _⟩ (1 : Fin 2) * 16 + 16
    omega

/-- After the launch the array holds the first node gates, row by row. -/
theorem final23 (c : Dev nD) : (dat0 V c).arrAt 23 cfg0.N = rows V f23 c :=
  (dat0 V c).arrAt_eq_of_cover 23 (rows V f23 c) (fun t _ => flushed23 V c t) cover23

/-- Window 24's row function: the second node gates. -/
abbrev f24 : TreeCell.RowWeights → (Fin 1 → EReal) → (Fin 16 → EReal) → (Fin 16 → EReal) → Fin 16 → EReal :=
  fun P u hp cp => TreeCell.n2Row P u hp cp

/-- Entry `(p, q)` of the block point `t` writes back sits at row `2048 t + p`, column `q` of the array. -/
theorem emb_out24 (t : Fin cfg0.N) (p : Fin 2048) (q : Fin 16) :
    ((cfg0.win 24).blk t).view.emb (ix2 p q) = ix2 (rowAt t p) q := by
  funext a; apply Fin.ext
  have hi := idx_rows t
  match a with
  | ⟨0, _⟩ => show win0_24.index t (0 : Fin 2) * 2048 + 1 * p.val = 2048 * t.val + p.val; omega
  | ⟨1, _⟩ => show win0_24.index t (1 : Fin 2) * 16 + 1 * q.val = q.val; omega

/-- What point `t` writes back through window 24 is block `t` of the second node gates as a whole array. -/
theorem flushed24 (c : Dev nD) (t : Fin cfg0.N) :
    (dat0 V c).flushed 24 t = ((cfg0.win 24).blk t).view.read (Elt Ideal) (rows V f24 c) := by
  show (cfg0.win 24).cut (grid0.coords t) ((dat0 V c).after 24 t) = _
  rw [after0_24]
  refine funext fun (j : S2048x16.Idx) => ?_
  obtain ⟨p, q, rfl⟩ : ∃ (p : Fin 2048) (q : Fin 16), j = ix2 p q := ⟨j 0, j 1, eq_ix2 j⟩
  show out0_24 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 p q)
    = rows V f24 c (((cfg0.win 24).blk t).view.emb (ix2 p q))
  rw [emb_out24 t p q]
  refine (Cert.RowBody.out0_24_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p q).trans ?_
  rw [weights_blk V c t]
  simp only [blk_in0 V c t p, blk_in1 V c t p, blk_in2 V c t p]
  rfl

/-- An index of the array is in point `t`'s block iff each coordinate is in the block's range on its axis. -/
theorem mem_blk24 (t : Fin cfg0.N) (i : S524288x16.Idx) :
    i ∈ ((cfg0.win 24).blk t).view.set ↔ ∀ a : Fin 2, win0_24.index t a * S2048x16.size a ≤ (i a).val ∧ (i a).val < win0_24.index t a * S2048x16.size a + S2048x16.size a := by
  show i ∈ ((View.whole main_v22_3).slice (win0_24.rect t)).set ↔ _
  rw [View.set_slice_whole, Rect.mem_set_unit]
  exact Iff.rfl

/-- Row `b` lies in the block of point `b / 2048`: the 256 blocks tile the array. -/
theorem cover24 (i : S524288x16.Idx) :
    ∃ t : Fin cfg0.N, (cfg0.win 24).flush t = true ∧ i ∈ ((cfg0.win 24).blk t).view.set := by
  have h0 : (i 0).val < 524288 := (i 0).isLt
  have h1 : (i 1).val < 16 := (i 1).isLt
  have hN : cfg0.N = 256 := N_0
  refine ⟨⟨(i 0).val / 2048, by omega⟩, flush0_24 _, ?_⟩
  rw [mem_blk24]
  have hi := idx_rows ⟨(i 0).val / 2048, by omega⟩
  have ht : (⟨(i 0).val / 2048, by omega⟩ : Fin cfg0.N).val = (i 0).val / 2048 := rfl
  intro a
  match a with
  | ⟨0, _⟩ =>
    show win0_24.index ⟨(i 0).val / 2048, _⟩ (0 : Fin 2) * 2048 ≤ (i 0).val ∧ (i 0).val < win0_24.index ⟨(i 0).val / 2048, _⟩ (0 : Fin 2) * 2048 + 2048
    omega
  | ⟨1, _⟩ =>
    show win0_24.index ⟨(i 0).val / 2048, _⟩ (1 : Fin 2) * 16 ≤ (i 1).val ∧ (i 1).val < win0_24.index ⟨(i 0).val / 2048, _⟩ (1 : Fin 2) * 16 + 16
    omega

/-- After the launch the array holds the second node gates, row by row. -/
theorem final24 (c : Dev nD) : (dat0 V c).arrAt 24 cfg0.N = rows V f24 c :=
  (dat0 V c).arrAt_eq_of_cover 24 (rows V f24 c) (fun t _ => flushed24 V c t) cover24

/-- Window 25's row function: the mapped inputs. -/
abbrev f25 : TreeCell.RowWeights → (Fin 1 → EReal) → (Fin 16 → EReal) → (Fin 16 → EReal) → Fin 16 → EReal :=
  fun P u hp cp => TreeCell.xRow P u

/-- Entry `(p, q)` of the block point `t` writes back sits at row `2048 t + p`, column `q` of the array. -/
theorem emb_out25 (t : Fin cfg0.N) (p : Fin 2048) (q : Fin 16) :
    ((cfg0.win 25).blk t).view.emb (ix2 p q) = ix2 (rowAt t p) q := by
  funext a; apply Fin.ext
  have hi := idx_rows t
  match a with
  | ⟨0, _⟩ => show win0_25.index t (0 : Fin 2) * 2048 + 1 * p.val = 2048 * t.val + p.val; omega
  | ⟨1, _⟩ => show win0_25.index t (1 : Fin 2) * 16 + 1 * q.val = q.val; omega

/-- What point `t` writes back through window 25 is block `t` of the mapped inputs as a whole array. -/
theorem flushed25 (c : Dev nD) (t : Fin cfg0.N) :
    (dat0 V c).flushed 25 t = ((cfg0.win 25).blk t).view.read (Elt Ideal) (rows V f25 c) := by
  show (cfg0.win 25).cut (grid0.coords t) ((dat0 V c).after 25 t) = _
  rw [after0_25]
  refine funext fun (j : S2048x16.Idx) => ?_
  obtain ⟨p, q, rfl⟩ : ∃ (p : Fin 2048) (q : Fin 16), j = ix2 p q := ⟨j 0, j 1, eq_ix2 j⟩
  show out0_25 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) (ix2 p q)
    = rows V f25 c (((cfg0.win 25).blk t).view.emb (ix2 p q))
  rw [emb_out25 t p q]
  refine (Cert.RowBody.out0_25_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (iblk0 V c 15 t) (iblk0 V c 16 t) (iblk0 V c 17 t) (iblk0 V c 18 t) (iblk0 V c 19 t) (iblk0 V c 20 t) p q).trans ?_
  rw [weights_blk V c t]
  simp only [blk_in0 V c t p, blk_in1 V c t p, blk_in2 V c t p]
  rfl

/-- An index of the array is in point `t`'s block iff each coordinate is in the block's range on its axis. -/
theorem mem_blk25 (t : Fin cfg0.N) (i : S524288x16.Idx) :
    i ∈ ((cfg0.win 25).blk t).view.set ↔ ∀ a : Fin 2, win0_25.index t a * S2048x16.size a ≤ (i a).val ∧ (i a).val < win0_25.index t a * S2048x16.size a + S2048x16.size a := by
  show i ∈ ((View.whole main_v22_4).slice (win0_25.rect t)).set ↔ _
  rw [View.set_slice_whole, Rect.mem_set_unit]
  exact Iff.rfl

/-- Row `b` lies in the block of point `b / 2048`: the 256 blocks tile the array. -/
theorem cover25 (i : S524288x16.Idx) :
    ∃ t : Fin cfg0.N, (cfg0.win 25).flush t = true ∧ i ∈ ((cfg0.win 25).blk t).view.set := by
  have h0 : (i 0).val < 524288 := (i 0).isLt
  have h1 : (i 1).val < 16 := (i 1).isLt
  have hN : cfg0.N = 256 := N_0
  refine ⟨⟨(i 0).val / 2048, by omega⟩, flush0_25 _, ?_⟩
  rw [mem_blk25]
  have hi := idx_rows ⟨(i 0).val / 2048, by omega⟩
  have ht : (⟨(i 0).val / 2048, by omega⟩ : Fin cfg0.N).val = (i 0).val / 2048 := rfl
  intro a
  match a with
  | ⟨0, _⟩ =>
    show win0_25.index ⟨(i 0).val / 2048, _⟩ (0 : Fin 2) * 2048 ≤ (i 0).val ∧ (i 0).val < win0_25.index ⟨(i 0).val / 2048, _⟩ (0 : Fin 2) * 2048 + 2048
    omega
  | ⟨1, _⟩ =>
    show win0_25.index ⟨(i 0).val / 2048, _⟩ (1 : Fin 2) * 16 ≤ (i 1).val ∧ (i 1).val < win0_25.index ⟨(i 0).val / 2048, _⟩ (1 : Fin 2) * 16 + 16
    omega

/-- After the launch the array holds the mapped inputs, row by row. -/
theorem final25 (c : Dev nD) : (dat0 V c).arrAt 25 cfg0.N = rows V f25 c :=
  (dat0 V c).arrAt_eq_of_cover 25 (rows V f25 c) (fun t _ => flushed25 V c t) cover25

end Cert.KernelIdeal.FirstLaunch

end
-- ==== Proof.ChildSumPay.lean ====
/-
  The second kernel's payload terms, entry by entry, on the extended reals.

  The body of the second kernel visits the eight children of a block of 512 rows in turn. For child `c` it forms, at
  row `r` and lane `q`, the pre-activation `((x_c·Wx + bx) + h_c·Wh) + bh` of a child gate — two products of a
  sixteen-entry row with a column of a transposed weight matrix, each followed by its bias, added from the left — takes
  its logistic, multiplies by the child's state at `(c, r, q)` and adds the product to a running sum that starts at the
  zero word. The last term multiplies the running sum by the first node gate and adds the second node gate times the
  new hidden state. The program's text is cut into fifteen pure terms at places that follow the text, not the
  mathematics; each is read here at an entry `(r, q)` over arbitrary operands, a whole child's step where the cut
  leaves one whole, and the bare affine pieces where the cut falls inside a step. The pre-activation with its four
  terms regrouped as two affine forms is the specification's, so the logistic of it is the specification's child gate.
-/
import proofs.«110906_j20761871909637_2_alg».proof.Proof.Gen.KernelIdeal.Skeleton
import proofs.«110906_j20761871909637_2_alg».proof.Proof.TreeCell
import proofs.«110906_j20761871909637_2_alg».proof.Proof.LibMatmulPlain
import proofs.«110906_j20761871909637_2_alg».proof.Proof.LibRowOps

noncomputable section

open scoped BigOperators

namespace Cert.ChildSumBody

open Cert.KernelIdeal Cert.KernelIdeal.Gen Idealize.ShloMosaic Idealize.ShloMosaic.ValueIdx

/-- The printed dimension numbers of the child-gate products are the plain ones. -/
theorem dot_plain : dot_S512x16_S16x128_S512x128_1_0_0_1_n_n = DotDims.plain 512 16 128 := rfl

/-- The float word `0x3F800000` is the number one. -/
theorem one_word : (Ideal.ofBits .f32 0x3F800000#32 : EReal) = 1 := by
  simp [Ideal.ofBits, Ideal.ieee, -EReal.coe_mul]; norm_num

/-- The pre-activation of a child gate at lane `q` from a row `a` of mapped inputs and a row `h` of hidden states,
    with its four terms added in the order the program adds them: `((a·Wx + bx) + h·Wh) + bh`. -/
def kpre (a h : Fin 16 → EReal) (Wx : S16x128.Idx → EReal) (bx : S128.Idx → EReal)
    (Wh : S16x128.Idx → EReal) (bh : S128.Idx → EReal) (q : Fin 128) : EReal :=
  (((∑ k : Fin 16, a k * Wx (ix2 k q)) + bx (ix1 q)) + ∑ k : Fin 16, h k * Wh (ix2 k q)) + bh (ix1 q)

/-- The logistic of the two affine layers added, read at an entry. -/
theorem gate_apply (A H : FVec Ideal S512x16 .bf16) (Wx Wh : FVec Ideal S16x128 .bf16) (bx bh : FVec Ideal S128 .f32)
    (r : Fin 512) (q : Fin 128) :
    logistic (addf (addf (addf
        (matmul dot_S512x16_S16x128_S512x128_1_0_0_1_n_n none A Wx (constant (F := Ideal) S512x128 .f32 0x00000000#32))
        (broadcastTo S512x128 (shapeCast S1x128 bx shapeCasts_S128_S1x128) broadcasts_S1x128_S512x128))
        (matmul dot_S512x16_S16x128_S512x128_1_0_0_1_n_n none H Wh (constant (F := Ideal) S512x128 .f32 0x00000000#32)))
        (broadcastTo S512x128 (shapeCast S1x128 bh shapeCasts_S128_S1x128) broadcasts_S1x128_S512x128)) (ix2 r q)
      = Ideal.logistic (kpre (fun k => A (ix2 r k)) (fun k => H (ix2 r k)) Wx bx Wh bh q) := by
  show Ideal.logistic _ = _
  refine congrArg Ideal.logistic ?_
  rw [addf_apply, addf_apply]
  rw [Cert.LibRowOps.kernel_affine_apply _ dot_plain, dot_plain, Cert.LibMatmulPlain.matmul_plain_zero_apply,
    broadcastTo_1b_ab_apply, shapeCast_a_1a_apply]
  rfl

/-- A kernel's logistic at an index. -/
theorem logistic_apply {s : Shape} {φ : FTy} (x : FVec Ideal s φ) (i : s.Idx) : logistic x i = Ideal.logistic (x i) := rfl

/-- A child-gate product into the zero splat, at an entry. -/
theorem mm_apply (A : FVec Ideal S512x16 .bf16) (W : FVec Ideal S16x128 .bf16) (r : Fin 512) (q : Fin 128) :
    matmul dot_S512x16_S16x128_S512x128_1_0_0_1_n_n none A W (constant (F := Ideal) S512x128 .f32 0x00000000#32) (ix2 r q)
      = ∑ k : Fin 16, A (ix2 r k) * W (ix2 k q) := by
  rw [dot_plain]; exact Cert.LibMatmulPlain.matmul_plain_zero_apply none A W r q

/-- A bias laid along every row, at an entry. -/
theorem bias_apply (b : FVec Ideal S128 .f32) (r : Fin 512) (q : Fin 128) :
    broadcastTo S512x128 (shapeCast S1x128 b shapeCasts_S128_S1x128) broadcasts_S1x128_S512x128 (ix2 r q) = b (ix1 q) := by
  rw [broadcastTo_1b_ab_apply, shapeCast_a_1a_apply]

/-- A child-gate affine layer, at an entry. -/
theorem affine_apply (A : FVec Ideal S512x16 .bf16) (W : FVec Ideal S16x128 .bf16) (b : FVec Ideal S128 .f32)
    (r : Fin 512) (q : Fin 128) :
    addf (matmul dot_S512x16_S16x128_S512x128_1_0_0_1_n_n none A W (constant (F := Ideal) S512x128 .f32 0x00000000#32))
        (broadcastTo S512x128 (shapeCast S1x128 b shapeCasts_S128_S1x128) broadcasts_S1x128_S512x128) (ix2 r q)
      = (∑ k : Fin 16, A (ix2 r k) * W (ix2 k q)) + b (ix1 q) := by
  rw [addf_apply, mm_apply, bias_apply]

/-! ## The fifteen payload terms at an entry -/

theorem pay1_apply (v1 : Vec Ideal S1x512x16 .bf16) (v3 : Vec Ideal S1x512x16 .f32) (v6 : Vec Ideal S16x128 .bf16)
    (v9 : Vec Ideal S128 .f32) (v13 : Vec Ideal S16x128 .bf16) (v17 : Vec Ideal S128 .f32) (v22 : Vec Ideal S1x512x128 .f32)
    (r : Fin 512) (q : Fin 128) :
    k1_pay1 (F := Ideal) v1 v3 v6 v9 v13 v17 v22 (ix2 r q)
      = TreeCell.zero + Ideal.logistic (kpre (fun k => v1 (ix3 (0 : Fin 1) r k)) (fun k => v3 (ix3 (0 : Fin 1) r k)) v6 v9 v13 v17 q)
          * v22 (ix3 (0 : Fin 1) r q) := by
  unfold k1_pay1
  simp only [shapeCast_self, addf_apply, mulf_apply, gate_apply, affine_apply, mm_apply, bias_apply, logistic_apply, shapeCast_1ab_ab_apply, truncf_apply, extf_apply, broadcast_apply]
  rfl

theorem pay2_apply (v26 : Vec Ideal S1x512x16 .bf16) (r : Fin 512) (k : Fin 16) :
    k1_pay2 (F := Ideal) v26 (ix2 r k) = v26 (ix3 (0 : Fin 1) r k) := by
  unfold k1_pay2
  exact shapeCast_1ab_ab_apply v26 _ r k

theorem pay3_apply (v28 : Vec Ideal S1x512x16 .f32) (r : Fin 512) (k : Fin 16) :
    k1_pay3 (F := Ideal) v28 (ix2 r k) = v28 (ix3 (0 : Fin 1) r k) := by
  unfold k1_pay3
  exact shapeCast_1ab_ab_apply v28 _ r k

theorem pay4_eq (v31 : Vec Ideal S16x128 .bf16) : k1_pay4 (F := Ideal) v31 = v31 := by
  unfold k1_pay4
  exact shapeCast_self v31 _

theorem pay5_apply (v25 : FVec Ideal S512x128 .f32) (v27 v30 : FVec Ideal S512x16 .bf16) (v32 : FVec Ideal S16x128 .bf16)
    (v34 : Vec Ideal S128 .f32) (v38 : Vec Ideal S16x128 .bf16) (v42 : Vec Ideal S128 .f32) (v47 : Vec Ideal S1x512x128 .f32)
    (r : Fin 512) (q : Fin 128) :
    k1_pay5 (F := Ideal) v25 v27 v30 v32 v34 v38 v42 v47 (ix2 r q)
      = v25 (ix2 r q) + Ideal.logistic (kpre (fun k => v27 (ix2 r k)) (fun k => v30 (ix2 r k)) v32 v34 v38 v42 q)
          * v47 (ix3 (0 : Fin 1) r q) := by
  unfold k1_pay5
  simp only [shapeCast_self, addf_apply, mulf_apply, gate_apply, affine_apply, mm_apply, bias_apply, logistic_apply, shapeCast_1ab_ab_apply, truncf_apply, extf_apply, broadcast_apply]
  rfl

theorem pay6_apply (v51 : Vec Ideal S1x512x16 .bf16) (v53 : Vec Ideal S1x512x16 .f32) (v56 : Vec Ideal S16x128 .bf16)
    (v59 : Vec Ideal S128 .f32) (v63 : Vec Ideal S16x128 .bf16) (r : Fin 512) (q : Fin 128) :
    k1_pay6 (F := Ideal) v51 v53 v56 v59 v63 (ix2 r q)
      = ((∑ k : Fin 16, v51 (ix3 (0 : Fin 1) r k) * v56 (ix2 k q)) + v59 (ix1 q))
          + ∑ k : Fin 16, v53 (ix3 (0 : Fin 1) r k) * v63 (ix2 k q) := by
  unfold k1_pay6
  simp only [shapeCast_self, addf_apply, mulf_apply, gate_apply, affine_apply, mm_apply, bias_apply, logistic_apply, shapeCast_1ab_ab_apply, truncf_apply, extf_apply, broadcast_apply]

theorem pay7_apply (v67 : Vec Ideal S128 .f32) (r : Fin 512) (q : Fin 128) :
    k1_pay7 (F := Ideal) v67 (ix2 r q) = v67 (ix1 q) := by
  unfold k1_pay7
  exact bias_apply v67 r q

theorem pay8_apply (v50 v66 v69 : FVec Ideal S512x128 .f32) (v72 : Vec Ideal S1x512x128 .f32)
    (v76 : Vec Ideal S1x512x16 .bf16) (v78 : Vec Ideal S1x512x16 .f32) (v81 : Vec Ideal S16x128 .bf16) (v84 : Vec Ideal S128 .f32)
    (v88 : Vec Ideal S16x128 .bf16) (v92 : Vec Ideal S128 .f32) (v97 : Vec Ideal S1x512x128 .f32) (r : Fin 512) (q : Fin 128) :
    k1_pay8 (F := Ideal) v50 v66 v69 v72 v76 v78 v81 v84 v88 v92 v97 (ix2 r q)
      = (v50 (ix2 r q) + Ideal.logistic (v66 (ix2 r q) + v69 (ix2 r q)) * v72 (ix3 (0 : Fin 1) r q))
          + Ideal.logistic (kpre (fun k => v76 (ix3 (0 : Fin 1) r k)) (fun k => v78 (ix3 (0 : Fin 1) r k)) v81 v84 v88 v92 q)
              * v97 (ix3 (0 : Fin 1) r q) := by
  unfold k1_pay8
  simp only [shapeCast_self, addf_apply, mulf_apply, gate_apply, affine_apply, mm_apply, bias_apply, logistic_apply, shapeCast_1ab_ab_apply, truncf_apply, extf_apply, broadcast_apply]
  rfl

theorem pay9_apply (v101 : Vec Ideal S1x512x16 .bf16) (r : Fin 512) (k : Fin 16) :
    k1_pay9 (F := Ideal) v101 (ix2 r k) = v101 (ix3 (0 : Fin 1) r k) := by
  unfold k1_pay9
  exact shapeCast_1ab_ab_apply v101 _ r k

theorem pay10_apply (v100 : FVec Ideal S512x128 .f32) (v102 : FVec Ideal S512x16 .bf16) (v103 : Vec Ideal S1x512x16 .f32)
    (v106 : Vec Ideal S16x128 .bf16) (v109 : Vec Ideal S128 .f32) (v113 : Vec Ideal S16x128 .bf16) (v117 : Vec Ideal S128 .f32)
    (v122 : Vec Ideal S1x512x128 .f32) (r : Fin 512) (q : Fin 128) :
    k1_pay10 (F := Ideal) v100 v102 v103 v106 v109 v113 v117 v122 (ix2 r q)
      = v100 (ix2 r q) + Ideal.logistic (kpre (fun k => v102 (ix2 r k)) (fun k => v103 (ix3 (0 : Fin 1) r k)) v106 v109 v113 v117 q)
          * v122 (ix3 (0 : Fin 1) r q) := by
  unfold k1_pay10
  simp only [shapeCast_self, addf_apply, mulf_apply, gate_apply, affine_apply, mm_apply, bias_apply, logistic_apply, shapeCast_1ab_ab_apply, truncf_apply, extf_apply, broadcast_apply]
  rfl

theorem pay11_apply (v128 : Vec Ideal S1x512x16 .f32) (r : Fin 512) (k : Fin 16) :
    k1_pay11 (F := Ideal) v128 (ix2 r k) = v128 (ix3 (0 : Fin 1) r k) := by
  unfold k1_pay11
  exact shapeCast_1ab_ab_apply v128 _ r k

theorem pay12_apply (v126 : Vec Ideal S1x512x16 .bf16) (v131 : Vec Ideal S16x128 .bf16) (v134 : Vec Ideal S128 .f32)
    (r : Fin 512) (q : Fin 128) :
    k1_pay12 (F := Ideal) v126 v131 v134 (ix2 r q)
      = (∑ k : Fin 16, v126 (ix3 (0 : Fin 1) r k) * v131 (ix2 k q)) + v134 (ix1 q) := by
  unfold k1_pay12
  simp only [shapeCast_self, addf_apply, mulf_apply, gate_apply, affine_apply, mm_apply, bias_apply, logistic_apply, shapeCast_1ab_ab_apply, truncf_apply, extf_apply, broadcast_apply]

theorem pay13_eq (v138 : Vec Ideal S16x128 .bf16) : k1_pay13 (F := Ideal) v138 = v138 := by
  unfold k1_pay13
  exact shapeCast_self v138 _

theorem pay14_apply (v125 : FVec Ideal S512x128 .f32) (v130 : FVec Ideal S512x16 .bf16) (v137 : FVec Ideal S512x128 .f32)
    (v139 : FVec Ideal S16x128 .bf16) (v142 : Vec Ideal S128 .f32) (v147 : Vec Ideal S1x512x128 .f32)
    (v151 : Vec Ideal S1x512x16 .bf16) (v153 : Vec Ideal S1x512x16 .f32) (v156 : Vec Ideal S16x128 .bf16) (v159 : Vec Ideal S128 .f32)
    (v163 : Vec Ideal S16x128 .bf16) (v167 : Vec Ideal S128 .f32) (v172 : Vec Ideal S1x512x128 .f32) (r : Fin 512) (q : Fin 128) :
    k1_pay14 (F := Ideal) v125 v130 v137 v139 (constant (F := Ideal) S512x128 .f32 0x00000000#32) v142 v147 v151 v153 v156 v159 v163 v167 v172 (ix2 r q)
      = (v125 (ix2 r q)
            + Ideal.logistic ((v137 (ix2 r q) + ∑ k : Fin 16, v130 (ix2 r k) * v139 (ix2 k q)) + v142 (ix1 q)) * v147 (ix3 (0 : Fin 1) r q))
          + Ideal.logistic (kpre (fun k => v151 (ix3 (0 : Fin 1) r k)) (fun k => v153 (ix3 (0 : Fin 1) r k)) v156 v159 v163 v167 q)
              * v172 (ix3 (0 : Fin 1) r q) := by
  unfold k1_pay14
  simp only [shapeCast_self, addf_apply, mulf_apply, gate_apply, affine_apply, mm_apply, bias_apply, logistic_apply, shapeCast_1ab_ab_apply, truncf_apply, extf_apply, broadcast_apply]
  rfl

theorem pay15_apply (v175 : FVec Ideal S512x128 .f32) (v176 : Vec Ideal S1x512x16 .bf16) (v178 : Vec Ideal S1x512x16 .f32)
    (v181 : Vec Ideal S16x128 .bf16) (v184 : Vec Ideal S128 .f32) (v188 : Vec Ideal S16x128 .bf16) (v192 : Vec Ideal S128 .f32)
    (v197 : Vec Ideal S1x512x128 .f32) (v201 v205 : Vec Ideal S512x128 .bf16) (v208 : Vec Ideal S512x128 .f32)
    (r : Fin 512) (q : Fin 128) :
    k1_pay15 (F := Ideal) v175 v176 v178 v181 v184 v188 v192 v197 v201 v205 v208 (ix2 r q)
      = v201 (ix2 r q)
            * (v175 (ix2 r q)
                + Ideal.logistic (kpre (fun k => v176 (ix3 (0 : Fin 1) r k)) (fun k => v178 (ix3 (0 : Fin 1) r k)) v181 v184 v188 v192 q)
                    * v197 (ix3 (0 : Fin 1) r q))
          + v205 (ix2 r q) * v208 (ix2 r q) := by
  unfold k1_pay15
  simp only [shapeCast_self, addf_apply, mulf_apply, gate_apply, affine_apply, mm_apply, bias_apply, logistic_apply, shapeCast_1ab_ab_apply, truncf_apply, extf_apply, broadcast_apply]
  rfl

/-! ## The specification's child gate, and the sum over the children -/

/-- The specification's logistic, spelt as a quotient with the word of one, is the logistic of the extended reals. -/
theorem sig_eq (z : EReal) : TreeCell.sig z = Ideal.logistic z := by
  unfold TreeCell.sig TreeCell.one
  rw [one_word]
  rfl

/-- The specification's child gate over the transposed weights is the logistic of the pre-activation as the program adds
    it: the four terms `((A + bA) + B) + bB` regrouped as the two affine forms `(A + bA) + (B + bB)`. -/
theorem gateRow_eq (x6 : Vec Ideal S16x128 .bf16) (x7 : Vec Ideal S128 .f32) (x8 : Vec Ideal S16x128 .bf16)
    (x9 : Vec Ideal S128 .f32) (a h : Fin 16 → EReal) (q : Fin 128) :
    TreeCell.gateRow (TreeCell.ChildWeights.ofTransposed x6 x7 x8 x9) a h q = Ideal.logistic (kpre a h x6 x7 x8 x9 q) := by
  unfold TreeCell.gateRow
  rw [sig_eq]
  refine congrArg Ideal.logistic ?_
  unfold TreeCell.pre TreeCell.aff kpre TreeCell.ChildWeights.ofTransposed
  exact (add_assoc _ _ _).symm

/-- Eight terms added one at a time onto a start value are the start value plus their sum. -/
theorem fold_eight (z : EReal) (t : Fin 8 → EReal) :
    z + t 0 + t 1 + t 2 + t 3 + t 4 + t 5 + t 6 + t 7 = z + ∑ c : Fin 8, t c := by
  rw [Fin.sum_univ_eight]
  simp only [add_assoc]

/-! ## The loads of the body: whole blocks, and one slab of a stacked block -/

/-- A unit rectangle of one slab `[1, a, b]` of a stacked block `[n, a, b]` at slab `o` reads, at `(0, r, k)`, the block at `(o, r, k)`. -/
theorem ld_slab {n a b : Nat} {e : EltTy} (x : (⟨3, ![n, a, b]⟩ : Shape).Idx → Elt Ideal e) (o : Nat)
    (inb : ∀ d, (![o, 0, 0] : Fin 3 → Nat) d + (⟨3, ![1, a, b]⟩ : Shape).size d ≤ (⟨3, ![n, a, b]⟩ : Shape).size d)
    (c : Fin n) (hc : c.val = o) (r : Fin a) (k : Fin b) :
    View.ld x (Rect.unit (s := ⟨3, ![n, a, b]⟩) ![o, 0, 0] (⟨3, ![1, a, b]⟩ : Shape).size inb) (ix3 (0 : Fin 1) r k) = x (ix3 c r k) := by
  refine congrArg x (funext fun d => Fin.ext ?_)
  match d with
  | ⟨0, _⟩ => show o + 1 * 0 = c.val; omega
  | ⟨1, _⟩ => show 0 + 1 * r.val = r.val; omega
  | ⟨2, _⟩ => show 0 + 1 * k.val = k.val; omega

theorem hz1 : (![0] : Fin 1 → Nat) = fun _ => 0 := by
  funext a; match a with | ⟨0, _⟩ => rfl
theorem hz2 : (![0, 0] : Fin 2 → Nat) = fun _ => 0 := by
  funext a; match a with | ⟨0, _⟩ => rfl | ⟨1, _⟩ => rfl

end Cert.ChildSumBody

end
-- ==== Proof.ChildSumBody.lean ====
/-
  What the second kernel's body leaves in its output block, entry by entry.

  The body loads its ten input blocks whole — the stacked blocks one child's slab at a time —, computes the fifteen
  chained terms and stores the last one over the whole output block. At row `r` and lane `q` the block therefore
  holds the first node gate times the neighbourhood sum plus the second node gate times the new hidden state, where
  the neighbourhood sum starts at the zero word and adds, child by child, the child gate of the row's mapped input and
  previous hidden state for that child times the child's state. Eight terms added one at a time onto the zero word
  are the zero word plus their sum, and each gate is the specification's child gate over the transposed weights.
-/
import proofs.«110906_j20761871909637_2_alg».proof.Proof.FrameKernelIdealP
import proofs.«110906_j20761871909637_2_alg».proof.Proof.ChildSumPay

noncomputable section

open scoped BigOperators

namespace Cert.ChildSumBody

open Cert.KernelIdeal Cert.KernelIdeal.Gen Cert.KernelIdeal.GenP Idealize.ShloMosaic Idealize.ShloMosaic.ValueIdx

/-- The output block of the second kernel after the body, at row `r` and lane `q`. -/
theorem out1_10_apply (x0 : Vec Ideal S8x512x16 .bf16) (x1 : Vec Ideal S8x512x16 .f32) (x2 : Vec Ideal S8x512x128 .f32)
    (x3 x4 : Vec Ideal S512x128 .bf16) (x5 : Vec Ideal S512x128 .f32) (x6 : Vec Ideal S16x128 .bf16) (x7 : Vec Ideal S128 .f32)
    (x8 : Vec Ideal S16x128 .bf16) (x9 : Vec Ideal S128 .f32) (r : Fin 512) (q : Fin 128) :
    out1_10 (F := Ideal) x0 x1 x2 x3 x4 x5 x6 x7 x8 x9 (ix2 r q)
      = x3 (ix2 r q) * (TreeCell.zero + ∑ c : Fin 8,
            TreeCell.gateRow (TreeCell.ChildWeights.ofTransposed x6 x7 x8 x9) (fun k => x0 (ix3 c r k)) (fun k => x1 (ix3 c r k)) q
              * x2 (ix3 c r q))
        + x4 (ix2 r q) * x5 (ix2 r q) := by
  unfold out1_10
  rw [View.canon_unit_zero hz2]
  simp only [View.ld_unit_zero (S := S512x128) hz2, View.ld_unit_zero (S := S16x128) hz2, View.ld_unit_zero (S := S128) hz1]
  rw [pay15_apply, pay14_apply, pay10_apply, pay8_apply, pay5_apply, pay1_apply]
  simp only [pay2_apply, pay3_apply, pay4_eq, pay6_apply, pay7_apply, pay9_apply, pay11_apply, pay12_apply, pay13_eq]
  simp only [ld_slab x0 0 inb_S8x512x16_S1x512x16_0_0_0 (0 : Fin 8) rfl, ld_slab x1 0 inb_S8x512x16_S1x512x16_0_0_0 (0 : Fin 8) rfl, ld_slab x2 0 inb_S8x512x128_S1x512x128_0_0_0 (0 : Fin 8) rfl,
    ld_slab x0 1 inb_S8x512x16_S1x512x16_1_0_0 (1 : Fin 8) rfl, ld_slab x1 1 inb_S8x512x16_S1x512x16_1_0_0 (1 : Fin 8) rfl, ld_slab x2 1 inb_S8x512x128_S1x512x128_1_0_0 (1 : Fin 8) rfl,
    ld_slab x0 2 inb_S8x512x16_S1x512x16_2_0_0 (2 : Fin 8) rfl, ld_slab x1 2 inb_S8x512x16_S1x512x16_2_0_0 (2 : Fin 8) rfl, ld_slab x2 2 inb_S8x512x128_S1x512x128_2_0_0 (2 : Fin 8) rfl,
    ld_slab x0 3 inb_S8x512x16_S1x512x16_3_0_0 (3 : Fin 8) rfl, ld_slab x1 3 inb_S8x512x16_S1x512x16_3_0_0 (3 : Fin 8) rfl, ld_slab x2 3 inb_S8x512x128_S1x512x128_3_0_0 (3 : Fin 8) rfl,
    ld_slab x0 4 inb_S8x512x16_S1x512x16_4_0_0 (4 : Fin 8) rfl, ld_slab x1 4 inb_S8x512x16_S1x512x16_4_0_0 (4 : Fin 8) rfl, ld_slab x2 4 inb_S8x512x128_S1x512x128_4_0_0 (4 : Fin 8) rfl,
    ld_slab x0 5 inb_S8x512x16_S1x512x16_5_0_0 (5 : Fin 8) rfl, ld_slab x1 5 inb_S8x512x16_S1x512x16_5_0_0 (5 : Fin 8) rfl, ld_slab x2 5 inb_S8x512x128_S1x512x128_5_0_0 (5 : Fin 8) rfl,
    ld_slab x0 6 inb_S8x512x16_S1x512x16_6_0_0 (6 : Fin 8) rfl, ld_slab x1 6 inb_S8x512x16_S1x512x16_6_0_0 (6 : Fin 8) rfl, ld_slab x2 6 inb_S8x512x128_S1x512x128_6_0_0 (6 : Fin 8) rfl,
    ld_slab x0 7 inb_S8x512x16_S1x512x16_7_0_0 (7 : Fin 8) rfl, ld_slab x1 7 inb_S8x512x16_S1x512x16_7_0_0 (7 : Fin 8) rfl, ld_slab x2 7 inb_S8x512x128_S1x512x128_7_0_0 (7 : Fin 8) rfl]
  simp only [gateRow_eq]
  rw [← fold_eight]
  rfl

end Cert.ChildSumBody

end
-- ==== Proof.SecondLaunch.lean ====
/-
  The second launch: what its written-back array holds once every grid point has run.

  The launch walks 128 grid points; point `t` stages merged rows `512 t … 512 t + 511` of the three merged arrays and,
  stacked over the eight children, of the mapped inputs, the previous hidden states and the children's states, and the
  child-gate weights whole. Its body computes, per merged row and lane, the first node gate times the gated sum over the
  eight children plus the second node gate times the new hidden state; the 128 blocks tile the 65536 merged rows.
-/
import proofs.«110906_j20761871909637_2_alg».proof.Proof.FrameKernelIdealP
import proofs.«110906_j20761871909637_2_alg».proof.Proof.TreeCell
import proofs.«110906_j20761871909637_2_alg».proof.Proof.ChildSumBody

set_option maxRecDepth 16384

noncomputable section

namespace Cert.KernelIdeal.SecondLaunch

open Cert.KernelIdeal Cert.KernelIdeal.Gen Cert.KernelIdeal.GenP
open Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

/-- The arrays the launch finds, by what they hold. -/
abbrev xs (c : Dev nD) : S8x65536x16.Idx → EReal := V c main_v23
abbrev hs (c : Dev nD) : S8x65536x16.Idx → EReal := V c main_v24
abbrev kids (c : Dev nD) : S8x65536x128.Idx → EReal := V c main_v25
abbrev g1 (c : Dev nD) : S65536x128.Idx → EReal := V c main_v26
abbrev g2 (c : Dev nD) : S65536x128.Idx → EReal := V c main_v27
abbrev hid (c : Dev nD) : S65536x128.Idx → EReal := V c main_v28

/-- The child-gate weights as the launch finds them: the transposed matrices and the biases. -/
def weights (c : Dev nD) : TreeCell.ChildWeights :=
  TreeCell.ChildWeights.ofTransposed (V c main_v19) (V c main_arg15) (V c main_v21) (V c main_arg17)

/-- Merged row `512 t + r`: row `r` of the block grid point `t` stages. -/
abbrev rowAt (t : Fin cfg1.N) (r : Fin 512) : Fin 65536 :=
  ⟨512 * t.val + r.val, by have h := t.isLt; have h2 : cfg1.N = 128 := N_1; omega⟩

/-! ## The index maps, decided over the grid -/

theorem idx_rows : ∀ t : Fin cfg1.N,
    win1_0.index t (0 : Fin 3) = 0 ∧ win1_0.index t (1 : Fin 3) = t.val ∧ win1_0.index t (2 : Fin 3) = 0
    ∧ win1_1.index t (0 : Fin 3) = 0 ∧ win1_1.index t (1 : Fin 3) = t.val ∧ win1_1.index t (2 : Fin 3) = 0
    ∧ win1_2.index t (0 : Fin 3) = 0 ∧ win1_2.index t (1 : Fin 3) = t.val ∧ win1_2.index t (2 : Fin 3) = 0
    ∧ win1_3.index t (0 : Fin 2) = t.val ∧ win1_3.index t (1 : Fin 2) = 0
    ∧ win1_4.index t (0 : Fin 2) = t.val ∧ win1_4.index t (1 : Fin 2) = 0
    ∧ win1_5.index t (0 : Fin 2) = t.val ∧ win1_5.index t (1 : Fin 2) = 0
    ∧ win1_10.index t (0 : Fin 2) = t.val ∧ win1_10.index t (1 : Fin 2) = 0 :=
  (by decide +kernel : ∀ t : Fin grid1.N, _)

theorem idx_weights : ∀ t : Fin cfg1.N,
    win1_6.index t (0 : Fin 2) = 0 ∧ win1_6.index t (1 : Fin 2) = 0 ∧ win1_7.index t (0 : Fin 1) = 0
    ∧ win1_8.index t (0 : Fin 2) = 0 ∧ win1_8.index t (1 : Fin 2) = 0 ∧ win1_9.index t (0 : Fin 1) = 0 :=
  (by decide +kernel : ∀ t : Fin grid1.N, _)

/-! ## The staged blocks -/

theorem blk_in0 (c : Dev nD) (t : Fin cfg1.N) (ch : Fin 8) (r : Fin 512) (k : Fin 16) :
    iblk1 V c 0 t (ix3 ch r k) = V c main_v23 (ix3 ch (rowAt t r) k) := by
  show V c main_v23 (((cfg1.win 0).blk t).view.emb (ix3 ch r k)) = _
  refine congrArg (V c main_v23) (funext fun a => Fin.ext ?_)
  have hi := idx_rows t
  match a with
  | ⟨0, _⟩ => show win1_0.index t (0 : Fin 3) * 8 + 1 * ch.val = ch.val; omega
  | ⟨1, _⟩ => show win1_0.index t (1 : Fin 3) * 512 + 1 * r.val = 512 * t.val + r.val; omega
  | ⟨2, _⟩ => show win1_0.index t (2 : Fin 3) * 16 + 1 * k.val = k.val; omega
theorem blk_in1 (c : Dev nD) (t : Fin cfg1.N) (ch : Fin 8) (r : Fin 512) (k : Fin 16) :
    iblk1 V c 1 t (ix3 ch r k) = V c main_v24 (ix3 ch (rowAt t r) k) := by
  show V c main_v24 (((cfg1.win 1).blk t).view.emb (ix3 ch r k)) = _
  refine congrArg (V c main_v24) (funext fun a => Fin.ext ?_)
  have hi := idx_rows t
  match a with
  | ⟨0, _⟩ => show win1_1.index t (0 : Fin 3) * 8 + 1 * ch.val = ch.val; omega
  | ⟨1, _⟩ => show win1_1.index t (1 : Fin 3) * 512 + 1 * r.val = 512 * t.val + r.val; omega
  | ⟨2, _⟩ => show win1_1.index t (2 : Fin 3) * 16 + 1 * k.val = k.val; omega
theorem blk_in2 (c : Dev nD) (t : Fin cfg1.N) (ch : Fin 8) (r : Fin 512) (k : Fin 128) :
    iblk1 V c 2 t (ix3 ch r k) = V c main_v25 (ix3 ch (rowAt t r) k) := by
  show V c main_v25 (((cfg1.win 2).blk t).view.emb (ix3 ch r k)) = _
  refine congrArg (V c main_v25) (funext fun a => Fin.ext ?_)
  have hi := idx_rows t
  match a with
  | ⟨0, _⟩ => show win1_2.index t (0 : Fin 3) * 8 + 1 * ch.val = ch.val; omega
  | ⟨1, _⟩ => show win1_2.index t (1 : Fin 3) * 512 + 1 * r.val = 512 * t.val + r.val; omega
  | ⟨2, _⟩ => show win1_2.index t (2 : Fin 3) * 128 + 1 * k.val = k.val; omega
theorem blk_in3 (c : Dev nD) (t : Fin cfg1.N) (r : Fin 512) (q : Fin 128) :
    iblk1 V c 3 t (ix2 r q) = V c main_v26 (ix2 (rowAt t r) q) := by
  show V c main_v26 (((cfg1.win 3).blk t).view.emb (ix2 r q)) = _
  refine congrArg (V c main_v26) (funext fun a => Fin.ext ?_)
  have hi := idx_rows t
  match a with
  | ⟨0, _⟩ => show win1_3.index t (0 : Fin 2) * 512 + 1 * r.val = 512 * t.val + r.val; omega
  | ⟨1, _⟩ => show win1_3.index t (1 : Fin 2) * 128 + 1 * q.val = q.val; omega
theorem blk_in4 (c : Dev nD) (t : Fin cfg1.N) (r : Fin 512) (q : Fin 128) :
    iblk1 V c 4 t (ix2 r q) = V c main_v27 (ix2 (rowAt t r) q) := by
  show V c main_v27 (((cfg1.win 4).blk t).view.emb (ix2 r q)) = _
  refine congrArg (V c main_v27) (funext fun a => Fin.ext ?_)
  have hi := idx_rows t
  match a with
  | ⟨0, _⟩ => show win1_4.index t (0 : Fin 2) * 512 + 1 * r.val = 512 * t.val + r.val; omega
  | ⟨1, _⟩ => show win1_4.index t (1 : Fin 2) * 128 + 1 * q.val = q.val; omega
theorem blk_in5 (c : Dev nD) (t : Fin cfg1.N) (r : Fin 512) (q : Fin 128) :
    iblk1 V c 5 t (ix2 r q) = V c main_v28 (ix2 (rowAt t r) q) := by
  show V c main_v28 (((cfg1.win 5).blk t).view.emb (ix2 r q)) = _
  refine congrArg (V c main_v28) (funext fun a => Fin.ext ?_)
  have hi := idx_rows t
  match a with
  | ⟨0, _⟩ => show win1_5.index t (0 : Fin 2) * 512 + 1 * r.val = 512 * t.val + r.val; omega
  | ⟨1, _⟩ => show win1_5.index t (1 : Fin 2) * 128 + 1 * q.val = q.val; omega
theorem blk_w6 (c : Dev nD) (t : Fin cfg1.N) : (iblk1 V c 6 t : S16x128.Idx → EReal) = V c main_v19 := by
  funext j
  show V c main_v19 (((cfg1.win 6).blk t).view.emb j) = V c main_v19 j
  refine congrArg (V c main_v19) (funext fun a => Fin.ext ?_)
  have hi := idx_weights t
  match a with
  | ⟨0, _⟩ => show win1_6.index t (0 : Fin 2) * 16 + 1 * (j 0).val = (j 0).val; omega
  | ⟨1, _⟩ => show win1_6.index t (1 : Fin 2) * 128 + 1 * (j 1).val = (j 1).val; omega
theorem blk_w7 (c : Dev nD) (t : Fin cfg1.N) : (iblk1 V c 7 t : S128.Idx → EReal) = V c main_arg15 := by
  funext j
  show V c main_arg15 (((cfg1.win 7).blk t).view.emb j) = V c main_arg15 j
  refine congrArg (V c main_arg15) (funext fun a => Fin.ext ?_)
  have hi := idx_weights t
  match a with
  | ⟨0, _⟩ => show win1_7.index t (0 : Fin 1) * 128 + 1 * (j 0).val = (j 0).val; omega
theorem blk_w8 (c : Dev nD) (t : Fin cfg1.N) : (iblk1 V c 8 t : S16x128.Idx → EReal) = V c main_v21 := by
  funext j
  show V c main_v21 (((cfg1.win 8).blk t).view.emb j) = V c main_v21 j
  refine congrArg (V c main_v21) (funext fun a => Fin.ext ?_)
  have hi := idx_weights t
  match a with
  | ⟨0, _⟩ => show win1_8.index t (0 : Fin 2) * 16 + 1 * (j 0).val = (j 0).val; omega
  | ⟨1, _⟩ => show win1_8.index t (1 : Fin 2) * 128 + 1 * (j 1).val = (j 1).val; omega
theorem blk_w9 (c : Dev nD) (t : Fin cfg1.N) : (iblk1 V c 9 t : S128.Idx → EReal) = V c main_arg17 := by
  funext j
  show V c main_arg17 (((cfg1.win 9).blk t).view.emb j) = V c main_arg17 j
  refine congrArg (V c main_arg17) (funext fun a => Fin.ext ?_)
  have hi := idx_weights t
  match a with
  | ⟨0, _⟩ => show win1_9.index t (0 : Fin 1) * 128 + 1 * (j 0).val = (j 0).val; omega

theorem weights_blk (c : Dev nD) (t : Fin cfg1.N) :
    TreeCell.ChildWeights.ofTransposed (iblk1 V c 6 t) (iblk1 V c 7 t) (iblk1 V c 8 t) (iblk1 V c 9 t) = weights V c := by
  unfold weights
  rw [blk_w6 V c t, blk_w7 V c t, blk_w8 V c t, blk_w9 V c t]

/-! ## The written-back array -/

/-- Merged row `r`, lane `q`: the first node gate times the gated sum over the eight children, from zero, plus the
    second node gate times the new hidden state. -/
def merged (c : Dev nD) : S65536x128.Idx → EReal := fun i =>
  g1 V c (ix2 (i 0) (i 1))
      * (TreeCell.zero + ∑ ch : Fin 8, TreeCell.gateRow (weights V c) (fun k => xs V c (ix3 ch (i 0) k)) (fun k => hs V c (ix3 ch (i 0) k)) (i 1)
          * kids V c (ix3 ch (i 0) (i 1)))
    + g2 V c (ix2 (i 0) (i 1)) * hid V c (ix2 (i 0) (i 1))

theorem emb_out10 (t : Fin cfg1.N) (r : Fin 512) (q : Fin 128) :
    ((cfg1.win 10).blk t).view.emb (ix2 r q) = ix2 (rowAt t r) q := by
  funext a; apply Fin.ext
  have hi := idx_rows t
  match a with
  | ⟨0, _⟩ => show win1_10.index t (0 : Fin 2) * 512 + 1 * r.val = 512 * t.val + r.val; omega
  | ⟨1, _⟩ => show win1_10.index t (1 : Fin 2) * 128 + 1 * q.val = q.val; omega

/-- What point `t` writes back is block `t` of the merged result. -/
theorem flushed10 (c : Dev nD) (t : Fin cfg1.N) :
    (dat1 V c).flushed 10 t = ((cfg1.win 10).blk t).view.read (Elt Ideal) (merged V c) := by
  show (cfg1.win 10).cut (grid1.coords t) ((dat1 V c).after 10 t) = _
  rw [after1_10]
  refine funext fun (j : S512x128.Idx) => ?_
  obtain ⟨r, q, rfl⟩ : ∃ (r : Fin 512) (q : Fin 128), j = ix2 r q := ⟨j 0, j 1, eq_ix2 j⟩
  show out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (ix2 r q) = merged V c (((cfg1.win 10).blk t).view.emb (ix2 r q))
  rw [emb_out10 t r q]
  refine (Cert.ChildSumBody.out1_10_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) r q).trans ?_
  rw [weights_blk V c t]
  simp only [blk_in0 V c t, blk_in1 V c t, blk_in2 V c t, blk_in3 V c t, blk_in4 V c t, blk_in5 V c t]
  rfl

theorem mem_blk10 (t : Fin cfg1.N) (i : S65536x128.Idx) :
    i ∈ ((cfg1.win 10).blk t).view.set ↔ ∀ a : Fin 2, win1_10.index t a * S512x128.size a ≤ (i a).val ∧ (i a).val < win1_10.index t a * S512x128.size a + S512x128.size a := by
  show i ∈ ((View.whole main_v29).slice (win1_10.rect t)).set ↔ _
  rw [View.set_slice_whole, Rect.mem_set_unit]
  exact Iff.rfl

/-- Merged row `r` lies in the block of point `r / 512`: the 128 blocks tile the array. -/
theorem cover10 (i : S65536x128.Idx) :
    ∃ t : Fin cfg1.N, (cfg1.win 10).flush t = true ∧ i ∈ ((cfg1.win 10).blk t).view.set := by
  have h0 : (i 0).val < 65536 := (i 0).isLt
  have h1 : (i 1).val < 128 := (i 1).isLt
  have hN : cfg1.N = 128 := N_1
  refine ⟨⟨(i 0).val / 512, by omega⟩, flush1_10 _, ?_⟩
  rw [mem_blk10]
  have hi := idx_rows ⟨(i 0).val / 512, by omega⟩
  have ht : (⟨(i 0).val / 512, by omega⟩ : Fin cfg1.N).val = (i 0).val / 512 := rfl
  intro a
  match a with
  | ⟨0, _⟩ =>
    show win1_10.index ⟨(i 0).val / 512, _⟩ (0 : Fin 2) * 512 ≤ (i 0).val ∧ (i 0).val < win1_10.index ⟨(i 0).val / 512, _⟩ (0 : Fin 2) * 512 + 512
    omega
  | ⟨1, _⟩ =>
    show win1_10.index ⟨(i 0).val / 512, _⟩ (1 : Fin 2) * 128 ≤ (i 1).val ∧ (i 1).val < win1_10.index ⟨(i 0).val / 512, _⟩ (1 : Fin 2) * 128 + 128
    omega

/-- After the launch the array holds the merged result. -/
theorem final10 (c : Dev nD) : (dat1 V c).arrAt 10 cfg1.N = merged V c :=
  (dat1 V c).arrAt_eq_of_cover 10 (merged V c) (fun t _ => flushed10 V c t) cover10

end Cert.KernelIdeal.SecondLaunch

end
-- ==== Proof.KernelValue.lean ====
/-
  The idealized kernel's three results as the cell's arrays over the launch memory.

  The first launch finds the weights transposed; a transposed matrix's column is the given matrix's row, so its row
  functions are the cell's over the weights as given, and its five written-back arrays are the new hidden and cell
  states, the two node gates and the mapped inputs of every row. The host then reinterprets flat buffers: the mapped
  inputs and previous hidden states as eight runs of 65536 rows, the children and the node gates and hidden states
  with eight rows of sixteen merged into one of a hundred and twenty-eight. The second launch's merged row `r`, lane
  `q` is therefore row `8 r + q / 16`, entry `q % 16` of each merged array, and its child gate number `c` is the
  gate of row `65536 c + r` at lane `q` — which is what the flat reinterpretation `[B, 128] → [8, B, 16]` of the gate
  table reads at `(c, 8 r + q / 16, q % 16)`. Read back through the last reinterpretation, entry `(b, j)` of the result
  is the node state of row `b`.
-/
import proofs.«110906_j20761871909637_2_alg».proof.Proof.Stages
import proofs.«110906_j20761871909637_2_alg».proof.Proof.FirstLaunch
import proofs.«110906_j20761871909637_2_alg».proof.Proof.SecondLaunch

set_option maxRecDepth 16384

noncomputable section

namespace Cert.KernelIdeal.KernelValue

open Cert.KernelIdeal Cert.KernelIdeal.Gen Cert.KernelIdeal.GenP Cert.KernelIdeal.Stages
open Idealize.ShloMosaic Idealize.ShloMosaic.TcCoe Idealize.ShloMosaic.ValueIdx
open Idealize.SL.Sem
open TreeCell TreeCell.Reshape

variable (m : (ℓ : Loc nD τ sig) → Buf (Elt Ideal) ℓ) (ρ : Dev nD → PrngReg)

/-- The row weights as given, from the launch memory. -/
abbrev rowW (c : Dev nD) : RowWeights := RowWeights.ofGiven (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25))
/-- The child-gate weights as given, from the launch memory. -/
abbrev childW (c : Dev nD) : ChildWeights := ChildWeights.ofGiven (m ((c : Thread nD τ).loc main_arg14)) (m ((c : Thread nD τ).loc main_arg15)) (m ((c : Thread nD τ).loc main_arg16)) (m ((c : Thread nD τ).loc main_arg17))

/-! ## The first launch over the launch memory -/

/-- The transposed weights the first launch finds have the given weights' rows as their columns. -/
theorem weights1 (c : Dev nD) : FirstLaunch.weights (V1 m ρ) c = rowW m c := by
  simp only [FirstLaunch.weights, RowWeights.ofTransposed, RowWeights.ofGiven,
    at1_v1 m ρ c, at1_v3 m ρ c, at1_v5 m ρ c, at1_v7 m ρ c, at1_v9 m ρ c, at1_v11 m ρ c, at1_v13 m ρ c, at1_v15 m ρ c, at1_v17 m ρ c,
    at1_arg5 m ρ c, at1_arg7 m ρ c, at1_arg9 m ρ c, at1_arg11 m ρ c, at1_arg13 m ρ c, at1_arg19 m ρ c, at1_arg21 m ρ c, at1_arg23 m ρ c, at1_arg25 m ρ c]

/-- A written-back array of the first launch is its row function over the launch memory. -/
theorem rows1 (f : RowWeights → (Fin 1 → EReal) → (Fin 16 → EReal) → (Fin 16 → EReal) → Fin 16 → EReal) (c : Dev nD)
    (b : Fin 524288) (j : Fin 16) :
    FirstLaunch.rows (V1 m ρ) f c (ix2 b j)
      = f (rowW m c) (uOf (m ((c : Thread nD τ).loc main_arg0)) b) (hpOf (m ((c : Thread nD τ).loc main_arg1)) b) (cpOf (m ((c : Thread nD τ).loc main_arg2)) b) j := by
  show f (FirstLaunch.weights (V1 m ρ) c) (uOf (W1 m ρ c (Proc.devRef .tc main_arg0)) b) (hpOf (W1 m ρ c (Proc.devRef .tc main_arg1)) b)
    (cpOf (W1 m ρ c (Proc.devRef .tc main_arg2)) b) j = _
  rw [weights1, at1_arg0, at1_arg1, at1_arg2]

/-- The new hidden states. -/
theorem kernel_h (c : Dev nD) :
    W5 m ρ c (Proc.devRef .tc main_v22_0) = hArr (rowW m c) (m ((c : Thread nD τ).loc main_arg0)) (m ((c : Thread nD τ).loc main_arg1)) (m ((c : Thread nD τ).loc main_arg2)) := by
  rw [result_h, FirstLaunch.final21]
  funext i
  obtain ⟨b, j, rfl⟩ : ∃ (b : Fin 524288) (j : Fin 16), i = ix2 b j := ⟨i 0, i 1, eq_ix2 i⟩
  exact (rows1 m ρ FirstLaunch.f21 c b j).trans rfl

/-- The new cell states. -/
theorem kernel_c (c : Dev nD) :
    W5 m ρ c (Proc.devRef .tc main_v22_1) = cArr (rowW m c) (m ((c : Thread nD τ).loc main_arg0)) (m ((c : Thread nD τ).loc main_arg1)) (m ((c : Thread nD τ).loc main_arg2)) := by
  rw [result_c, FirstLaunch.final22]
  funext i
  obtain ⟨b, j, rfl⟩ : ∃ (b : Fin 524288) (j : Fin 16), i = ix2 b j := ⟨i 0, i 1, eq_ix2 i⟩
  exact (rows1 m ρ FirstLaunch.f22 c b j).trans rfl

/-! ## The second launch over the launch memory -/

theorem weights2 (c : Dev nD) : SecondLaunch.weights (V3 m ρ) c = childW m c := by
  have e19 : ∀ (k : Fin 16) (j : Fin 128), W3 m ρ c (Proc.devRef .tc main_v19) (ix2 k j) = (m ((c : Thread nD τ).loc main_arg14)) (ix2 j k) := fun k j => by
    rw [at3_keep_v19, at2_v19, at1_v19]
  have e21 : ∀ (k : Fin 16) (j : Fin 128), W3 m ρ c (Proc.devRef .tc main_v21) (ix2 k j) = (m ((c : Thread nD τ).loc main_arg16)) (ix2 j k) := fun k j => by
    rw [at3_keep_v21, at2_v21, at1_v21]
  have e15 : W3 m ρ c (Proc.devRef .tc main_arg15) = (m ((c : Thread nD τ).loc main_arg15)) := by rw [at3_keep_arg15, at2_arg15]
  have e17 : W3 m ρ c (Proc.devRef .tc main_arg17) = (m ((c : Thread nD τ).loc main_arg17)) := by rw [at3_keep_arg17, at2_arg17]
  simp only [SecondLaunch.weights, ChildWeights.ofTransposed, ChildWeights.ofGiven, e19, e21, e15, e17]

/-- The mapped inputs, as eight runs of rows. -/
theorem xs_at (c : Dev nD) (ch : Fin 8) (r : Fin 65536) (k : Fin 16) :
    SecondLaunch.xs (V3 m ρ) c (ix3 ch r k) = xRow (rowW m c) (uOf (m ((c : Thread nD τ).loc main_arg0)) (runRow ch r)) k := by
  show W3 m ρ c (Proc.devRef .tc main_v23) (ix3 ch r k) = _
  rw [at3_v23, split_rows]
  show W2 m ρ c (Proc.devRef .tc (Pipeline.arrRef spec0 25)) (ix2 (runRow ch r) k) = _
  rw [at2_out, FirstLaunch.final25, rows1]

/-- The previous hidden states, as eight runs of rows. -/
theorem hs_at (c : Dev nD) (ch : Fin 8) (r : Fin 65536) (k : Fin 16) :
    SecondLaunch.hs (V3 m ρ) c (ix3 ch r k) = (m ((c : Thread nD τ).loc main_arg1)) (ix2 (runRow ch r) k) := by
  show W3 m ρ c (Proc.devRef .tc main_v24) (ix3 ch r k) = _
  rw [at3_v24, split_rows, at2_arg1]

/-- The same two facts for whole rows. -/
theorem xs_row (c : Dev nD) (ch : Fin 8) (r : Fin 65536) :
    (fun k => SecondLaunch.xs (V3 m ρ) c (ix3 ch r k)) = xRow (rowW m c) (uOf (m ((c : Thread nD τ).loc main_arg0)) (runRow ch r)) :=
  funext fun k => xs_at m ρ c ch r k
theorem hs_row (c : Dev nD) (ch : Fin 8) (r : Fin 65536) :
    (fun k => SecondLaunch.hs (V3 m ρ) c (ix3 ch r k)) = hpOf (m ((c : Thread nD τ).loc main_arg1)) (runRow ch r) :=
  funext fun k => hs_at m ρ c ch r k

/-- The children's states with eight rows merged into one. -/
theorem kids_at (c : Dev nD) (ch : Fin 8) (r : Fin 65536) (q : Fin 128) :
    SecondLaunch.kids (V3 m ρ) c (ix3 ch r q) = (m ((c : Thread nD τ).loc main_arg3)) (ix3 ch (laneRow r q) (laneCol q)) := by
  show W3 m ρ c (Proc.devRef .tc main_v25) (ix3 ch r q) = _
  rw [at3_v25, merge_lanes3, at2_arg3]

/-- A merged written-back array of the first launch at merged row `r`, lane `q`. -/
theorem g1_at (c : Dev nD) (r : Fin 65536) (q : Fin 128) :
    SecondLaunch.g1 (V3 m ρ) c (ix2 r q)
      = n1Row (rowW m c) (uOf (m ((c : Thread nD τ).loc main_arg0)) (laneRow r q)) (hpOf (m ((c : Thread nD τ).loc main_arg1)) (laneRow r q)) (laneCol q) := by
  show W3 m ρ c (Proc.devRef .tc main_v26) (ix2 r q) = _
  rw [at3_v26, merge_lanes]
  show W2 m ρ c (Proc.devRef .tc (Pipeline.arrRef spec0 23)) (ix2 (laneRow r q) (laneCol q)) = _
  rw [at2_out, FirstLaunch.final23, rows1]

theorem g2_at (c : Dev nD) (r : Fin 65536) (q : Fin 128) :
    SecondLaunch.g2 (V3 m ρ) c (ix2 r q)
      = n2Row (rowW m c) (uOf (m ((c : Thread nD τ).loc main_arg0)) (laneRow r q)) (hpOf (m ((c : Thread nD τ).loc main_arg1)) (laneRow r q)) (cpOf (m ((c : Thread nD τ).loc main_arg2)) (laneRow r q)) (laneCol q) := by
  show W3 m ρ c (Proc.devRef .tc main_v27) (ix2 r q) = _
  rw [at3_v27, merge_lanes]
  show W2 m ρ c (Proc.devRef .tc (Pipeline.arrRef spec0 24)) (ix2 (laneRow r q) (laneCol q)) = _
  rw [at2_out, FirstLaunch.final24, rows1]

theorem hid_at (c : Dev nD) (r : Fin 65536) (q : Fin 128) :
    SecondLaunch.hid (V3 m ρ) c (ix2 r q)
      = hRow (rowW m c) (uOf (m ((c : Thread nD τ).loc main_arg0)) (laneRow r q)) (hpOf (m ((c : Thread nD τ).loc main_arg1)) (laneRow r q)) (cpOf (m ((c : Thread nD τ).loc main_arg2)) (laneRow r q)) (laneCol q) := by
  show W3 m ρ c (Proc.devRef .tc main_v28) (ix2 r q) = _
  rw [at3_v28, merge_lanes]
  show W2 m ρ c (Proc.devRef .tc (Pipeline.arrRef spec0 21)) (ix2 (laneRow r q) (laneCol q)) = _
  rw [at2_out, FirstLaunch.final21, rows1]

/-! ## The flat reinterpretation of the gate table -/

/-- Entry `(c, b, j)` of the reinterpreted gate table is read at row `65536 c + b / 8`. -/
theorem rowOf_eq (c : Fin 8) (b : Fin 524288) (j : Fin 16) : rowOf c b j = runRow c (mergedRow b) := by
  apply Fin.ext
  have := c.isLt; have := b.isLt; have := j.isLt
  show ((c.val * 524288 + b.val) * 16 + j.val) / 128 = 65536 * c.val + b.val / 8
  omega

/-- … and at lane `16 (b % 8) + j`. -/
theorem colOf_eq (c : Fin 8) (b : Fin 524288) (j : Fin 16) : colOf c b j = mergedLane b j := by
  apply Fin.ext
  have := c.isLt; have := b.isLt; have := j.isLt
  show ((c.val * 524288 + b.val) * 16 + j.val) % 128 = 16 * (b.val % 8) + j.val
  omega

/-- The new node states. -/
theorem kernel_n (c : Dev nD) :
    W5 m ρ c (Proc.devRef .tc main_v30) = nArr (rowW m c) (childW m c) (m ((c : Thread nD τ).loc main_arg0)) (m ((c : Thread nD τ).loc main_arg1)) (m ((c : Thread nD τ).loc main_arg2)) (m ((c : Thread nD τ).loc main_arg3)) := by
  funext i
  obtain ⟨b, j, rfl⟩ : ∃ (b : Fin 524288) (j : Fin 16), i = ix2 b j := ⟨i 0, i 1, eq_ix2 i⟩
  rw [at5_v30, split_lanes, at4_out, SecondLaunch.final10]
  show SecondLaunch.g1 (V3 m ρ) c (ix2 (mergedRow b) (mergedLane b j))
      * (zero + ∑ ch : Fin 8, gateRow (SecondLaunch.weights (V3 m ρ) c)
            (fun k => SecondLaunch.xs (V3 m ρ) c (ix3 ch (mergedRow b) k)) (fun k => SecondLaunch.hs (V3 m ρ) c (ix3 ch (mergedRow b) k)) (mergedLane b j)
          * SecondLaunch.kids (V3 m ρ) c (ix3 ch (mergedRow b) (mergedLane b j)))
    + SecondLaunch.g2 (V3 m ρ) c (ix2 (mergedRow b) (mergedLane b j)) * SecondLaunch.hid (V3 m ρ) c (ix2 (mergedRow b) (mergedLane b j)) = _
  have hterm : ∀ ch : Fin 8,
      gateRow (SecondLaunch.weights (V3 m ρ) c)
            (fun k => SecondLaunch.xs (V3 m ρ) c (ix3 ch (mergedRow b) k)) (fun k => SecondLaunch.hs (V3 m ρ) c (ix3 ch (mergedRow b) k)) (mergedLane b j)
          * SecondLaunch.kids (V3 m ρ) c (ix3 ch (mergedRow b) (mergedLane b j))
        = gateAt (rowW m c) (childW m c) (m ((c : Thread nD τ).loc main_arg0)) (m ((c : Thread nD τ).loc main_arg1)) (rowOf ch b j) (colOf ch b j) * (m ((c : Thread nD τ).loc main_arg3)) (ix3 ch b j) := fun ch => by
    rw [weights2, xs_row, hs_row, kids_at, laneRow_merged, laneCol_merged, rowOf_eq, colOf_eq]
    rfl
  rw [Finset.sum_congr rfl (fun ch _ => hterm ch), g1_at, g2_at, hid_at, laneRow_merged, laneCol_merged]
  rfl

end Cert.KernelIdeal.KernelValue

end
-- ==== Proof.RefCell.lean ====
/-
  The reference program computes the child-sum tree cell of the specification.

  Every value of the reference program is read at one index. A matrix product with a transposed weight matrix is,
  at `(b, j)`, the dot product of row `b` of the left operand with row `j` of the weight matrix as given; a bias
  broadcast along the rows is entry `j` of the bias; a slice of the forty-eight joint gates is one of their thirds;
  the reinterpretation of the `[524288, 128]` table of child gates as `[8, 524288, 16]` reads the flat position; the
  sum over the eight children starts from the zero word. Stage by stage — mapped input, joint gates, candidate,
  cell state, hidden state, child gates, neighbourhood, the two node gates, node state — these readings are the
  row functions of the specification, in its own grouping.
-/
import proofs.«110906_j20761871909637_2_alg».proof.Proof.Gen.ReferenceIdeal.Read
import proofs.«110906_j20761871909637_2_alg».proof.Proof.TreeCell

noncomputable section

open scoped BigOperators

namespace Cert.RefCell

open Cert.ReferenceIdeal Cert.ReferenceIdeal.Gen Cert.ReferenceIdeal.Read Idealize.ShloMosaic Idealize.ShloMosaic.ValueIdx

variable (a0 : (⟨S524288x1, .f32⟩ : BufTy).Contents (Elt Ideal))
  (a1 a2 : (⟨S524288x16, .f32⟩ : BufTy).Contents (Elt Ideal))
  (a3 : (⟨S8x524288x16, .f32⟩ : BufTy).Contents (Elt Ideal))
  (a4 : (⟨S16x1, .f32⟩ : BufTy).Contents (Elt Ideal)) (a5 : (⟨S16, .f32⟩ : BufTy).Contents (Elt Ideal))
  (a6 : (⟨S48x16, .f32⟩ : BufTy).Contents (Elt Ideal)) (a7 : (⟨S48, .f32⟩ : BufTy).Contents (Elt Ideal))
  (a8 : (⟨S48x16, .f32⟩ : BufTy).Contents (Elt Ideal)) (a9 : (⟨S48, .f32⟩ : BufTy).Contents (Elt Ideal))
  (a10 : (⟨S16x16, .f32⟩ : BufTy).Contents (Elt Ideal)) (a11 : (⟨S16, .f32⟩ : BufTy).Contents (Elt Ideal))
  (a12 : (⟨S16x16, .f32⟩ : BufTy).Contents (Elt Ideal)) (a13 : (⟨S16, .f32⟩ : BufTy).Contents (Elt Ideal))
  (a14 : (⟨S128x16, .f32⟩ : BufTy).Contents (Elt Ideal)) (a15 : (⟨S128, .f32⟩ : BufTy).Contents (Elt Ideal))
  (a16 : (⟨S128x16, .f32⟩ : BufTy).Contents (Elt Ideal)) (a17 : (⟨S128, .f32⟩ : BufTy).Contents (Elt Ideal))
  (a18 : (⟨S16x16, .f32⟩ : BufTy).Contents (Elt Ideal)) (a19 : (⟨S16, .f32⟩ : BufTy).Contents (Elt Ideal))
  (a20 : (⟨S16x16, .f32⟩ : BufTy).Contents (Elt Ideal)) (a21 : (⟨S16, .f32⟩ : BufTy).Contents (Elt Ideal))
  (a22 : (⟨S16x16, .f32⟩ : BufTy).Contents (Elt Ideal)) (a23 : (⟨S16, .f32⟩ : BufTy).Contents (Elt Ideal))
  (a24 : (⟨S16x16, .f32⟩ : BufTy).Contents (Elt Ideal)) (a25 : (⟨S16, .f32⟩ : BufTy).Contents (Elt Ideal))

local notation "𝐖" => TreeCell.RowWeights.ofGiven a4 a5 a6 a7 a8 a9 a10 a11 a12 a13 a18 a19 a20 a21 a22 a23 a24 a25
local notation "𝐐" => TreeCell.ChildWeights.ofGiven a14 a15 a16 a17

/-! ## The mapped input -/

/-- Row `b` of the scalar input, entry `k`. -/
theorem lidx_v1 (b : Fin 524288) (j : Fin 16) (k : Fin 1) : lidx_main_v1 (ix2 b j) k = ix2 b k :=
  funext fun a => Fin.ext (by match a with | ⟨0, _⟩ => rfl | ⟨1, _⟩ => rfl)
/-- The transposed input weights at `(k, j)` are the given ones at `(j, k)`. -/
theorem ridx_v1 (b : Fin 524288) (j : Fin 16) (k : Fin 1) : idx_main_v0 (ridx_main_v1 (ix2 b j) k) = ix2 j k :=
  funext fun a => Fin.ext (by match a with | ⟨0, _⟩ => rfl | ⟨1, _⟩ => rfl)
/-- The input bias broadcast along the rows is its entry `j`. -/
theorem bidx_v3 (b : Fin 524288) (j : Fin 16) : idx_main_v2 (idx_main_v3 (ix2 b j)) = ix1 j :=
  funext fun a => Fin.ext (by match a with | ⟨0, _⟩ => rfl)

/-- The mapped input at `(b, j)`: the positive part of the affine form of row `b`'s scalar input. -/
theorem x_at (b : Fin 524288) (j : Fin 16) :
    val_main_v5 (F := Ideal) a0 a4 a5 (ix2 b j) = TreeCell.xRow 𝐖 (TreeCell.uOf a0 b) j := by
  rw [val_main_v5_apply, val_main_v4_apply, val_main_v1_apply, val_main_v3_apply, val_main_v2_apply,
    val_main_call0_v0_apply, val_main_call0_cst_apply]
  simp only [val_main_v0_apply, lidx_v1, ridx_v1, bidx_v3, Ideal.addf_def, Ideal.maximumf_def, Ideal.ofBits_def]
  rfl

/-! ## The joint gates -/

theorem lidx_v7 (b : Fin 524288) (j : Fin 48) (k : Fin 16) : lidx_main_v7 (ix2 b j) k = ix2 b k :=
  funext fun a => Fin.ext (by match a with | ⟨0, _⟩ => rfl | ⟨1, _⟩ => rfl)
theorem ridx_v7 (b : Fin 524288) (j : Fin 48) (k : Fin 16) : idx_main_v6 (ridx_main_v7 (ix2 b j) k) = ix2 j k :=
  funext fun a => Fin.ext (by match a with | ⟨0, _⟩ => rfl | ⟨1, _⟩ => rfl)
theorem bidx_v9 (b : Fin 524288) (j : Fin 48) : idx_main_v8 (idx_main_v9 (ix2 b j)) = ix1 j :=
  funext fun a => Fin.ext (by match a with | ⟨0, _⟩ => rfl)
theorem lidx_v12 (b : Fin 524288) (j : Fin 48) (k : Fin 16) : lidx_main_v12 (ix2 b j) k = ix2 b k :=
  funext fun a => Fin.ext (by match a with | ⟨0, _⟩ => rfl | ⟨1, _⟩ => rfl)
theorem ridx_v12 (b : Fin 524288) (j : Fin 48) (k : Fin 16) : idx_main_v11 (ridx_main_v12 (ix2 b j) k) = ix2 j k :=
  funext fun a => Fin.ext (by match a with | ⟨0, _⟩ => rfl | ⟨1, _⟩ => rfl)
theorem bidx_v14 (b : Fin 524288) (j : Fin 48) : idx_main_v13 (idx_main_v14 (ix2 b j)) = ix1 j :=
  funext fun a => Fin.ext (by match a with | ⟨0, _⟩ => rfl)

/-- The joint gate `j` of row `b`: the logistic of the two affine forms added. -/
theorem ifo_at (b : Fin 524288) (j : Fin 48) :
    val_main_v22 (F := Ideal) a0 a1 a4 a5 a6 a7 a8 a9 (ix2 b j)
      = TreeCell.ifoRow 𝐖 (TreeCell.uOf a0 b) (TreeCell.hpOf a1 b) j := by
  rw [val_main_v22_apply, val_main_v21_apply, val_main_cst_0_apply, val_main_v20_apply, val_main_v19_apply,
    val_main_cst_apply, val_main_v18_apply, val_main_v17_apply, val_main_v16_apply, val_main_v10_apply,
    val_main_v7_apply, val_main_v9_apply, val_main_v8_apply, val_main_v15_apply, val_main_v12_apply,
    val_main_v14_apply, val_main_v13_apply]
  simp only [val_main_v6_apply, val_main_v11_apply, lidx_v7, ridx_v7, bidx_v9, lidx_v12, ridx_v12, bidx_v14,
    x_at a0 a4 a5 a6 a7 a8 a9 a10 a11 a12 a13 a18 a19 a20 a21 a22 a23 a24 a25, Ideal.addf_def, Ideal.hostDivf_def, Ideal.hostUnary_exp_def, Ideal.hostNegf_def,
    Ideal.negf_def, Ideal.ofBits_def]
  rfl

/-! ## The candidate -/

theorem lidx_v27 (b : Fin 524288) (j k : Fin 16) : lidx_main_v27 (ix2 b j) k = ix2 b k :=
  funext fun a => Fin.ext (by match a with | ⟨0, _⟩ => rfl | ⟨1, _⟩ => rfl)
theorem ridx_v27 (b : Fin 524288) (j k : Fin 16) : idx_main_v26 (ridx_main_v27 (ix2 b j) k) = ix2 j k :=
  funext fun a => Fin.ext (by match a with | ⟨0, _⟩ => rfl | ⟨1, _⟩ => rfl)
theorem bidx_v29 (b : Fin 524288) (j : Fin 16) : idx_main_v28 (idx_main_v29 (ix2 b j)) = ix1 j :=
  funext fun a => Fin.ext (by match a with | ⟨0, _⟩ => rfl)
theorem lidx_v32 (b : Fin 524288) (j k : Fin 16) : lidx_main_v32 (ix2 b j) k = ix2 b k :=
  funext fun a => Fin.ext (by match a with | ⟨0, _⟩ => rfl | ⟨1, _⟩ => rfl)
theorem ridx_v32 (b : Fin 524288) (j k : Fin 16) : idx_main_v31 (ridx_main_v32 (ix2 b j) k) = ix2 j k :=
  funext fun a => Fin.ext (by match a with | ⟨0, _⟩ => rfl | ⟨1, _⟩ => rfl)
theorem bidx_v34 (b : Fin 524288) (j : Fin 16) : idx_main_v33 (idx_main_v34 (ix2 b j)) = ix1 j :=
  funext fun a => Fin.ext (by match a with | ⟨0, _⟩ => rfl)

/-- The candidate `j` of row `b`: the hyperbolic tangent of the two affine forms added. -/
theorem a_at (b : Fin 524288) (j : Fin 16) :
    val_main_v37 (F := Ideal) a0 a1 a4 a5 a10 a11 a12 a13 (ix2 b j)
      = TreeCell.aRow 𝐖 (TreeCell.uOf a0 b) (TreeCell.hpOf a1 b) j := by
  rw [val_main_v37_apply, val_main_v36_apply, val_main_v30_apply, val_main_v27_apply, val_main_v29_apply,
    val_main_v28_apply, val_main_v35_apply, val_main_v32_apply, val_main_v34_apply, val_main_v33_apply]
  simp only [val_main_v26_apply, val_main_v31_apply, lidx_v27, ridx_v27, bidx_v29, lidx_v32, ridx_v32, bidx_v34,
    x_at a0 a4 a5 a6 a7 a8 a9 a10 a11 a12 a13 a18 a19 a20 a21 a22 a23 a24 a25, Ideal.addf_def, Ideal.hostUnary_tanh_def]
  rfl

/-! ## The cell state and the hidden state -/

/-- The first slice of the joint gates is their first third … -/
theorem sidx_v23 (b : Fin 524288) (j : Fin 16) : idx_main_v23 (ix2 b j) = ix2 b (TreeCell.third0 j) :=
  funext fun a => Fin.ext (by match a with | ⟨0, _⟩ => rfl | ⟨1, _⟩ => rfl)
/-- … the second slice their second third … -/
theorem sidx_v24 (b : Fin 524288) (j : Fin 16) : idx_main_v24 (ix2 b j) = ix2 b (TreeCell.third1 j) :=
  funext fun a => Fin.ext (by match a with | ⟨0, _⟩ => rfl | ⟨1, _⟩ => rfl)
/-- … and the third slice their last third. -/
theorem sidx_v25 (b : Fin 524288) (j : Fin 16) : idx_main_v25 (ix2 b j) = ix2 b (TreeCell.third2 j) :=
  funext fun a => Fin.ext (by match a with | ⟨0, _⟩ => rfl | ⟨1, _⟩ => rfl)

/-- The new cell state at `(b, j)`. -/
theorem c_at (b : Fin 524288) (j : Fin 16) :
    val_main_v40 (F := Ideal) a0 a1 a2 a4 a5 a6 a7 a8 a9 a10 a11 a12 a13 (ix2 b j)
      = TreeCell.cRow 𝐖 (TreeCell.uOf a0 b) (TreeCell.hpOf a1 b) (TreeCell.cpOf a2 b) j := by
  rw [val_main_v40_apply, val_main_v38_apply, val_main_v39_apply, val_main_v23_apply, val_main_v24_apply]
  simp only [sidx_v23, sidx_v24, ifo_at a0 a1 a4 a5 a6 a7 a8 a9 a10 a11 a12 a13 a18 a19 a20 a21 a22 a23 a24 a25, a_at a0 a1 a4 a5 a6 a7 a8 a9 a10 a11 a12 a13 a18 a19 a20 a21 a22 a23 a24 a25, Ideal.addf_def, Ideal.mulf_def]
  rfl

/-- The new hidden state at `(b, j)`. -/
theorem h_at (b : Fin 524288) (j : Fin 16) :
    val_main_v42 (F := Ideal) a0 a1 a2 a4 a5 a6 a7 a8 a9 a10 a11 a12 a13 (ix2 b j)
      = TreeCell.hRow 𝐖 (TreeCell.uOf a0 b) (TreeCell.hpOf a1 b) (TreeCell.cpOf a2 b) j := by
  rw [val_main_v42_apply, val_main_v25_apply, val_main_v41_apply]
  simp only [sidx_v25, ifo_at a0 a1 a4 a5 a6 a7 a8 a9 a10 a11 a12 a13 a18 a19 a20 a21 a22 a23 a24 a25, c_at a0 a1 a2 a4 a5 a6 a7 a8 a9 a10 a11 a12 a13 a18 a19 a20 a21 a22 a23 a24 a25, Ideal.mulf_def, Ideal.hostUnary_tanh_def]
  rfl

/-- The reference program's second result is the array of new cell states. -/
theorem ref_c :
    val_main_v40 (F := Ideal) a0 a1 a2 a4 a5 a6 a7 a8 a9 a10 a11 a12 a13 = TreeCell.cArr 𝐖 a0 a1 a2 := by
  funext i
  obtain ⟨b, j, rfl⟩ : ∃ (b : Fin 524288) (j : Fin 16), i = ix2 b j := ⟨i 0, i 1, eq_ix2 i⟩
  exact c_at a0 a1 a2 a4 a5 a6 a7 a8 a9 a10 a11 a12 a13 a18 a19 a20 a21 a22 a23 a24 a25 b j

/-- The reference program's first result is the array of new hidden states. -/
theorem ref_h :
    val_main_v42 (F := Ideal) a0 a1 a2 a4 a5 a6 a7 a8 a9 a10 a11 a12 a13 = TreeCell.hArr 𝐖 a0 a1 a2 := by
  funext i
  obtain ⟨b, j, rfl⟩ : ∃ (b : Fin 524288) (j : Fin 16), i = ix2 b j := ⟨i 0, i 1, eq_ix2 i⟩
  exact h_at a0 a1 a2 a4 a5 a6 a7 a8 a9 a10 a11 a12 a13 a18 a19 a20 a21 a22 a23 a24 a25 b j

/-! ## The child gates and the neighbourhood term -/

theorem lidx_v44 (r : Fin 524288) (c : Fin 128) (k : Fin 16) : lidx_main_v44 (ix2 r c) k = ix2 r k :=
  funext fun a => Fin.ext (by match a with | ⟨0, _⟩ => rfl | ⟨1, _⟩ => rfl)
theorem ridx_v44 (r : Fin 524288) (c : Fin 128) (k : Fin 16) : idx_main_v43 (ridx_main_v44 (ix2 r c) k) = ix2 c k :=
  funext fun a => Fin.ext (by match a with | ⟨0, _⟩ => rfl | ⟨1, _⟩ => rfl)
theorem bidx_v46 (r : Fin 524288) (c : Fin 128) : idx_main_v45 (idx_main_v46 (ix2 r c)) = ix1 c :=
  funext fun a => Fin.ext (by match a with | ⟨0, _⟩ => rfl)
theorem lidx_v49 (r : Fin 524288) (c : Fin 128) (k : Fin 16) : lidx_main_v49 (ix2 r c) k = ix2 r k :=
  funext fun a => Fin.ext (by match a with | ⟨0, _⟩ => rfl | ⟨1, _⟩ => rfl)
theorem ridx_v49 (r : Fin 524288) (c : Fin 128) (k : Fin 16) : idx_main_v48 (ridx_main_v49 (ix2 r c) k) = ix2 c k :=
  funext fun a => Fin.ext (by match a with | ⟨0, _⟩ => rfl | ⟨1, _⟩ => rfl)
theorem bidx_v51 (r : Fin 524288) (c : Fin 128) : idx_main_v50 (idx_main_v51 (ix2 r c)) = ix1 c :=
  funext fun a => Fin.ext (by match a with | ⟨0, _⟩ => rfl)

/-- The child gate `c` of row `r` in the `[524288, 128]` table. -/
theorem gate_at (r : Fin 524288) (c : Fin 128) :
    val_main_v59 (F := Ideal) a0 a1 a4 a5 a14 a15 a16 a17 (ix2 r c) = TreeCell.gateAt 𝐖 𝐐 a0 a1 r c := by
  rw [val_main_v59_apply, val_main_v58_apply, val_main_cst_2_apply, val_main_v57_apply, val_main_v56_apply,
    val_main_cst_1_apply, val_main_v55_apply, val_main_v54_apply, val_main_v53_apply, val_main_v47_apply,
    val_main_v44_apply, val_main_v46_apply, val_main_v45_apply, val_main_v52_apply, val_main_v49_apply,
    val_main_v51_apply, val_main_v50_apply]
  simp only [val_main_v43_apply, val_main_v48_apply, lidx_v44, ridx_v44, bidx_v46, lidx_v49, ridx_v49, bidx_v51,
    x_at a0 a4 a5 a6 a7 a8 a9 a10 a11 a12 a13 a18 a19 a20 a21 a22 a23 a24 a25, Ideal.addf_def, Ideal.hostDivf_def, Ideal.hostUnary_exp_def, Ideal.hostNegf_def,
    Ideal.negf_def, Ideal.ofBits_def]
  rfl

/-- The sum over the children reads child `k`'s entry `(b, j)` … -/
theorem ridx_v62 (b : Fin 524288) (j : Fin 16) (k : Fin 8) : idx_main_v62 (ix2 b j) k = ix3 k b j :=
  funext fun a => Fin.ext (by match a with | ⟨0, _⟩ => rfl | ⟨1, _⟩ => rfl | ⟨2, _⟩ => rfl)
/-- … and the reinterpreted gate table reads the original at the flat position's row and column. -/
theorem idx_v60 (c : Fin 8) (b : Fin 524288) (j : Fin 16) :
    idx_main_v60 (ix3 c b j) = ix2 (TreeCell.rowOf c b j) (TreeCell.colOf c b j) :=
  funext fun a => Fin.ext (by match a with | ⟨0, _⟩ => rfl | ⟨1, _⟩ => rfl)

/-- The neighbourhood term at `(b, j)`. -/
theorem neigh_at (b : Fin 524288) (j : Fin 16) :
    val_main_v62 (F := Ideal) a0 a1 a3 a4 a5 a14 a15 a16 a17 (ix2 b j) = TreeCell.neigh 𝐖 𝐐 a0 a1 a3 b j := by
  rw [val_main_v62_apply, val_main_cst_3_apply]
  simp only [val_main_v61_apply, val_main_v60_apply, ridx_v62, idx_v60, gate_at a0 a1 a4 a5 a6 a7 a8 a9 a10 a11 a12 a13 a14 a15 a16 a17 a18 a19 a20 a21 a22 a23 a24 a25,
    Ideal.mulf_def, Ideal.ofBits_def]
  rfl

/-! ## The node gates and the node state -/

theorem lidx_v64 (b : Fin 524288) (j k : Fin 16) : lidx_main_v64 (ix2 b j) k = ix2 b k :=
  funext fun a => Fin.ext (by match a with | ⟨0, _⟩ => rfl | ⟨1, _⟩ => rfl)
theorem ridx_v64 (b : Fin 524288) (j k : Fin 16) : idx_main_v63 (ridx_main_v64 (ix2 b j) k) = ix2 j k :=
  funext fun a => Fin.ext (by match a with | ⟨0, _⟩ => rfl | ⟨1, _⟩ => rfl)
theorem bidx_v66 (b : Fin 524288) (j : Fin 16) : idx_main_v65 (idx_main_v66 (ix2 b j)) = ix1 j :=
  funext fun a => Fin.ext (by match a with | ⟨0, _⟩ => rfl)
theorem lidx_v69 (b : Fin 524288) (j k : Fin 16) : lidx_main_v69 (ix2 b j) k = ix2 b k :=
  funext fun a => Fin.ext (by match a with | ⟨0, _⟩ => rfl | ⟨1, _⟩ => rfl)
theorem ridx_v69 (b : Fin 524288) (j k : Fin 16) : idx_main_v68 (ridx_main_v69 (ix2 b j) k) = ix2 j k :=
  funext fun a => Fin.ext (by match a with | ⟨0, _⟩ => rfl | ⟨1, _⟩ => rfl)
theorem bidx_v71 (b : Fin 524288) (j : Fin 16) : idx_main_v70 (idx_main_v71 (ix2 b j)) = ix1 j :=
  funext fun a => Fin.ext (by match a with | ⟨0, _⟩ => rfl)

/-- The first node gate at `(b, j)`. -/
theorem n1_at (b : Fin 524288) (j : Fin 16) :
    val_main_v79 (F := Ideal) a0 a1 a4 a5 a18 a19 a20 a21 (ix2 b j)
      = TreeCell.n1Row 𝐖 (TreeCell.uOf a0 b) (TreeCell.hpOf a1 b) j := by
  rw [val_main_v79_apply, val_main_v78_apply, val_main_cst_5_apply, val_main_v77_apply, val_main_v76_apply,
    val_main_cst_4_apply, val_main_v75_apply, val_main_v74_apply, val_main_v73_apply, val_main_v67_apply,
    val_main_v64_apply, val_main_v66_apply, val_main_v65_apply, val_main_v72_apply, val_main_v69_apply,
    val_main_v71_apply, val_main_v70_apply]
  simp only [val_main_v63_apply, val_main_v68_apply, lidx_v64, ridx_v64, bidx_v66, lidx_v69, ridx_v69, bidx_v71,
    x_at a0 a4 a5 a6 a7 a8 a9 a10 a11 a12 a13 a18 a19 a20 a21 a22 a23 a24 a25, Ideal.addf_def, Ideal.hostDivf_def, Ideal.hostUnary_exp_def, Ideal.hostNegf_def,
    Ideal.negf_def, Ideal.ofBits_def]
  rfl

theorem lidx_v81 (b : Fin 524288) (j k : Fin 16) : lidx_main_v81 (ix2 b j) k = ix2 b k :=
  funext fun a => Fin.ext (by match a with | ⟨0, _⟩ => rfl | ⟨1, _⟩ => rfl)
theorem ridx_v81 (b : Fin 524288) (j k : Fin 16) : idx_main_v80 (ridx_main_v81 (ix2 b j) k) = ix2 j k :=
  funext fun a => Fin.ext (by match a with | ⟨0, _⟩ => rfl | ⟨1, _⟩ => rfl)
theorem bidx_v83 (b : Fin 524288) (j : Fin 16) : idx_main_v82 (idx_main_v83 (ix2 b j)) = ix1 j :=
  funext fun a => Fin.ext (by match a with | ⟨0, _⟩ => rfl)
theorem lidx_v86 (b : Fin 524288) (j k : Fin 16) : lidx_main_v86 (ix2 b j) k = ix2 b k :=
  funext fun a => Fin.ext (by match a with | ⟨0, _⟩ => rfl | ⟨1, _⟩ => rfl)
theorem ridx_v86 (b : Fin 524288) (j k : Fin 16) : idx_main_v85 (ridx_main_v86 (ix2 b j) k) = ix2 j k :=
  funext fun a => Fin.ext (by match a with | ⟨0, _⟩ => rfl | ⟨1, _⟩ => rfl)
theorem bidx_v88 (b : Fin 524288) (j : Fin 16) : idx_main_v87 (idx_main_v88 (ix2 b j)) = ix1 j :=
  funext fun a => Fin.ext (by match a with | ⟨0, _⟩ => rfl)

/-- The second node gate at `(b, j)`, fed by the new hidden state of row `b`. -/
theorem n2_at (b : Fin 524288) (j : Fin 16) :
    val_main_v96 (F := Ideal) a0 a1 a2 a4 a5 a6 a7 a8 a9 a10 a11 a12 a13 a22 a23 a24 a25 (ix2 b j)
      = TreeCell.n2Row 𝐖 (TreeCell.uOf a0 b) (TreeCell.hpOf a1 b) (TreeCell.cpOf a2 b) j := by
  rw [val_main_v96_apply, val_main_v95_apply, val_main_cst_7_apply, val_main_v94_apply, val_main_v93_apply,
    val_main_cst_6_apply, val_main_v92_apply, val_main_v91_apply, val_main_v90_apply, val_main_v84_apply,
    val_main_v81_apply, val_main_v83_apply, val_main_v82_apply, val_main_v89_apply, val_main_v86_apply,
    val_main_v88_apply, val_main_v87_apply]
  simp only [val_main_v80_apply, val_main_v85_apply, lidx_v81, ridx_v81, bidx_v83, lidx_v86, ridx_v86, bidx_v88,
    x_at a0 a4 a5 a6 a7 a8 a9 a10 a11 a12 a13 a18 a19 a20 a21 a22 a23 a24 a25, h_at a0 a1 a2 a4 a5 a6 a7 a8 a9 a10 a11 a12 a13 a18 a19 a20 a21 a22 a23 a24 a25, Ideal.addf_def, Ideal.hostDivf_def, Ideal.hostUnary_exp_def,
    Ideal.hostNegf_def, Ideal.negf_def, Ideal.ofBits_def]
  rfl

/-- The new node state at `(b, j)`. -/
theorem n_at (b : Fin 524288) (j : Fin 16) :
    val_main_v99 (F := Ideal) a0 a1 a2 a3 a4 a5 a6 a7 a8 a9 a10 a11 a12 a13 a14 a15 a16 a17 a18 a19 a20 a21 a22 a23
        a24 a25 (ix2 b j)
      = TreeCell.n1Row 𝐖 (TreeCell.uOf a0 b) (TreeCell.hpOf a1 b) j * TreeCell.neigh 𝐖 𝐐 a0 a1 a3 b j
        + TreeCell.n2Row 𝐖 (TreeCell.uOf a0 b) (TreeCell.hpOf a1 b) (TreeCell.cpOf a2 b) j
          * TreeCell.hRow 𝐖 (TreeCell.uOf a0 b) (TreeCell.hpOf a1 b) (TreeCell.cpOf a2 b) j := by
  rw [val_main_v99_apply, val_main_v97_apply, val_main_v98_apply, n1_at a0 a1 a4 a5 a6 a7 a8 a9 a10 a11 a12 a13 a18 a19 a20 a21 a22 a23 a24 a25, neigh_at a0 a1 a3 a4 a5 a6 a7 a8 a9 a10 a11 a12 a13 a14 a15 a16 a17 a18 a19 a20 a21 a22 a23 a24 a25,
    n2_at a0 a1 a2 a4 a5 a6 a7 a8 a9 a10 a11 a12 a13 a18 a19 a20 a21 a22 a23 a24 a25, h_at a0 a1 a2 a4 a5 a6 a7 a8 a9 a10 a11 a12 a13 a18 a19 a20 a21 a22 a23 a24 a25]
  rfl

/-- The reference program's third result is the array of new node states. -/
theorem ref_n :
    val_main_v99 (F := Ideal) a0 a1 a2 a3 a4 a5 a6 a7 a8 a9 a10 a11 a12 a13 a14 a15 a16 a17 a18 a19 a20 a21 a22 a23
        a24 a25
      = TreeCell.nArr 𝐖 𝐐 a0 a1 a2 a3 := by
  funext i
  obtain ⟨b, j, rfl⟩ : ∃ (b : Fin 524288) (j : Fin 16), i = ix2 b j := ⟨i 0, i 1, eq_ix2 i⟩
  exact n_at a0 a1 a2 a3 a4 a5 a6 a7 a8 a9 a10 a11 a12 a13 a14 a15 a16 a17 a18 a19 a20 a21 a22 a23 a24 a25 b j

end Cert.RefCell

end
-- ==== Proof.lean ====
/-
  A child-sum tree cell over 524288 independent rows, sixteen hidden entries, eight children: the kernel against its
  plain reference, on the extended reals.

  Per row both programs compute the same cell: the mapped input `x = max (u · w_in + b_in) 0`; three gates, a candidate
  and two node gates, each a logistic or a hyperbolic tangent of a sum of two affine forms; the new cell state
  `c = i · a + f · c_prev`; the new hidden state `h = o · tanh c`; and the node state `n = n₁ · N + n₂ · h`, where the
  neighbourhood `N` sums, over the eight children, the child's state times a gate read out of the `B × 128` gate table
  through the flat reinterpretation `[B, 128] → [8, B, 16]`.

  The reference is a line of host operations. The kernel keeps every weight transposed, computes rows 2048 at a time in a
  first launch (the states, the node gates and the mapped inputs), reinterprets flat buffers — the leading axis split into
  eight runs of 65536 rows, eight rows of sixteen merged into one of a hundred and twenty-eight — and in a second launch
  recomputes each child's gates from the mapped inputs and the previous hidden states of that child's run of rows. On the
  extended reals a change of float format is the identity, a matrix product into a zero accumulator is a finite sum, the
  logistic is the quotient `1 / (1 + e^(-z))` on both sides, and the two programs group the same sums differently:
  associativity of addition, and the arithmetic `524288 = 8 · 65536`, `128 = 8 · 16` of the reinterpretations, are all
  that joins them. No distributive law is used, so the finiteness of the inputs is never opened.

  `Cert.Claim`: the three programs run to the end without a fault and leave their arguments unchanged; the idealized
  kernel is the kernel's own text read on the extended reals (no rewrite to account for); and from memories agreeing on
  the arguments the idealized kernel and the idealized reference end with the same three arrays.
-/
import proofs.«110906_j20761871909637_2_alg».proof.Defs
import proofs.«110906_j20761871909637_2_alg».proof.Proof.Gen.Kernel
import proofs.«110906_j20761871909637_2_alg».proof.Proof.Gen.KernelIdeal
import proofs.«110906_j20761871909637_2_alg».proof.Proof.Gen.ReferenceIdeal
import proofs.«110906_j20761871909637_2_alg».proof.Proof.Gen.Pre_finite_inputs
import proofs.«110906_j20761871909637_2_alg».proof.Proof.Gen.ReferenceIdeal.Run
import proofs.«110906_j20761871909637_2_alg».proof.Proof.Gen.ReferenceIdeal.Read
import proofs.«110906_j20761871909637_2_alg».proof.Proof.FrameKernelP
import proofs.«110906_j20761871909637_2_alg».proof.Proof.FrameKernelIdealP
import proofs.«110906_j20761871909637_2_alg».proof.Proof.KernelRun
import proofs.«110906_j20761871909637_2_alg».proof.Proof.KernelValue
import proofs.«110906_j20761871909637_2_alg».proof.Proof.RefCell
import Idealize.ShloMosaic.Adequacy
import Idealize.ShloMosaic.Init

set_option maxRecDepth 16384

noncomputable section

namespace Cert.Proof

open Idealize.ShloMosaic Idealize.SL.Sem

/-- The kernel as printed runs to the end and keeps its arguments. -/
theorem frame_k [Cert.Kernel.Facts] [Cert.Pre_finite_inputs.Facts] : Cert.frame_Kernel :=
  fun m ρ _ => Cert.Kernel.GenP.frame m ρ

/-- So does the kernel read on the extended reals. -/
theorem frame_ki [Cert.KernelIdeal.Facts] [Cert.Pre_finite_inputs.Facts] : Cert.frame_KernelIdeal :=
  fun m ρ _ => Cert.KernelIdeal.GenP.frame m ρ

/-- The reference's run, with the results dropped, is its frame. -/
theorem frame_ri [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- The reference's new hidden states are the cell's, over the kernel's arguments when the two memories agree. -/
theorem ref_hidden (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v42 m' c
      = TreeCell.hArr (Cert.KernelIdeal.KernelValue.rowW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨e0, e1, e2, e3, e4, e5, e6, e7, e8, e9, e10, e11, e12, e13, e14, e15, e16, e17, e18, e19, e20, e21, e22, e23, e24, e25⟩ := hagree
  rw [Cert.ReferenceIdeal.Read.val_main_v42_eq,
    Cert.RefCell.ref_h (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)),
    e0, e1, e2, e4, e5, e6, e7, e8, e9, e10, e11, e12, e13, e18, e19, e20, e21, e22, e23, e24, e25]

/-- The reference's new cell states. -/
theorem ref_cell (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v40 m' c
      = TreeCell.cArr (Cert.KernelIdeal.KernelValue.rowW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) := by
  obtain ⟨e0, e1, e2, e3, e4, e5, e6, e7, e8, e9, e10, e11, e12, e13, e14, e15, e16, e17, e18, e19, e20, e21, e22, e23, e24, e25⟩ := hagree
  rw [Cert.ReferenceIdeal.Read.val_main_v40_eq,
    Cert.RefCell.ref_c (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)),
    e0, e1, e2, e4, e5, e6, e7, e8, e9, e10, e11, e12, e13, e18, e19, e20, e21, e22, e23, e24, e25]

/-- The reference's new node states. -/
theorem ref_node (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) :
    Cert.ReferenceIdeal.Value.res_main_v99 m' c
      = TreeCell.nArr (Cert.KernelIdeal.KernelValue.rowW m c) (Cert.KernelIdeal.KernelValue.childW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) := by
  obtain ⟨e0, e1, e2, e3, e4, e5, e6, e7, e8, e9, e10, e11, e12, e13, e14, e15, e16, e17, e18, e19, e20, e21, e22, e23, e24, e25⟩ := hagree
  rw [Cert.ReferenceIdeal.Read.val_main_v99_eq,
    Cert.RefCell.ref_n (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25)),
    e0, e1, e2, e3, e4, e5, e6, e7, e8, e9, e10, e11, e12, e13, e14, e15, e16, e17, e18, e19, e20, e21, e22, e23, e24, e25]

/-- Both idealized programs end at the cell's three arrays over the arguments: the new hidden states, the new cell
    states, the new node states. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => TreeCell.hArr (Cert.KernelIdeal.KernelValue.rowW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => TreeCell.cArr (Cert.KernelIdeal.KernelValue.rowW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)),
    fun c => TreeCell.nArr (Cert.KernelIdeal.KernelValue.rowW m c) (Cert.KernelIdeal.KernelValue.childW m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    ?_, ?_⟩
  · refine (θ_run Cert.KernelIdeal.defs _ _).mono (fun r h c => ?_) (Cert.KernelIdeal.Results.run_results m ρ)
    obtain ⟨h0, h1, h2, hargs⟩ := h c
    exact ⟨h0.trans (Cert.KernelIdeal.KernelValue.kernel_h m ρ c), h1.trans (Cert.KernelIdeal.KernelValue.kernel_c m ρ c),
      h2.trans (Cert.KernelIdeal.KernelValue.kernel_n m ρ c), hargs⟩
  · refine (θ_run Cert.ReferenceIdeal.defs _ _).mono (fun r h c => ?_) (Cert.ReferenceIdeal.Value.run (F := Ideal) m' ρ')
    obtain ⟨h0, h1, h2, hargs⟩ := h c
    exact ⟨h0.trans (ref_hidden m m' c (hagree c)), h1.trans (ref_cell m m' c (hagree c)), h2.trans (ref_node m m' c (hagree c)), hargs⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
